-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) →
    ∃ (v0 : (c : Dev Cert.KernelIdeal.nD) → Buf (Elt Ideal) ((c.tc : Thread Cert.KernelIdeal.nD Cert.KernelIdeal.τ).loc Cert.KernelIdeal.main_v142)) (v1 : (c : Dev Cert.KernelIdeal.nD) → Buf (Elt Ideal) ((c.tc : Thread Cert.KernelIdeal.nD Cert.KernelIdeal.τ).loc Cert.KernelIdeal.main_v147)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v142) = v0 c
          ∧ r.2.mem ((c.tc : Thread Cert.KernelIdeal.nD Cert.KernelIdeal.τ).loc Cert.KernelIdeal.main_v147) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v185) = v0 c
          ∧ r.2.mem ((c.tc : Thread Cert.ReferenceIdeal.nD Cert.ReferenceIdeal.τ).loc Cert.ReferenceIdeal.main_v213) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x20000x128 : Shape := ⟨3, ![2, 20000, 128]⟩
abbrev S2x100000x128 : Shape := ⟨3, ![2, 100000, 128]⟩
abbrev S2x160000 : Shape := ⟨2, ![2, 160000]⟩
abbrev S2x800000 : Shape := ⟨2, ![2, 800000]⟩
abbrev S2x40000 : Shape := ⟨2, ![2, 40000]⟩
abbrev S256x128 : Shape := ⟨2, ![256, 128]⟩
abbrev S256 : Shape := ⟨1, ![256]⟩
abbrev S128x256 : Shape := ⟨2, ![128, 256]⟩
abbrev S128 : Shape := ⟨1, ![128]⟩
abbrev S_ : Shape := ⟨0, ![]⟩

class Facts : Prop where
  bcast_S_S2x20000x128 : S_.BroadcastsInDim S2x20000x128 (![] : Fin 0 → Fin S2x20000x128.rank)
  reducesTo_S2x20000x128_S_d0_1_2 : S2x20000x128.ReducesTo [0, 1, 2] S_
  h_S_ : 0 < S_.numel
  bcast_S_S2x100000x128 : S_.BroadcastsInDim S2x100000x128 (![] : Fin 0 → Fin S2x100000x128.rank)
  reducesTo_S2x100000x128_S_d0_1_2 : S2x100000x128.ReducesTo [0, 1, 2] S_
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn_part6 {F : FTy → Type} [FloatOps F] (main_arg25 : FVec F S128 .f32) (main_v98 : IVec S_ 1) (main_v101 : IVec S128 1) (main_c_39 : IVec S_ 1) : IVec S_ 1 :=
  let main_v102 : IVec S_ 1 := (fun x v => Host.reduce IntOp.andi x v reducesTo_S128_S_d0 h_S_) main_v101 main_c_39
  let main_v103 : IVec S_ 1 := andi main_v98 main_v102
  let main_v104 : FVec F S128 .f32 := Host.absf main_arg25
  let main_cst_40 : FVec F S_ .f32 := constant S_ .f32 0x7F800000#32
  let main_v105 : FVec F S128 .f32 := broadcastInDim S128 ![] bcast_S_S128 main_cst_40
  let main_v106 : IVec S128 1 := cmpf .olt main_v104 main_v105
  let main_c_41 : IVec S_ 1 := constantI S_ 1 1#1
  let main_v107 : IVec S_ 1 := (fun x v => Host.reduce IntOp.andi x v reducesTo_S128_S_d0 h_S_) main_v106 main_c_41
  let main_v108 : IVec S_ 1 := andi main_v103 main_v107
  main_v108

def fn_part5 {F : FTy → Type} [FloatOps F] (main_arg22 : FVec F S128 .f32) (main_arg23 : FVec F S128 .f32) (main_arg24 : FVec F S128 .f32) (main_arg25 : FVec F S128 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128 .f32 := Host.absf main_arg22
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128 .f32 := Host.absf main_arg23
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_v99 : FVec F S128 .f32 := Host.absf main_arg24
  let main_cst_38 : FVec F S_ .f32 := constant S_ .f32 0x7F800000#32
  let main_v100 : FVec F S128 .f32 := broadcastInDim S128 ![] bcast_S_S128 main_cst_38
  let main_v101 : IVec S128 1 := cmpf .olt main_v99 main_v100
  let main_c_39 : IVec S_ 1 := constantI S_ 1 1#1
  fn_part6 (F := F) main_arg25 main_v98 main_v101 main_c_39

def fn_part4 {F : FTy → Type} [FloatOps F] (main_arg18 : FVec F S128x256 .f32) (main_arg19 : FVec F S128 .f32) (main_arg20 : FVec F S128x256 .f32) (main_arg21 : FVec F S128 .f32) (main_arg22 : FVec F S128 .f32) (main_arg23 : FVec F S128 .f32) (main_arg24 : FVec F S128 .f32) (main_arg25 : FVec F S128 .f32) (main_v63 : IVec S_ 1) (main_v67 : IVec S_ 1) : IVec S_ 1 :=
  let main_v68 : IVec S_ 1 := andi main_v63 main_v67
  let main_v69 : FVec F S128x256 .f32 := Host.absf main_arg18
  let main_cst_26 : FVec F S_ .f32 := constant S_ .f32 0x7F800000#32
  let main_v70 : FVec F S128x256 .f32 := broadcastInDim S128x256 ![] bcast_S_S128x256 main_cst_26
  let main_v71 : IVec S128x256 1 := cmpf .olt main_v69 main_v70
  let main_c_27 : IVec S_ 1 := constantI S_ 1 1#1
  let main_v72 : IVec S_ 1 := (fun x v => Host.reduce IntOp.andi x v reducesTo_S128x256_S_d0_1 h_S_) main_v71 main_c_27
  let main_v73 : IVec S_ 1 := andi main_v68 main_v72
  let main_v74 : FVec F S128 .f32 := Host.absf main_arg19
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x256 .f32 := Host.absf main_arg20
  let main_cst_30 : FVec F S_ .f32 := constant S_ .f32 0x7F800000#32
  let main_v80 : FVec F S128x256 .f32 := broadcastInDim S128x256 ![] bcast_S_S128x256 main_cst_30
  let main_v81 : IVec S128x256 1 := cmpf .olt main_v79 main_v80
  let main_c_31 : IVec S_ 1 := constantI S_ 1 1#1
  let main_v82 : IVec S_ 1 := (fun x v => Host.reduce IntOp.andi x v reducesTo_S128x256_S_d0_1 h_S_) main_v81 main_c_31
  let main_v83 : IVec S_ 1 := andi main_v78 main_v82
  let main_v84 : FVec F S128 .f32 := Host.absf main_arg21
  let main_cst_32 : FVec F S_ .f32 := constant S_ .f32 0x7F800000#32
  fn_part5 (F := F) main_arg22 main_arg23 main_arg24 main_arg25 main_v83 main_v84 main_cst_32

def fn_part3 {F : FTy → Type} [FloatOps F] (main_arg15 : FVec F S256x128 .f32) (main_arg16 : FVec F S256 .f32) (main_arg17 : FVec F S256x128 .f32) (main_arg18 : FVec F S128x256 .f32) (main_arg19 : FVec F S128 .f32) (main_arg20 : FVec F S128x256 .f32) (main_arg21 : FVec F S128 .f32) (main_arg22 : FVec F S128 .f32) (main_arg23 : FVec F S128 .f32) (main_arg24 : FVec F S128 .f32) (main_arg25 : FVec F S128 .f32) (main_v48 : IVec S_ 1) (main_v49 : FVec F S256x128 .f32) (main_v50 : FVec F S256x128 .f32) : IVec S_ 1 :=
  let main_v51 : IVec S256x128 1 := cmpf .olt main_v49 main_v50
  let main_c_19 : IVec S_ 1 := constantI S_ 1 1#1
  let main_v52 : IVec S_ 1 := (fun x v => Host.reduce IntOp.andi x v reducesTo_S256x128_S_d0_1 h_S_) main_v51 main_c_19
  let main_v53 : IVec S_ 1 := andi main_v48 main_v52
  let main_v54 : FVec F S256x128 .f32 := Host.absf main_arg15
  let main_cst_20 : FVec F S_ .f32 := constant S_ .f32 0x7F800000#32
  let main_v55 : FVec F S256x128 .f32 := broadcastInDim S256x128 ![] bcast_S_S256x128 main_cst_20
  let main_v56 : IVec S256x128 1 := cmpf .olt main_v54 main_v55
  let main_c_21 : IVec S_ 1 := constantI S_ 1 1#1
  let main_v57 : IVec S_ 1 := (fun x v => Host.reduce IntOp.andi x v reducesTo_S256x128_S_d0_1 h_S_) main_v56 main_c_21
  let main_v58 : IVec S_ 1 := andi main_v53 main_v57
  let main_v59 : FVec F S256 .f32 := Host.absf main_arg16
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256x128 .f32 := Host.absf main_arg17
  let main_cst_24 : FVec F S_ .f32 := constant S_ .f32 0x7F800000#32
  let main_v65 : FVec F S256x128 .f32 := broadcastInDim S256x128 ![] bcast_S_S256x128 main_cst_24
  let main_v66 : IVec S256x128 1 := cmpf .olt main_v64 main_v65
  let main_c_25 : IVec S_ 1 := constantI S_ 1 1#1
  let main_v67 : IVec S_ 1 := (fun x v => Host.reduce IntOp.andi x v reducesTo_S256x128_S_d0_1 h_S_) main_v66 main_c_25
  fn_part4 (F := F) main_arg18 main_arg19 main_arg20 main_arg21 main_arg22 main_arg23 main_arg24 main_arg25 main_v63 main_v67

def fn_part2 {F : FTy → Type} [FloatOps F] (main_arg11 : FVec F S256x128 .f32) (main_arg12 : FVec F S256x128 .f32) (main_arg13 : FVec F S256 .f32) (main_arg14 : FVec F S256x128 .f32) (main_arg15 : FVec F S256x128 .f32) (main_arg16 : FVec F S256 .f32) (main_arg17 : FVec F S256x128 .f32) (main_arg18 : FVec F S128x256 .f32) (main_arg19 : FVec F S128 .f32) (main_arg20 : FVec F S128x256 .f32) (main_arg21 : FVec F S128 .f32) (main_arg22 : FVec F S128 .f32) (main_arg23 : FVec F S128 .f32) (main_arg24 : FVec F S128 .f32) (main_arg25 : FVec F S128 .f32) (main_v33 : IVec S_ 1) : IVec S_ 1 :=
  let main_v34 : FVec F S256x128 .f32 := Host.absf main_arg11
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S256x128 .f32 := Host.absf main_arg12
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  let main_v44 : FVec F S256 .f32 := Host.absf main_arg13
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x128 .f32 := Host.absf main_arg14
  let main_cst_18 : FVec F S_ .f32 := constant S_ .f32 0x7F800000#32
  let main_v50 : FVec F S256x128 .f32 := broadcastInDim S256x128 ![] bcast_S_S256x128 main_cst_18
  fn_part3 (F := F) main_arg15 main_arg16 main_arg17 main_arg18 main_arg19 main_arg20 main_arg21 main_arg22 main_arg23 main_arg24 main_arg25 main_v48 main_v49 main_v50

def fn_part1 {F : FTy → Type} [FloatOps F] (main_arg8 : FVec F S256x128 .f32) (main_arg9 : FVec F S256x128 .f32) (main_arg10 : FVec F S256 .f32) (main_arg11 : FVec F S256x128 .f32) (main_arg12 : FVec F S256x128 .f32) (main_arg13 : FVec F S256 .f32) (main_arg14 : FVec F S256x128 .f32) (main_arg15 : FVec F S256x128 .f32) (main_arg16 : FVec F S256 .f32) (main_arg17 : FVec F S256x128 .f32) (main_arg18 : FVec F S128x256 .f32) (main_arg19 : FVec F S128 .f32) (main_arg20 : FVec F S128x256 .f32) (main_arg21 : FVec F S128 .f32) (main_arg22 : FVec F S128 .f32) (main_arg23 : FVec F S128 .f32) (main_arg24 : FVec F S128 .f32) (main_arg25 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x128 .f32 := Host.absf main_arg8
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S256x128 .f32 := Host.absf main_arg9
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S256 .f32 := Host.absf main_arg10
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg11 main_arg12 main_arg13 main_arg14 main_arg15 main_arg16 main_arg17 main_arg18 main_arg19 main_arg20 main_arg21 main_arg22 main_arg23 main_arg24 main_arg25 main_v33

def fn {F : FTy → Type} [FloatOps F] (main_arg0 : FVec F S2x20000x128 .f32) (main_arg1 : FVec F S2x100000x128 .f32) (main_arg2 : IVec S2x160000 32) (main_arg3 : IVec S2x800000 32) (main_arg4 : IVec S2x40000 32) (main_arg5 : IVec S2x40000 32) (main_arg6 : FVec F S256x128 .f32) (main_arg7 : FVec F S256 .f32) (main_arg8 : FVec F S256x128 .f32) (main_arg9 : FVec F S256x128 .f32) (main_arg10 : FVec F S256 .f32) (main_arg11 : FVec F S256x128 .f32) (main_arg12 : FVec F S256x128 .f32) (main_arg13 : FVec F S256 .f32) (main_arg14 : FVec F S256x128 .f32) (main_arg15 : FVec F S256x128 .f32) (main_arg16 : FVec F S256 .f32) (main_arg17 : FVec F S256x128 .f32) (main_arg18 : FVec F S128x256 .f32) (main_arg19 : FVec F S128 .f32) (main_arg20 : FVec F S128x256 .f32) (main_arg21 : FVec F S128 .f32) (main_arg22 : FVec F S128 .f32) (main_arg23 : FVec F S128 .f32) (main_arg24 : FVec F S128 .f32) (main_arg25 : FVec F S128 .f32) : IVec S_ 1 :=
  let main_v0 : FVec F S2x20000x128 .f32 := Host.absf main_arg0
  let main_cst : FVec F S_ .f32 := constant S_ .f32 0x7F800000#32
  let main_v1 : FVec F S2x20000x128 .f32 := broadcastInDim S2x20000x128 ![] bcast_S_S2x20000x128 main_cst
  let main_v2 : IVec S2x20000x128 1 := cmpf .olt main_v0 main_v1
  let main_c : IVec S_ 1 := constantI S_ 1 1#1
  let main_v3 : IVec S_ 1 := (fun x v => Host.reduce IntOp.andi x v reducesTo_S2x20000x128_S_d0_1_2 h_S_) main_v2 main_c
  let main_v4 : FVec F S2x100000x128 .f32 := Host.absf main_arg1
  let main_cst_0 : FVec F S_ .f32 := constant S_ .f32 0x7F800000#32
  let main_v5 : FVec F S2x100000x128 .f32 := broadcastInDim S2x100000x128 ![] bcast_S_S2x100000x128 main_cst_0
  let main_v6 : IVec S2x100000x128 1 := cmpf .olt main_v4 main_v5
  let main_c_1 : IVec S_ 1 := constantI S_ 1 1#1
  let main_v7 : IVec S_ 1 := (fun x v => Host.reduce IntOp.andi x v reducesTo_S2x100000x128_S_d0_1_2 h_S_) main_v6 main_c_1
  let main_v8 : IVec S_ 1 := andi main_v3 main_v7
  let main_v9 : FVec F S256x128 .f32 := Host.absf main_arg6
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S256 .f32 := Host.absf main_arg7
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg8 main_arg9 main_arg10 main_arg11 main_arg12 main_arg13 main_arg14 main_arg15 main_arg16 main_arg17 main_arg18 main_arg19 main_arg20 main_arg21 main_arg22 main_arg23 main_arg24 main_arg25 main_v13 main_v16
-- ==== Kernel.lean ====
abbrev S2x20000x128 : Shape := ⟨3, ![2, 20000, 128]⟩
abbrev S2x100000x128 : Shape := ⟨3, ![2, 100000, 128]⟩
abbrev S2x160000 : Shape := ⟨2, ![2, 160000]⟩
abbrev S2x800000 : Shape := ⟨2, ![2, 800000]⟩
abbrev S2x40000 : Shape := ⟨2, ![2, 40000]⟩
abbrev S256x128 : Shape := ⟨2, ![256, 128]⟩
abbrev S256 : Shape := ⟨1, ![256]⟩
abbrev S128x256 : Shape := ⟨2, ![128, 256]⟩
abbrev S128 : Shape := ⟨1, ![128]⟩
abbrev S1x160000 : Shape := ⟨2, ![1, 160000]⟩
abbrev S160000 : Shape := ⟨1, ![160000]⟩
abbrev S_ : Shape := ⟨0, ![]⟩
abbrev S160000x1 : Shape := ⟨2, ![160000, 1]⟩
abbrev S2x160000x128 : Shape := ⟨3, ![2, 160000, 128]⟩
abbrev S20000 : Shape := ⟨1, ![20000]⟩
abbrev S1x40000 : Shape := ⟨2, ![1, 40000]⟩
abbrev S40000 : Shape := ⟨1, ![40000]⟩
abbrev S40000x1 : Shape := ⟨2, ![40000, 1]⟩
abbrev S2x40000x128 : Shape := ⟨3, ![2, 40000, 128]⟩
abbrev S1x800000 : Shape := ⟨2, ![1, 800000]⟩
abbrev S800000 : Shape := ⟨1, ![800000]⟩
abbrev S800000x1 : Shape := ⟨2, ![800000, 1]⟩
abbrev S2x800000x128 : Shape := ⟨3, ![2, 800000, 128]⟩
abbrev S100000 : Shape := ⟨1, ![100000]⟩
abbrev S20000x1 : Shape := ⟨2, ![20000, 1]⟩
abbrev S20000x2 : Shape := ⟨2, ![20000, 2]⟩
abbrev S100000x1 : Shape := ⟨2, ![100000, 1]⟩
abbrev S100000x2 : Shape := ⟨2, ![100000, 2]⟩
abbrev S1x256 : Shape := ⟨2, ![1, 256]⟩
abbrev S1x128 : Shape := ⟨2, ![1, 128]⟩
abbrev S2x2000x128 : Shape := ⟨3, ![2, 2000, 128]⟩
abbrev S2000x2 : Shape := ⟨2, ![2000, 2]⟩
abbrev S2000x1 : Shape := ⟨2, ![2000, 1]⟩
abbrev S1x2000x1 : Shape := ⟨3, ![1, 2000, 1]⟩
abbrev S4000x128 : Shape := ⟨2, ![4000, 128]⟩
abbrev S4000x256 : Shape := ⟨2, ![4000, 256]⟩
abbrev S4000 : Shape := ⟨1, ![4000]⟩
abbrev S4000x1 : Shape := ⟨2, ![4000, 1]⟩
abbrev S2x4000x128 : Shape := ⟨3, ![2, 4000, 128]⟩
abbrev S4000x2 : Shape := ⟨2, ![4000, 2]⟩
abbrev S1x4000x1 : Shape := ⟨3, ![1, 4000, 1]⟩
abbrev S8000x128 : Shape := ⟨2, ![8000, 128]⟩
abbrev S8000x256 : Shape := ⟨2, ![8000, 256]⟩
abbrev S8000 : Shape := ⟨1, ![8000]⟩
abbrev S8000x1 : Shape := ⟨2, ![8000, 1]⟩

abbrev nBuf : Space → Nat
  | .hbm => 218
  | .vmem => 36
  | .smem => 0
  | _ => 0

abbrev hbmTy0_0 (i : Nat) : BufTy := match i % 128 with
  | 0 => ⟨S2x20000x128, .f32⟩
  | 1 => ⟨S2x100000x128, .f32⟩
  | 2 => ⟨S2x160000, .i32⟩
  | 3 => ⟨S2x800000, .i32⟩
  | 4 => ⟨S2x40000, .i32⟩
  | 5 => ⟨S2x40000, .i32⟩
  | 6 => ⟨S256x128, .f32⟩
  | 7 => ⟨S256, .f32⟩
  | 8 => ⟨S256x128, .f32⟩
  | 9 => ⟨S256x128, .f32⟩
  | 10 => ⟨S256, .f32⟩
  | 11 => ⟨S256x128, .f32⟩
  | 12 => ⟨S256x128, .f32⟩
  | 13 => ⟨S256, .f32⟩
  | 14 => ⟨S256x128, .f32⟩
  | 15 => ⟨S256x128, .f32⟩
  | 16 => ⟨S256, .f32⟩
  | 17 => ⟨S256x128, .f32⟩
  | 18 => ⟨S128x256, .f32⟩
  | 19 => ⟨S128, .f32⟩
  | 20 => ⟨S128x256, .f32⟩
  | 21 => ⟨S128, .f32⟩
  | 22 => ⟨S128, .f32⟩
  | 23 => ⟨S128, .f32⟩
  | 24 => ⟨S128, .f32⟩
  | 25 => ⟨S128, .f32⟩
  | 26 => ⟨S1x160000, .i32⟩
  | 27 => ⟨S160000, .i32⟩
  | 28 => ⟨S1x160000, .i32⟩
  | 29 => ⟨S160000, .i32⟩
  | 30 => ⟨S_, .f32⟩
  | 31 => ⟨S2x20000x128, .f32⟩
  | 32 => ⟨S_, .i32⟩
  | 33 => ⟨S160000, .i32⟩
  | 34 => ⟨S160000, .i1⟩
  | 35 => ⟨S_, .i32⟩
  | 36 => ⟨S160000, .i32⟩
  | 37 => ⟨S160000, .i32⟩
  | 38 => ⟨S160000, .i32⟩
  | 39 => ⟨S160000x1, .i32⟩
  | 40 => ⟨S2x160000x128, .f32⟩
  | 41 => ⟨S_, .i32⟩
  | 42 => ⟨S160000, .i32⟩
  | 43 => ⟨S160000, .i1⟩
  | 44 => ⟨S_, .i32⟩
  | 45 => ⟨S160000, .i32⟩
  | 46 => ⟨S160000, .i32⟩
  | 47 => ⟨S160000, .i32⟩
  | 48 => ⟨S160000x1, .i32⟩
  | 49 => ⟨S2x20000x128, .f32⟩
  | 50 => ⟨S_, .f32⟩
  | 51 => ⟨S20000, .f32⟩
  | 52 => ⟨S_, .i32⟩
  | 53 => ⟨S160000, .i32⟩
  | 54 => ⟨S160000, .i1⟩
  | 55 => ⟨S_, .i32⟩
  | 56 => ⟨S160000, .i32⟩
  | 57 => ⟨S160000, .i32⟩
  | 58 => ⟨S160000, .i32⟩
  | 59 => ⟨S160000x1, .i32⟩
  | 60 => ⟨S_, .f32⟩
  | 61 => ⟨S160000, .f32⟩
  | 62 => ⟨S20000, .f32⟩
  | 63 => ⟨S1x40000, .i32⟩
  | 64 => ⟨S40000, .i32⟩
  | 65 => ⟨S1x40000, .i32⟩
  | 66 => ⟨S40000, .i32⟩
  | 67 => ⟨S_, .f32⟩
  | 68 => ⟨S2x20000x128, .f32⟩
  | 69 => ⟨S_, .i32⟩
  | 70 => ⟨S40000, .i32⟩
  | 71 => ⟨S40000, .i1⟩
  | 72 => ⟨S_, .i32⟩
  | 73 => ⟨S40000, .i32⟩
  | 74 => ⟨S40000, .i32⟩
  | 75 => ⟨S40000, .i32⟩
  | 76 => ⟨S40000x1, .i32⟩
  | 77 => ⟨S2x40000x128, .f32⟩
  | 78 => ⟨S_, .i32⟩
  | 79 => ⟨S40000, .i32⟩
  | 80 => ⟨S40000, .i1⟩
  | 81 => ⟨S_, .i32⟩
  | 82 => ⟨S40000, .i32⟩
  | 83 => ⟨S40000, .i32⟩
  | 84 => ⟨S40000, .i32⟩
  | 85 => ⟨S40000x1, .i32⟩
  | 86 => ⟨S2x20000x128, .f32⟩
  | 87 => ⟨S_, .f32⟩
  | 88 => ⟨S20000, .f32⟩
  | 89 => ⟨S_, .i32⟩
  | 90 => ⟨S40000, .i32⟩
  | 91 => ⟨S40000, .i1⟩
  | 92 => ⟨S_, .i32⟩
  | 93 => ⟨S40000, .i32⟩
  | 94 => ⟨S40000, .i32⟩
  | 95 => ⟨S40000, .i32⟩
  | 96 => ⟨S40000x1, .i32⟩
  | 97 => ⟨S_, .f32⟩
  | 98 => ⟨S40000, .f32⟩
  | 99 => ⟨S20000, .f32⟩
  | 100 => ⟨S1x800000, .i32⟩
  | 101 => ⟨S800000, .i32⟩
  | 102 => ⟨S1x800000, .i32⟩
  | 103 => ⟨S800000, .i32⟩
  | 104 => ⟨S_, .f32⟩
  | 105 => ⟨S2x100000x128, .f32⟩
  | 106 => ⟨S_, .i32⟩
  | 107 => ⟨S800000, .i32⟩
  | 108 => ⟨S800000, .i1⟩
  | 109 => ⟨S_, .i32⟩
  | 110 => ⟨S800000, .i32⟩
  | 111 => ⟨S800000, .i32⟩
  | 112 => ⟨S800000, .i32⟩
  | 113 => ⟨S800000x1, .i32⟩
  | 114 => ⟨S2x800000x128, .f32⟩
  | 115 => ⟨S_, .i32⟩
  | 116 => ⟨S800000, .i32⟩
  | 117 => ⟨S800000, .i1⟩
  | 118 => ⟨S_, .i32⟩
  | 119 => ⟨S800000, .i32⟩
  | 120 => ⟨S800000, .i32⟩
  | 121 => ⟨S800000, .i32⟩
  | 122 => ⟨S800000x1, .i32⟩
  | 123 => ⟨S2x100000x128, .f32⟩
  | 124 => ⟨S_, .f32⟩
  | 125 => ⟨S100000, .f32⟩
  | 126 => ⟨S_, .i32⟩
  | 127 => ⟨S800000, .i32⟩
  | _ => ⟨S2x20000x128, .f32⟩

abbrev hbmTy0_1 (i : Nat) : BufTy := match i % 128 with
  | 0 => ⟨S800000, .i1⟩
  | 1 => ⟨S_, .i32⟩
  | 2 => ⟨S800000, .i32⟩
  | 3 => ⟨S800000, .i32⟩
  | 4 => ⟨S800000, .i32⟩
  | 5 => ⟨S800000x1, .i32⟩
  | 6 => ⟨S_, .f32⟩
  | 7 => ⟨S800000, .f32⟩
  | 8 => ⟨S100000, .f32⟩
  | 9 => ⟨S1x40000, .i32⟩
  | 10 => ⟨S40000, .i32⟩
  | 11 => ⟨S1x40000, .i32⟩
  | 12 => ⟨S40000, .i32⟩
  | 13 => ⟨S_, .f32⟩
  | 14 => ⟨S2x100000x128, .f32⟩
  | 15 => ⟨S_, .i32⟩
  | 16 => ⟨S40000, .i32⟩
  | 17 => ⟨S40000, .i1⟩
  | 18 => ⟨S_, .i32⟩
  | 19 => ⟨S40000, .i32⟩
  | 20 => ⟨S40000, .i32⟩
  | 21 => ⟨S40000, .i32⟩
  | 22 => ⟨S40000x1, .i32⟩
  | 23 => ⟨S2x40000x128, .f32⟩
  | 24 => ⟨S_, .i32⟩
  | 25 => ⟨S40000, .i32⟩
  | 26 => ⟨S40000, .i1⟩
  | 27 => ⟨S_, .i32⟩
  | 28 => ⟨S40000, .i32⟩
  | 29 => ⟨S40000, .i32⟩
  | 30 => ⟨S40000, .i32⟩
  | 31 => ⟨S40000x1, .i32⟩
  | 32 => ⟨S2x100000x128, .f32⟩
  | 33 => ⟨S_, .f32⟩
  | 34 => ⟨S100000, .f32⟩
  | 35 => ⟨S_, .i32⟩
  | 36 => ⟨S40000, .i32⟩
  | 37 => ⟨S40000, .i1⟩
  | 38 => ⟨S_, .i32⟩
  | 39 => ⟨S40000, .i32⟩
  | 40 => ⟨S40000, .i32⟩
  | 41 => ⟨S40000, .i32⟩
  | 42 => ⟨S40000x1, .i32⟩
  | 43 => ⟨S_, .f32⟩
  | 44 => ⟨S40000, .f32⟩
  | 45 => ⟨S100000, .f32⟩
  | 46 => ⟨S256x128, .f32⟩
  | 47 => ⟨S256, .f32⟩
  | 48 => ⟨S256x128, .f32⟩
  | 49 => ⟨S256, .f32⟩
  | 50 => ⟨S_, .f32⟩
  | 51 => ⟨S20000, .f32⟩
  | 52 => ⟨S20000, .f32⟩
  | 53 => ⟨S_, .f32⟩
  | 54 => ⟨S20000, .f32⟩
  | 55 => ⟨S20000, .f32⟩
  | 56 => ⟨S_, .f32⟩
  | 57 => ⟨S20000, .f32⟩
  | 58 => ⟨S20000, .f32⟩
  | 59 => ⟨S_, .f32⟩
  | 60 => ⟨S20000, .f32⟩
  | 61 => ⟨S20000, .f32⟩
  | 62 => ⟨S20000x1, .f32⟩
  | 63 => ⟨S20000x1, .f32⟩
  | 64 => ⟨S20000x2, .f32⟩
  | 65 => ⟨S_, .f32⟩
  | 66 => ⟨S100000, .f32⟩
  | 67 => ⟨S100000, .f32⟩
  | 68 => ⟨S_, .f32⟩
  | 69 => ⟨S100000, .f32⟩
  | 70 => ⟨S100000, .f32⟩
  | 71 => ⟨S_, .f32⟩
  | 72 => ⟨S100000, .f32⟩
  | 73 => ⟨S100000, .f32⟩
  | 74 => ⟨S_, .f32⟩
  | 75 => ⟨S100000, .f32⟩
  | 76 => ⟨S100000, .f32⟩
  | 77 => ⟨S100000x1, .f32⟩
  | 78 => ⟨S100000x1, .f32⟩
  | 79 => ⟨S100000x2, .f32⟩
  | 80 => ⟨S1x256, .f32⟩
  | 81 => ⟨S1x128, .f32⟩
  | 82 => ⟨S1x128, .f32⟩
  | 83 => ⟨S1x128, .f32⟩
  | 84 => ⟨S2x20000x128, .f32⟩
  | 85 => ⟨S1x256, .f32⟩
  | 86 => ⟨S1x128, .f32⟩
  | 87 => ⟨S1x128, .f32⟩
  | 88 => ⟨S1x128, .f32⟩
  | 89 => ⟨S2x100000x128, .f32⟩
  | _ => ⟨S2x20000x128, .f32⟩

abbrev hbmTy (i : Nat) : BufTy := match i / 128 with
  | 0 => hbmTy0_0 i
  | 1 => hbmTy0_1 i
  | _ => ⟨S2x20000x128, .f32⟩

abbrev bufTy : (tb : Table) → Fin (tcTables nBuf tb) → BufTy
  | .hbm, ⟨i, _⟩ => hbmTy i
  | .local _ .vmem, ⟨0, _⟩ => ⟨S2x2000x128, .f32⟩
  | .local _ .vmem, ⟨1, _⟩ => ⟨S2x2000x128, .f32⟩
  | .local _ .vmem, ⟨2, _⟩ => ⟨S2x2000x128, .f32⟩
  | .local _ .vmem, ⟨3, _⟩ => ⟨S2x2000x128, .f32⟩
  | .local _ .vmem, ⟨4, _⟩ => ⟨S2000x2, .f32⟩
  | .local _ .vmem, ⟨5, _⟩ => ⟨S2000x2, .f32⟩
  | .local _ .vmem, ⟨6, _⟩ => ⟨S2x2000x128, .f32⟩
  | .local _ .vmem, ⟨7, _⟩ => ⟨S2x2000x128, .f32⟩
  | .local _ .vmem, ⟨8, _⟩ => ⟨S256x128, .f32⟩
  | .local _ .vmem, ⟨9, _⟩ => ⟨S256x128, .f32⟩
  | .local _ .vmem, ⟨10, _⟩ => ⟨S1x256, .f32⟩
  | .local _ .vmem, ⟨11, _⟩ => ⟨S256x128, .f32⟩
  | .local _ .vmem, ⟨12, _⟩ => ⟨S128x256, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S2x2000x128, .f32⟩
  | .local _ .vmem, ⟨17, _⟩ => ⟨S2x2000x128, .f32⟩
  | .local _ .vmem, ⟨18, _⟩ => ⟨S2x4000x128, .f32⟩
  | .local _ .vmem, ⟨19, _⟩ => ⟨S2x4000x128, .f32⟩
  | .local _ .vmem, ⟨20, _⟩ => ⟨S2x4000x128, .f32⟩
  | .local _ .vmem, ⟨21, _⟩ => ⟨S2x4000x128, .f32⟩
  | .local _ .vmem, ⟨22, _⟩ => ⟨S4000x2, .f32⟩
  | .local _ .vmem, ⟨23, _⟩ => ⟨S4000x2, .f32⟩
  | .local _ .vmem, ⟨24, _⟩ => ⟨S2x4000x128, .f32⟩
  | .local _ .vmem, ⟨25, _⟩ => ⟨S2x4000x128, .f32⟩
  | .local _ .vmem, ⟨26, _⟩ => ⟨S256x128, .f32⟩
  | .local _ .vmem, ⟨27, _⟩ => ⟨S256x128, .f32⟩
  | .local _ .vmem, ⟨28, _⟩ => ⟨S1x256, .f32⟩
  | .local _ .vmem, ⟨29, _⟩ => ⟨S256x128, .f32⟩
  | .local _ .vmem, ⟨30, _⟩ => ⟨S128x256, .f32⟩
  | .local _ .vmem, ⟨31, _⟩ => ⟨S1x128, .f32⟩
  | .local _ .vmem, ⟨32, _⟩ => ⟨S1x128, .f32⟩
  | .local _ .vmem, ⟨33, _⟩ => ⟨S1x128, .f32⟩
  | .local _ .vmem, ⟨34, _⟩ => ⟨S2x4000x128, .f32⟩
  | .local _ .vmem, ⟨35, _⟩ => ⟨S2x4000x128, .f32⟩
  | _, _ => ⟨S2x20000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_cst : Ref sig .tc := ⟨.hbm, 30, rfl⟩
abbrev main_v4 : Ref sig .tc := ⟨.hbm, 31, rfl⟩
abbrev main_c : Ref sig .tc := ⟨.hbm, 32, rfl⟩
abbrev main_v5 : Ref sig .tc := ⟨.hbm, 33, rfl⟩
abbrev main_v6 : Ref sig .tc := ⟨.hbm, 34, rfl⟩
abbrev main_c_0 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_c_1 : Ref sig .tc := ⟨.hbm, 41, rfl⟩
abbrev main_v12 : Ref sig .tc := ⟨.hbm, 42, rfl⟩
abbrev main_v13 : Ref sig .tc := ⟨.hbm, 43, rfl⟩
abbrev main_c_2 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_cst_3 : Ref sig .tc := ⟨.hbm, 50, rfl⟩
abbrev main_v19 : Ref sig .tc := ⟨.hbm, 51, rfl⟩
abbrev main_c_4 : Ref sig .tc := ⟨.hbm, 52, rfl⟩
abbrev main_v20 : Ref sig .tc := ⟨.hbm, 53, rfl⟩
abbrev main_v21 : Ref sig .tc := ⟨.hbm, 54, rfl⟩
abbrev main_c_5 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_cst_6 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_cst_7 : Ref sig .tc := ⟨.hbm, 67, rfl⟩
abbrev main_v32 : Ref sig .tc := ⟨.hbm, 68, rfl⟩
abbrev main_c_8 : Ref sig .tc := ⟨.hbm, 69, rfl⟩
abbrev main_v33 : Ref sig .tc := ⟨.hbm, 70, rfl⟩
abbrev main_v34 : Ref sig .tc := ⟨.hbm, 71, rfl⟩
abbrev main_c_9 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_c_10 : Ref sig .tc := ⟨.hbm, 78, rfl⟩
abbrev main_v40 : Ref sig .tc := ⟨.hbm, 79, rfl⟩
abbrev main_v41 : Ref sig .tc := ⟨.hbm, 80, rfl⟩
abbrev main_c_11 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_cst_12 : Ref sig .tc := ⟨.hbm, 87, rfl⟩
abbrev main_v47 : Ref sig .tc := ⟨.hbm, 88, rfl⟩
abbrev main_c_13 : Ref sig .tc := ⟨.hbm, 89, rfl⟩
abbrev main_v48 : Ref sig .tc := ⟨.hbm, 90, rfl⟩
abbrev main_v49 : Ref sig .tc := ⟨.hbm, 91, rfl⟩
abbrev main_c_14 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_cst_15 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_cst_16 : Ref sig .tc := ⟨.hbm, 104, rfl⟩
abbrev main_v60 : Ref sig .tc := ⟨.hbm, 105, rfl⟩
abbrev main_c_17 : Ref sig .tc := ⟨.hbm, 106, rfl⟩
abbrev main_v61 : Ref sig .tc := ⟨.hbm, 107, rfl⟩
abbrev main_v62 : Ref sig .tc := ⟨.hbm, 108, rfl⟩
abbrev main_c_18 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_c_19 : Ref sig .tc := ⟨.hbm, 115, rfl⟩
abbrev main_v68 : Ref sig .tc := ⟨.hbm, 116, rfl⟩
abbrev main_v69 : Ref sig .tc := ⟨.hbm, 117, rfl⟩
abbrev main_c_20 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_cst_21 : Ref sig .tc := ⟨.hbm, 124, rfl⟩
abbrev main_v75 : Ref sig .tc := ⟨.hbm, 125, rfl⟩
abbrev main_c_22 : Ref sig .tc := ⟨.hbm, 126, rfl⟩
abbrev main_v76 : Ref sig .tc := ⟨.hbm, 127, rfl⟩
abbrev main_v77 : Ref sig .tc := ⟨.hbm, 128, rfl⟩
abbrev main_c_23 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_cst_24 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_cst_25 : Ref sig .tc := ⟨.hbm, 141, rfl⟩
abbrev main_v88 : Ref sig .tc := ⟨.hbm, 142, rfl⟩
abbrev main_c_26 : Ref sig .tc := ⟨.hbm, 143, rfl⟩
abbrev main_v89 : Ref sig .tc := ⟨.hbm, 144, rfl⟩
abbrev main_v90 : Ref sig .tc := ⟨.hbm, 145, rfl⟩
abbrev main_c_27 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_v95 : Ref sig .tc := ⟨.hbm, 151, rfl⟩
abbrev main_c_28 : Ref sig .tc := ⟨.hbm, 152, rfl⟩
abbrev main_v96 : Ref sig .tc := ⟨.hbm, 153, rfl⟩
abbrev main_v97 : Ref sig .tc := ⟨.hbm, 154, rfl⟩
abbrev main_c_29 : Ref sig .tc := ⟨.hbm, 155, rfl⟩
abbrev main_v98 : Ref sig .tc := ⟨.hbm, 156, rfl⟩
abbrev main_v99 : Ref sig .tc := ⟨.hbm, 157, rfl⟩
abbrev main_v100 : Ref sig .tc := ⟨.hbm, 158, rfl⟩
abbrev main_v101 : Ref sig .tc := ⟨.hbm, 159, rfl⟩
abbrev main_v102 : Ref sig .tc := ⟨.hbm, 160, rfl⟩
abbrev main_cst_30 : Ref sig .tc := ⟨.hbm, 161, rfl⟩
abbrev main_v103 : Ref sig .tc := ⟨.hbm, 162, rfl⟩
abbrev main_c_31 : Ref sig .tc := ⟨.hbm, 163, rfl⟩
abbrev main_v104 : Ref sig .tc := ⟨.hbm, 164, rfl⟩
abbrev main_v105 : Ref sig .tc := ⟨.hbm, 165, rfl⟩
abbrev main_c_32 : Ref sig .tc := ⟨.hbm, 166, rfl⟩
abbrev main_v106 : Ref sig .tc := ⟨.hbm, 167, rfl⟩
abbrev main_v107 : Ref sig .tc := ⟨.hbm, 168, rfl⟩
abbrev main_v108 : Ref sig .tc := ⟨.hbm, 169, rfl⟩
abbrev main_v109 : Ref sig .tc := ⟨.hbm, 170, rfl⟩
abbrev main_cst_33 : Ref sig .tc := ⟨.hbm, 171, rfl⟩
abbrev main_v110 : Ref sig .tc := ⟨.hbm, 172, rfl⟩
abbrev main_v111 : Ref sig .tc := ⟨.hbm, 173, rfl⟩
abbrev main_v112 : Ref sig .tc := ⟨.hbm, 174, rfl⟩
abbrev main_v113 : Ref sig .tc := ⟨.hbm, 175, rfl⟩
abbrev main_v114 : Ref sig .tc := ⟨.hbm, 176, rfl⟩
abbrev main_v115 : Ref sig .tc := ⟨.hbm, 177, rfl⟩
abbrev main_cst_34 : Ref sig .tc := ⟨.hbm, 178, rfl⟩
abbrev main_v116 : Ref sig .tc := ⟨.hbm, 179, rfl⟩
abbrev main_v117 : Ref sig .tc := ⟨.hbm, 180, rfl⟩
abbrev main_cst_35 : Ref sig .tc := ⟨.hbm, 181, rfl⟩
abbrev main_v118 : Ref sig .tc := ⟨.hbm, 182, rfl⟩
abbrev main_v119 : Ref sig .tc := ⟨.hbm, 183, rfl⟩
abbrev main_cst_36 : Ref sig .tc := ⟨.hbm, 184, rfl⟩
abbrev main_v120 : Ref sig .tc := ⟨.hbm, 185, rfl⟩
abbrev main_v121 : Ref sig .tc := ⟨.hbm, 186, rfl⟩
abbrev main_cst_37 : Ref sig .tc := ⟨.hbm, 187, rfl⟩
abbrev main_v122 : Ref sig .tc := ⟨.hbm, 188, rfl⟩
abbrev main_v123 : Ref sig .tc := ⟨.hbm, 189, rfl⟩
abbrev main_v124 : Ref sig .tc := ⟨.hbm, 190, rfl⟩
abbrev main_v125 : Ref sig .tc := ⟨.hbm, 191, rfl⟩
abbrev main_v126 : Ref sig .tc := ⟨.hbm, 192, rfl⟩
abbrev main_cst_38 : Ref sig .tc := ⟨.hbm, 193, rfl⟩
abbrev main_v127 : Ref sig .tc := ⟨.hbm, 194, rfl⟩
abbrev main_v128 : Ref sig .tc := ⟨.hbm, 195, rfl⟩
abbrev main_cst_39 : Ref sig .tc := ⟨.hbm, 196, rfl⟩
abbrev main_v129 : Ref sig .tc := ⟨.hbm, 197, rfl⟩
abbrev main_v130 : Ref sig .tc := ⟨.hbm, 198, rfl⟩
abbrev main_cst_40 : Ref sig .tc := ⟨.hbm, 199, rfl⟩
abbrev main_v131 : Ref sig .tc := ⟨.hbm, 200, rfl⟩
abbrev main_v132 : Ref sig .tc := ⟨.hbm, 201, rfl⟩
abbrev main_cst_41 : Ref sig .tc := ⟨.hbm, 202, rfl⟩
abbrev main_v133 : Ref sig .tc := ⟨.hbm, 203, rfl⟩
abbrev main_v134 : Ref sig .tc := ⟨.hbm, 204, rfl⟩
abbrev main_v135 : Ref sig .tc := ⟨.hbm, 205, rfl⟩
abbrev main_v136 : Ref sig .tc := ⟨.hbm, 206, rfl⟩
abbrev main_v137 : Ref sig .tc := ⟨.hbm, 207, rfl⟩
abbrev main_v138 : Ref sig .tc := ⟨.hbm, 208, rfl⟩
abbrev main_v139 : Ref sig .tc := ⟨.hbm, 209, rfl⟩
abbrev main_v140 : Ref sig .tc := ⟨.hbm, 210, rfl⟩
abbrev main_v141 : Ref sig .tc := ⟨.hbm, 211, rfl⟩
abbrev main_v142 : Ref sig .tc := ⟨.hbm, 212, rfl⟩
abbrev main_v143 : Ref sig .tc := ⟨.hbm, 213, rfl⟩
abbrev main_v144 : Ref sig .tc := ⟨.hbm, 214, rfl⟩
abbrev main_v145 : Ref sig .tc := ⟨.hbm, 215, rfl⟩
abbrev main_v146 : Ref sig .tc := ⟨.hbm, 216, rfl⟩
abbrev main_v147 : Ref sig .tc := ⟨.hbm, 217, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg3_1 : Ref sig .tc := ⟨.vmem, 25, rfl⟩
abbrev cc1_stg4_0 : Ref sig .tc := ⟨.vmem, 26, rfl⟩
abbrev cc1_stg5_0 : Ref sig .tc := ⟨.vmem, 27, rfl⟩
abbrev cc1_stg6_0 : Ref sig .tc := ⟨.vmem, 28, rfl⟩
abbrev cc1_stg7_0 : Ref sig .tc := ⟨.vmem, 29, rfl⟩
abbrev cc1_stg8_0 : Ref sig .tc := ⟨.vmem, 30, rfl⟩
abbrev cc1_stg9_0 : Ref sig .tc := ⟨.vmem, 31, rfl⟩
abbrev cc1_stg10_0 : Ref sig .tc := ⟨.vmem, 32, rfl⟩
abbrev cc1_stg11_0 : Ref sig .tc := ⟨.vmem, 33, rfl⟩
abbrev cc1_stg12_0 : Ref sig .tc := ⟨.vmem, 34, rfl⟩
abbrev cc1_stg12_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem3_1 : DmaSem sig := 25
abbrev cc1_sem4_0 : DmaSem sig := 26
abbrev cc1_sem5_0 : DmaSem sig := 27
abbrev cc1_sem6_0 : DmaSem sig := 28
abbrev cc1_sem7_0 : DmaSem sig := 29
abbrev cc1_sem8_0 : DmaSem sig := 30
abbrev cc1_sem9_0 : DmaSem sig := 31
abbrev cc1_sem10_0 : DmaSem sig := 32
abbrev cc1_sem11_0 : DmaSem sig := 33
abbrev cc1_sem12_0 : DmaSem sig := 34
abbrev cc1_sem12_1 : DmaSem sig := 35

abbrev nD : Nat := 1
abbrev τ : Topo := Topo.v7x

variable {F : FTy → Type} [FloatOps F]

abbrev grid0 : Pipeline.Grid := ⟨1, ![10], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S2x2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S2x2000x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev grid1 : Pipeline.Grid := ⟨1, ![25], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S2x4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2x4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x2 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2x4000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S256x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S256x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x128 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 2 → Memref sig .tc .vmem S2x4000x128 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  bcast_S_S2x20000x128 : S_.BroadcastsInDim S2x20000x128 (![] : Fin 0 → Fin S2x20000x128.rank)
  bcast_S_S160000 : S_.BroadcastsInDim S160000 (![] : Fin 0 → Fin S160000.rank)
  bcast_S160000_S160000x1_0 : S160000.BroadcastsInDim S160000x1 (![0] : Fin 1 → Fin S160000x1.rank)
  bcast_S_S20000 : S_.BroadcastsInDim S20000 (![] : Fin 0 → Fin S20000.rank)
  slices_S2x40000_S1x40000_0_0 : S2x40000.Slices ![0, 0] S1x40000
  shapeCasts_S1x40000_S40000 : S1x40000.ShapeCasts S40000
  slices_S2x40000_S1x40000_1_0 : S2x40000.Slices ![1, 0] S1x40000
  bcast_S_S40000 : S_.BroadcastsInDim S40000 (![] : Fin 0 → Fin S40000.rank)
  bcast_S40000_S40000x1_0 : S40000.BroadcastsInDim S40000x1 (![0] : Fin 1 → Fin S40000x1.rank)
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S2x100000x128 : S_.BroadcastsInDim S2x100000x128 (![] : Fin 0 → Fin S2x100000x128.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S100000 : S_.BroadcastsInDim S100000 (![] : Fin 0 → Fin S100000.rank)
  bcast_S20000_S20000x1_0 : S20000.BroadcastsInDim S20000x1 (![0] : Fin 1 → Fin S20000x1.rank)
  concatenates_S20000x1_S20000x1_S20000x2_d1 : Shape.Concatenates [S20000x1, S20000x1] S20000x2 1
  bcast_S100000_S100000x1_0 : S100000.BroadcastsInDim S100000x1 (![0] : Fin 1 → Fin S100000x1.rank)
  concatenates_S100000x1_S100000x1_S100000x2_d1 : Shape.Concatenates [S100000x1, S100000x1] S100000x2 1
  shapeCasts_S256_S1x256 : S256.ShapeCasts S1x256
  shapeCasts_S128_S1x128 : S128.ShapeCasts S1x128
  inb_S2000x2_S2000x1_0_0 : ∀ a, (![0, 0] : Fin 2 → Nat) a + S2000x1.size a ≤ S2000x2.size a
  h_S2000x1 : 0 < S2000x1.numel
  shapeCasts_S2000x1_S2000x1 : S2000x1.ShapeCasts S2000x1
  shapeCasts_S2000x1_S1x2000x1 : S2000x1.ShapeCasts S1x2000x1
  inb_S2000x2_S2000x1_0_1 : ∀ a, (![0, 1] : Fin 2 → Nat) a + S2000x1.size a ≤ S2000x2.size a
  inb_S2x2000x128_S2x2000x128_0_0_0 : ∀ a, (![0, 0, 0] : Fin 3 → Nat) a + S2x2000x128.size a ≤ S2x2000x128.size a
  h_S2x2000x128 : 0 < S2x2000x128.numel
  shapeCasts_S2x2000x128_S2x2000x128 : S2x2000x128.ShapeCasts S2x2000x128
  broadcasts_S1x2000x1_S2x2000x128 : S1x2000x1.Broadcasts S2x2000x128
  shapeCasts_S2x2000x128_S4000x128 : S2x2000x128.ShapeCasts S4000x128
  inb_S256x128_S256x128_0_0 : ∀ a, (![0, 0] : Fin 2 → Nat) a + S256x128.size a ≤ S256x128.size a
  h_S256x128 : 0 < S256x128.numel
  shapeCasts_S256x128_S256x128 : S256x128.ShapeCasts S256x128
  transposes_S256x128_p1_0_S128x256 : S256x128.Transposes [1, 0] S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4000x256 : S1x256.Broadcasts S4000x256
  inb_S128x256_S128x256_0_0 : ∀ a, (![0, 0] : Fin 2 → Nat) a + S128x256.size a ≤ S128x256.size a
  h_S128x256 : 0 < S128x256.numel
  transposes_S128x256_p1_0_S256x128 : S128x256.Transposes [1, 0] S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  reduces_S4000x128_S4000 : S4000x128.Reduces [1] S4000
  shapeCasts_S4000_S4000x1 : S4000.ShapeCasts S4000x1
  broadcasts_S4000x1_S4000x128 : S4000x1.Broadcasts S4000x128
  shapeCasts_S4000x128_S2x2000x128 : S4000x128.ShapeCasts S2x2000x128
  inb_S4000x2_S4000x1_0_0 : ∀ a, (![0, 0] : Fin 2 → Nat) a + S4000x1.size a ≤ S4000x2.size a
  h_S4000x1 : 0 < S4000x1.numel
  shapeCasts_S4000x1_S4000x1 : S4000x1.ShapeCasts S4000x1
  shapeCasts_S4000x1_S1x4000x1 : S4000x1.ShapeCasts S1x4000x1
  inb_S4000x2_S4000x1_0_1 : ∀ a, (![0, 1] : Fin 2 → Nat) a + S4000x1.size a ≤ S4000x2.size a
  inb_S2x4000x128_S2x4000x128_0_0_0 : ∀ a, (![0, 0, 0] : Fin 3 → Nat) a + S2x4000x128.size a ≤ S2x4000x128.size a
  h_S2x4000x128 : 0 < S2x4000x128.numel
  shapeCasts_S2x4000x128_S2x4000x128 : S2x4000x128.ShapeCasts S2x4000x128
  broadcasts_S1x4000x1_S2x4000x128 : S1x4000x1.Broadcasts S2x4000x128
  shapeCasts_S2x4000x128_S8000x128 : S2x4000x128.ShapeCasts S8000x128
  broadcasts_S1x256_S8000x256 : S1x256.Broadcasts S8000x256
  broadcasts_S1x128_S8000x128 : S1x128.Broadcasts S8000x128
  reduces_S8000x128_S8000 : S8000x128.Reduces [1] S8000
  shapeCasts_S8000_S8000x1 : S8000.ShapeCasts S8000x1
  broadcasts_S8000x1_S8000x128 : S8000x1.Broadcasts S8000x128
  shapeCasts_S8000x128_S2x4000x128 : S8000x128.ShapeCasts S2x4000x128
  gather_S2x20000x128_S160000x1_S2x160000x128_02_1_n_n_1_1_21128_wf : GatherDims.WF S2x20000x128 S160000x1 S2x160000x128 [0, 2] [1] [] [1] [] 1 ![2, 1, 128]
  scatter_S2x20000x128_S160000x1_S2x160000x128_02_1_1_1_wf : ScatterDims.WF S2x20000x128 S160000x1 S2x160000x128 [0, 2] [1] [1] 1
  scatter_S20000_S160000x1_S160000_n_0_0_1_wf : ScatterDims.WF S20000 S160000x1 S160000 [] [0] [0] 1
  gather_S2x100000x128_S40000x1_S2x40000x128_02_1_n_n_1_1_21128_wf : GatherDims.WF S2x100000x128 S40000x1 S2x40000x128 [0, 2] [1] [] [1] [] 1 ![2, 1, 128]
  scatter_S2x20000x128_S40000x1_S2x40000x128_02_1_1_1_wf : ScatterDims.WF S2x20000x128 S40000x1 S2x40000x128 [0, 2] [1] [1] 1
  scatter_S20000_S40000x1_S40000_n_0_0_1_wf : ScatterDims.WF S20000 S40000x1 S40000 [] [0] [0] 1
  gather_S2x100000x128_S800000x1_S2x800000x128_02_1_n_n_1_1_21128_wf : GatherDims.WF S2x100000x128 S800000x1 S2x800000x128 [0, 2] [1] [] [1] [] 1 ![2, 1, 128]
  scatter_S2x100000x128_S800000x1_S2x800000x128_02_1_1_1_wf : ScatterDims.WF S2x100000x128 S800000x1 S2x800000x128 [0, 2] [1] [1] 1
  scatter_S100000_S800000x1_S800000_n_0_0_1_wf : ScatterDims.WF S100000 S800000x1 S800000 [] [0] [0] 1
  gather_S2x20000x128_S40000x1_S2x40000x128_02_1_n_n_1_1_21128_wf : GatherDims.WF S2x20000x128 S40000x1 S2x40000x128 [0, 2] [1] [] [1] [] 1 ![2, 1, 128]
  scatter_S2x100000x128_S40000x1_S2x40000x128_02_1_1_1_wf : ScatterDims.WF S2x100000x128 S40000x1 S2x40000x128 [0, 2] [1] [1] 1
  scatter_S100000_S40000x1_S40000_n_0_0_1_wf : ScatterDims.WF S100000 S40000x1 S40000 [] [0] [0] 1
  dot_S4000x128_S128x256_S4000x256_1_0_0_1_n_n_wf : DotDims.WF S4000x128 S128x256 S4000x256 [1] [0] [0] [1] [] []
  dot_S4000x256_S256x128_S4000x128_1_0_0_1_n_n_wf : DotDims.WF S4000x256 S256x128 S4000x128 [1] [0] [0] [1] [] []
  dot_S8000x128_S128x256_S8000x256_1_0_0_1_n_n_wf : DotDims.WF S8000x128 S128x256 S8000x256 [1] [0] [0] [1] [] []
  dot_S8000x256_S256x128_S8000x128_1_0_0_1_n_n_wf : DotDims.WF S8000x256 S256x128 S8000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x2000x128.size a ≤ S2x20000x128.size a
  hwx0_0 : ∀ i : grid0.Coords, EltTy.bits .f32 = 32 ∨ (Rect.block (s := S2x20000x128) S2x2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x2000x128.size a ≤ S2x20000x128.size a
  hwx0_1 : ∀ i : grid0.Coords, EltTy.bits .f32 = 32 ∨ (Rect.block (s := S2x20000x128) S2x2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x2.size a ≤ S20000x2.size a
  hwx0_2 : ∀ i : grid0.Coords, EltTy.bits .f32 = 32 ∨ (Rect.block (s := S20000x2) S2000x2.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x2000x128.size a ≤ S2x20000x128.size a
  hwx0_3 : ∀ i : grid0.Coords, EltTy.bits .f32 = 32 ∨ (Rect.block (s := S2x20000x128) S2x2000x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x128.size a ≤ S256x128.size a
  hwx0_4 : ∀ i : grid0.Coords, EltTy.bits .f32 = 32 ∨ (Rect.block (s := S256x128) S256x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S256x128.size a
  hwx0_5 : ∀ i : grid0.Coords, EltTy.bits .f32 = 32 ∨ (Rect.block (s := S256x128) S256x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x128.size a ≤ S256x128.size a
  hwx0_7 : ∀ i : grid0.Coords, EltTy.bits .f32 = 32 ∨ (Rect.block (s := S256x128) S256x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x256.size a ≤ S128x256.size a
  hwx0_8 : ∀ i : grid0.Coords, EltTy.bits .f32 = 32 ∨ (Rect.block (s := S128x256) S128x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x128.size a ≤ S1x128.size a
  hwx0_11 : ∀ i : grid0.Coords, EltTy.bits .f32 = 32 ∨ (Rect.block (s := S1x128) S1x128.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S2x2000x128.size a ≤ S2x20000x128.size a
  hwx0_12 : ∀ i : grid0.Coords, EltTy.bits .f32 = 32 ∨ (Rect.block (s := S2x20000x128) S2x2000x128.size (cc0_transform_12 i) (hinb0_12 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2x4000x128.size a ≤ S2x100000x128.size a
  hwx1_0 : ∀ i : grid1.Coords, EltTy.bits .f32 = 32 ∨ (Rect.block (s := S2x100000x128) S2x4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2x4000x128.size a ≤ S2x100000x128.size a
  hwx1_1 : ∀ i : grid1.Coords, EltTy.bits .f32 = 32 ∨ (Rect.block (s := S2x100000x128) S2x4000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x2.size a ≤ S100000x2.size a
  hwx1_2 : ∀ i : grid1.Coords, EltTy.bits .f32 = 32 ∨ (Rect.block (s := S100000x2) S4000x2.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2x4000x128.size a ≤ S2x100000x128.size a
  hwx1_3 : ∀ i : grid1.Coords, EltTy.bits .f32 = 32 ∨ (Rect.block (s := S2x100000x128) S2x4000x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x128.size a ≤ S256x128.size a
  hwx1_4 : ∀ i : grid1.Coords, EltTy.bits .f32 = 32 ∨ (Rect.block (s := S256x128) S256x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x128.size a ≤ S256x128.size a
  hwx1_5 : ∀ i : grid1.Coords, EltTy.bits .f32 = 32 ∨ (Rect.block (s := S256x128) S256x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S256x128.size a ≤ S256x128.size a
  hwx1_7 : ∀ i : grid1.Coords, EltTy.bits .f32 = 32 ∨ (Rect.block (s := S256x128) S256x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128x256.size a ≤ S128x256.size a
  hwx1_8 : ∀ i : grid1.Coords, EltTy.bits .f32 = 32 ∨ (Rect.block (s := S128x256) S128x256.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x128.size a ≤ S1x128.size a
  hwx1_9 : ∀ i : grid1.Coords, EltTy.bits .f32 = 32 ∨ (Rect.block (s := S1x128) S1x128.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x128.size a ≤ S1x128.size a
  hwx1_10 : ∀ i : grid1.Coords, EltTy.bits .f32 = 32 ∨ (Rect.block (s := S1x128) S1x128.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1x128.size a ≤ S1x128.size a
  hwx1_11 : ∀ i : grid1.Coords, EltTy.bits .f32 = 32 ∨ (Rect.block (s := S1x128) S1x128.size (cc1_transform_11 i) (hinb1_11 i)).WholeWords (EltTy.packing .f32)
  hstage1_12 : ∀ j, (stage1_12 j).IsWhole
  nbuf1_12 : grid1.bufCount reads1_12 false = 2
  hreads1_12 : ∀ i i' : grid1.Coords, (∀ a, reads1_12 a = true → i a = i' a) → cc1_transform_12 i = cc1_transform_12 i'
  hinb1_12 : ∀ (i : grid1.Coords) a, (cc1_transform_12 i a + 1) * S2x4000x128.size a ≤ S2x100000x128.size a
  hwx1_12 : ∀ i : grid1.Coords, EltTy.bits .f32 = 32 ∨ (Rect.block (s := S2x100000x128) S2x4000x128.size (cc1_transform_12 i) (hinb1_12 i)).WholeWords (EltTy.packing .f32)

variable [Facts₀]

def gather_S2x20000x128_S160000x1_S2x160000x128_02_1_n_n_1_1_21128 : GatherDims S2x20000x128 S160000x1 S2x160000x128 where
  offsetDims := [0, 2]
  collapsedSliceDims := [1]
  operandBatchingDims := []
  startIndicesBatchingDims := []
  startIndexMap := [1]
  indexVectorDim := 1
  sliceSizes := ![2, 1, 128]
  wf := gather_S2x20000x128_S160000x1_S2x160000x128_02_1_n_n_1_1_21128_wf
def scatter_S2x20000x128_S160000x1_S2x160000x128_02_1_1_1 : ScatterDims S2x20000x128 S160000x1 S2x160000x128 where
  updateWindowDims := [0, 2]
  insertedWindowDims := [1]
  scatterDimsToOperandDims := [1]
  indexVectorDim := 1
  wf := scatter_S2x20000x128_S160000x1_S2x160000x128_02_1_1_1_wf
def scatter_S20000_S160000x1_S160000_n_0_0_1 : ScatterDims S20000 S160000x1 S160000 where
  updateWindowDims := []
  insertedWindowDims := [0]
  scatterDimsToOperandDims := [0]
  indexVectorDim := 1
  wf := scatter_S20000_S160000x1_S160000_n_0_0_1_wf
def gather_S2x100000x128_S40000x1_S2x40000x128_02_1_n_n_1_1_21128 : GatherDims S2x100000x128 S40000x1 S2x40000x128 where
  offsetDims := [0, 2]
  collapsedSliceDims := [1]
  operandBatchingDims := []
  startIndicesBatchingDims := []
  startIndexMap := [1]
  indexVectorDim := 1
  sliceSizes := ![2, 1, 128]
  wf := gather_S2x100000x128_S40000x1_S2x40000x128_02_1_n_n_1_1_21128_wf
def scatter_S2x20000x128_S40000x1_S2x40000x128_02_1_1_1 : ScatterDims S2x20000x128 S40000x1 S2x40000x128 where
  updateWindowDims := [0, 2]
  insertedWindowDims := [1]
  scatterDimsToOperandDims := [1]
  indexVectorDim := 1
  wf := scatter_S2x20000x128_S40000x1_S2x40000x128_02_1_1_1_wf
def scatter_S20000_S40000x1_S40000_n_0_0_1 : ScatterDims S20000 S40000x1 S40000 where
  updateWindowDims := []
  insertedWindowDims := [0]
  scatterDimsToOperandDims := [0]
  indexVectorDim := 1
  wf := scatter_S20000_S40000x1_S40000_n_0_0_1_wf
def gather_S2x100000x128_S800000x1_S2x800000x128_02_1_n_n_1_1_21128 : GatherDims S2x100000x128 S800000x1 S2x800000x128 where
  offsetDims := [0, 2]
  collapsedSliceDims := [1]
  operandBatchingDims := []
  startIndicesBatchingDims := []
  startIndexMap := [1]
  indexVectorDim := 1
  sliceSizes := ![2, 1, 128]
  wf := gather_S2x100000x128_S800000x1_S2x800000x128_02_1_n_n_1_1_21128_wf
def scatter_S2x100000x128_S800000x1_S2x800000x128_02_1_1_1 : ScatterDims S2x100000x128 S800000x1 S2x800000x128 where
  updateWindowDims := [0, 2]
  insertedWindowDims := [1]
  scatterDimsToOperandDims := [1]
  indexVectorDim := 1
  wf := scatter_S2x100000x128_S800000x1_S2x800000x128_02_1_1_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def gather_S2x20000x128_S40000x1_S2x40000x128_02_1_n_n_1_1_21128 : GatherDims S2x20000x128 S40000x1 S2x40000x128 where
  offsetDims := [0, 2]
  collapsedSliceDims := [1]
  operandBatchingDims := []
  startIndicesBatchingDims := []
  startIndexMap := [1]
  indexVectorDim := 1
  sliceSizes := ![2, 1, 128]
  wf := gather_S2x20000x128_S40000x1_S2x40000x128_02_1_n_n_1_1_21128_wf
def scatter_S2x100000x128_S40000x1_S2x40000x128_02_1_1_1 : ScatterDims S2x100000x128 S40000x1 S2x40000x128 where
  updateWindowDims := [0, 2]
  insertedWindowDims := [1]
  scatterDimsToOperandDims := [1]
  indexVectorDim := 1
  wf := scatter_S2x100000x128_S40000x1_S2x40000x128_02_1_1_1_wf
def scatter_S100000_S40000x1_S40000_n_0_0_1 : ScatterDims S100000 S40000x1 S40000 where
  updateWindowDims := []
  insertedWindowDims := [0]
  scatterDimsToOperandDims := [0]
  indexVectorDim := 1
  wf := scatter_S100000_S40000x1_S40000_n_0_0_1_wf
def dot_S4000x128_S128x256_S4000x256_1_0_0_1_n_n : DotDims S4000x128 S128x256 S4000x256 where
  lhsContracting := [1]
  rhsContracting := [0]
  lhsNonContracting := [0]
  rhsNonContracting := [1]
  lhsBatch := []
  rhsBatch := []
  wf := dot_S4000x128_S128x256_S4000x256_1_0_0_1_n_n_wf
def dot_S4000x256_S256x128_S4000x128_1_0_0_1_n_n : DotDims S4000x256 S256x128 S4000x128 where
  lhsContracting := [1]
  rhsContracting := [0]
  lhsNonContracting := [0]
  rhsNonContracting := [1]
  lhsBatch := []
  rhsBatch := []
  wf := dot_S4000x256_S256x128_S4000x128_1_0_0_1_n_n_wf
def dot_S8000x128_S128x256_S8000x256_1_0_0_1_n_n : DotDims S8000x128 S128x256 S8000x256 where
  lhsContracting := [1]
  rhsContracting := [0]
  lhsNonContracting := [0]
  rhsNonContracting := [1]
  lhsBatch := []
  rhsBatch := []
  wf := dot_S8000x128_S128x256_S8000x256_1_0_0_1_n_n_wf
def dot_S8000x256_S256x128_S8000x128_1_0_0_1_n_n : DotDims S8000x256 S256x128 S8000x128 where
  lhsContracting := [1]
  rhsContracting := [0]
  lhsNonContracting := [0]
  rhsNonContracting := [1]
  lhsBatch := []
  rhsBatch := []
  wf := dot_S8000x256_S256x128_S8000x128_1_0_0_1_n_n_wf

abbrev win0_0 : Pipeline.Window sig grid0 :=
  Pipeline.Window.ofSpec (Memref.whole main_v18) S2x2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v46) S2x2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v126) S2000x2.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg0) S2x2000x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S256x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg15) S256x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v138) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v112) S256x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg18) S128x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v139) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v140) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v141) S1x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v142) S2x2000x128.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

abbrev win1_0 : Pipeline.Window sig grid1 :=
  Pipeline.Window.ofSpec (Memref.whole main_v74) S2x4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v102) S2x4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v137) S4000x2.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg1) S2x4000x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S256x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg12) S256x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v143) S1x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v114) S256x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg20) S128x256.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v144) S1x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v145) S1x128.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v146) S1x128.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v147) S2x4000x128.size cc1_transform_12 reads1_12 true false 2 stage1_12 sem1_12
    hrank1 hreads1_12 hinb1_12 nbuf1_12 (Memref.isWhole_whole _) hwx1_12 hstage1_12

abbrev win1 : Fin 13 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | ⟨_ + 13, h⟩ => absurd h (Nat.not_lt.2 (Nat.le_add_left _ _))
abbrev spec1 : Fin 13 → Pipeline.WinSpec sig grid1.rank := fun w => (win1 w).toWinSpec

class Facts : Prop extends Facts₀ where

variable [Facts]
-- ==== ReferenceIdeal.lean ====
abbrev S2x20000x128 : Shape := ⟨3, ![2, 20000, 128]⟩
abbrev S2x100000x128 : Shape := ⟨3, ![2, 100000, 128]⟩
abbrev S2x160000 : Shape := ⟨2, ![2, 160000]⟩
abbrev S2x800000 : Shape := ⟨2, ![2, 800000]⟩
abbrev S2x40000 : Shape := ⟨2, ![2, 40000]⟩
abbrev S256x128 : Shape := ⟨2, ![256, 128]⟩
abbrev S256 : Shape := ⟨1, ![256]⟩
abbrev S128x256 : Shape := ⟨2, ![128, 256]⟩
abbrev S128 : Shape := ⟨1, ![128]⟩
abbrev S1x160000 : Shape := ⟨2, ![1, 160000]⟩
abbrev S160000 : Shape := ⟨1, ![160000]⟩
abbrev S_ : Shape := ⟨0, ![]⟩
abbrev S160000x1 : Shape := ⟨2, ![160000, 1]⟩
abbrev S2x160000x128 : Shape := ⟨3, ![2, 160000, 128]⟩
abbrev S20000 : Shape := ⟨1, ![20000]⟩
abbrev S1x20000x1 : Shape := ⟨3, ![1, 20000, 1]⟩
abbrev S2x20000x256 : Shape := ⟨3, ![2, 20000, 256]⟩
abbrev S1x1x256 : Shape := ⟨3, ![1, 1, 256]⟩
abbrev S1x40000 : Shape := ⟨2, ![1, 40000]⟩
abbrev S40000 : Shape := ⟨1, ![40000]⟩
abbrev S40000x1 : Shape := ⟨2, ![40000, 1]⟩
abbrev S2x40000x128 : Shape := ⟨3, ![2, 40000, 128]⟩
abbrev S1x800000 : Shape := ⟨2, ![1, 800000]⟩
abbrev S800000 : Shape := ⟨1, ![800000]⟩
abbrev S800000x1 : Shape := ⟨2, ![800000, 1]⟩
abbrev S2x800000x128 : Shape := ⟨3, ![2, 800000, 128]⟩
abbrev S100000 : Shape := ⟨1, ![100000]⟩
abbrev S1x100000x1 : Shape := ⟨3, ![1, 100000, 1]⟩
abbrev S2x100000x256 : Shape := ⟨3, ![2, 100000, 256]⟩
abbrev S1x1x128 : Shape := ⟨3, ![1, 1, 128]⟩
abbrev S2x20000 : Shape := ⟨2, ![2, 20000]⟩
abbrev S2x20000x1 : Shape := ⟨3, ![2, 20000, 1]⟩
abbrev S2x100000 : Shape := ⟨2, ![2, 100000]⟩
abbrev S2x100000x1 : Shape := ⟨3, ![2, 100000, 1]⟩

abbrev nBuf : Space → Nat
  | .hbm => 290
  | .vmem => 0
  | .smem => 0
  | _ => 0

abbrev hbmTy0_0 (i : Nat) : BufTy := match i % 128 with
  | 0 => ⟨S2x20000x128, .f32⟩
  | 1 => ⟨S2x100000x128, .f32⟩
  | 2 => ⟨S2x160000, .i32⟩
  | 3 => ⟨S2x800000, .i32⟩
  | 4 => ⟨S2x40000, .i32⟩
  | 5 => ⟨S2x40000, .i32⟩
  | 6 => ⟨S256x128, .f32⟩
  | 7 => ⟨S256, .f32⟩
  | 8 => ⟨S256x128, .f32⟩
  | 9 => ⟨S256x128, .f32⟩
  | 10 => ⟨S256, .f32⟩
  | 11 => ⟨S256x128, .f32⟩
  | 12 => ⟨S256x128, .f32⟩
  | 13 => ⟨S256, .f32⟩
  | 14 => ⟨S256x128, .f32⟩
  | 15 => ⟨S256x128, .f32⟩
  | 16 => ⟨S256, .f32⟩
  | 17 => ⟨S256x128, .f32⟩
  | 18 => ⟨S128x256, .f32⟩
  | 19 => ⟨S128, .f32⟩
  | 20 => ⟨S128x256, .f32⟩
  | 21 => ⟨S128, .f32⟩
  | 22 => ⟨S128, .f32⟩
  | 23 => ⟨S128, .f32⟩
  | 24 => ⟨S128, .f32⟩
  | 25 => ⟨S128, .f32⟩
  | 26 => ⟨S1x160000, .i32⟩
  | 27 => ⟨S160000, .i32⟩
  | 28 => ⟨S1x160000, .i32⟩
  | 29 => ⟨S160000, .i32⟩
  | 30 => ⟨S_, .i32⟩
  | 31 => ⟨S160000, .i32⟩
  | 32 => ⟨S160000, .i1⟩
  | 33 => ⟨S_, .i32⟩
  | 34 => ⟨S160000, .i32⟩
  | 35 => ⟨S160000, .i32⟩
  | 36 => ⟨S160000, .i32⟩
  | 37 => ⟨S160000x1, .i32⟩
  | 38 => ⟨S2x160000x128, .f32⟩
  | 39 => ⟨S_, .f32⟩
  | 40 => ⟨S2x20000x128, .f32⟩
  | 41 => ⟨S_, .i32⟩
  | 42 => ⟨S160000, .i32⟩
  | 43 => ⟨S160000, .i1⟩
  | 44 => ⟨S_, .i32⟩
  | 45 => ⟨S160000, .i32⟩
  | 46 => ⟨S160000, .i32⟩
  | 47 => ⟨S160000, .i32⟩
  | 48 => ⟨S160000x1, .i32⟩
  | 49 => ⟨S2x20000x128, .f32⟩
  | 50 => ⟨S_, .f32⟩
  | 51 => ⟨S20000, .f32⟩
  | 52 => ⟨S_, .i32⟩
  | 53 => ⟨S160000, .i32⟩
  | 54 => ⟨S160000, .i1⟩
  | 55 => ⟨S_, .i32⟩
  | 56 => ⟨S160000, .i32⟩
  | 57 => ⟨S160000, .i32⟩
  | 58 => ⟨S160000, .i32⟩
  | 59 => ⟨S160000x1, .i32⟩
  | 60 => ⟨S_, .f32⟩
  | 61 => ⟨S160000, .f32⟩
  | 62 => ⟨S20000, .f32⟩
  | 63 => ⟨S_, .f32⟩
  | 64 => ⟨S20000, .f32⟩
  | 65 => ⟨S20000, .f32⟩
  | 66 => ⟨S1x20000x1, .f32⟩
  | 67 => ⟨S2x20000x128, .f32⟩
  | 68 => ⟨S2x20000x128, .f32⟩
  | 69 => ⟨S2x20000x256, .f32⟩
  | 70 => ⟨S1x1x256, .f32⟩
  | 71 => ⟨S2x20000x256, .f32⟩
  | 72 => ⟨S2x20000x256, .f32⟩
  | 73 => ⟨S2x20000x256, .f32⟩
  | 74 => ⟨S2x20000x256, .f32⟩
  | 75 => ⟨S1x40000, .i32⟩
  | 76 => ⟨S40000, .i32⟩
  | 77 => ⟨S1x40000, .i32⟩
  | 78 => ⟨S40000, .i32⟩
  | 79 => ⟨S_, .i32⟩
  | 80 => ⟨S40000, .i32⟩
  | 81 => ⟨S40000, .i1⟩
  | 82 => ⟨S_, .i32⟩
  | 83 => ⟨S40000, .i32⟩
  | 84 => ⟨S40000, .i32⟩
  | 85 => ⟨S40000, .i32⟩
  | 86 => ⟨S40000x1, .i32⟩
  | 87 => ⟨S2x40000x128, .f32⟩
  | 88 => ⟨S_, .f32⟩
  | 89 => ⟨S2x20000x128, .f32⟩
  | 90 => ⟨S_, .i32⟩
  | 91 => ⟨S40000, .i32⟩
  | 92 => ⟨S40000, .i1⟩
  | 93 => ⟨S_, .i32⟩
  | 94 => ⟨S40000, .i32⟩
  | 95 => ⟨S40000, .i32⟩
  | 96 => ⟨S40000, .i32⟩
  | 97 => ⟨S40000x1, .i32⟩
  | 98 => ⟨S2x20000x128, .f32⟩
  | 99 => ⟨S_, .f32⟩
  | 100 => ⟨S20000, .f32⟩
  | 101 => ⟨S_, .i32⟩
  | 102 => ⟨S40000, .i32⟩
  | 103 => ⟨S40000, .i1⟩
  | 104 => ⟨S_, .i32⟩
  | 105 => ⟨S40000, .i32⟩
  | 106 => ⟨S40000, .i32⟩
  | 107 => ⟨S40000, .i32⟩
  | 108 => ⟨S40000x1, .i32⟩
  | 109 => ⟨S_, .f32⟩
  | 110 => ⟨S40000, .f32⟩
  | 111 => ⟨S20000, .f32⟩
  | 112 => ⟨S_, .f32⟩
  | 113 => ⟨S20000, .f32⟩
  | 114 => ⟨S20000, .f32⟩
  | 115 => ⟨S1x20000x1, .f32⟩
  | 116 => ⟨S2x20000x128, .f32⟩
  | 117 => ⟨S2x20000x128, .f32⟩
  | 118 => ⟨S2x20000x256, .f32⟩
  | 119 => ⟨S1x1x256, .f32⟩
  | 120 => ⟨S2x20000x256, .f32⟩
  | 121 => ⟨S2x20000x256, .f32⟩
  | 122 => ⟨S2x20000x256, .f32⟩
  | 123 => ⟨S2x20000x256, .f32⟩
  | 124 => ⟨S2x20000x256, .f32⟩
  | 125 => ⟨S1x800000, .i32⟩
  | 126 => ⟨S800000, .i32⟩
  | 127 => ⟨S1x800000, .i32⟩
  | _ => ⟨S2x20000x128, .f32⟩

abbrev hbmTy0_1 (i : Nat) : BufTy := match i % 128 with
  | 0 => ⟨S800000, .i32⟩
  | 1 => ⟨S_, .i32⟩
  | 2 => ⟨S800000, .i32⟩
  | 3 => ⟨S800000, .i1⟩
  | 4 => ⟨S_, .i32⟩
  | 5 => ⟨S800000, .i32⟩
  | 6 => ⟨S800000, .i32⟩
  | 7 => ⟨S800000, .i32⟩
  | 8 => ⟨S800000x1, .i32⟩
  | 9 => ⟨S2x800000x128, .f32⟩
  | 10 => ⟨S_, .f32⟩
  | 11 => ⟨S2x100000x128, .f32⟩
  | 12 => ⟨S_, .i32⟩
  | 13 => ⟨S800000, .i32⟩
  | 14 => ⟨S800000, .i1⟩
  | 15 => ⟨S_, .i32⟩
  | 16 => ⟨S800000, .i32⟩
  | 17 => ⟨S800000, .i32⟩
  | 18 => ⟨S800000, .i32⟩
  | 19 => ⟨S800000x1, .i32⟩
  | 20 => ⟨S2x100000x128, .f32⟩
  | 21 => ⟨S_, .f32⟩
  | 22 => ⟨S100000, .f32⟩
  | 23 => ⟨S_, .i32⟩
  | 24 => ⟨S800000, .i32⟩
  | 25 => ⟨S800000, .i1⟩
  | 26 => ⟨S_, .i32⟩
  | 27 => ⟨S800000, .i32⟩
  | 28 => ⟨S800000, .i32⟩
  | 29 => ⟨S800000, .i32⟩
  | 30 => ⟨S800000x1, .i32⟩
  | 31 => ⟨S_, .f32⟩
  | 32 => ⟨S800000, .f32⟩
  | 33 => ⟨S100000, .f32⟩
  | 34 => ⟨S_, .f32⟩
  | 35 => ⟨S100000, .f32⟩
  | 36 => ⟨S100000, .f32⟩
  | 37 => ⟨S1x100000x1, .f32⟩
  | 38 => ⟨S2x100000x128, .f32⟩
  | 39 => ⟨S2x100000x128, .f32⟩
  | 40 => ⟨S2x100000x256, .f32⟩
  | 41 => ⟨S1x1x256, .f32⟩
  | 42 => ⟨S2x100000x256, .f32⟩
  | 43 => ⟨S2x100000x256, .f32⟩
  | 44 => ⟨S2x100000x256, .f32⟩
  | 45 => ⟨S2x100000x256, .f32⟩
  | 46 => ⟨S1x40000, .i32⟩
  | 47 => ⟨S40000, .i32⟩
  | 48 => ⟨S1x40000, .i32⟩
  | 49 => ⟨S40000, .i32⟩
  | 50 => ⟨S_, .i32⟩
  | 51 => ⟨S40000, .i32⟩
  | 52 => ⟨S40000, .i1⟩
  | 53 => ⟨S_, .i32⟩
  | 54 => ⟨S40000, .i32⟩
  | 55 => ⟨S40000, .i32⟩
  | 56 => ⟨S40000, .i32⟩
  | 57 => ⟨S40000x1, .i32⟩
  | 58 => ⟨S2x40000x128, .f32⟩
  | 59 => ⟨S_, .f32⟩
  | 60 => ⟨S2x100000x128, .f32⟩
  | 61 => ⟨S_, .i32⟩
  | 62 => ⟨S40000, .i32⟩
  | 63 => ⟨S40000, .i1⟩
  | 64 => ⟨S_, .i32⟩
  | 65 => ⟨S40000, .i32⟩
  | 66 => ⟨S40000, .i32⟩
  | 67 => ⟨S40000, .i32⟩
  | 68 => ⟨S40000x1, .i32⟩
  | 69 => ⟨S2x100000x128, .f32⟩
  | 70 => ⟨S_, .f32⟩
  | 71 => ⟨S100000, .f32⟩
  | 72 => ⟨S_, .i32⟩
  | 73 => ⟨S40000, .i32⟩
  | 74 => ⟨S40000, .i1⟩
  | 75 => ⟨S_, .i32⟩
  | 76 => ⟨S40000, .i32⟩
  | 77 => ⟨S40000, .i32⟩
  | 78 => ⟨S40000, .i32⟩
  | 79 => ⟨S40000x1, .i32⟩
  | 80 => ⟨S_, .f32⟩
  | 81 => ⟨S40000, .f32⟩
  | 82 => ⟨S100000, .f32⟩
  | 83 => ⟨S_, .f32⟩
  | 84 => ⟨S100000, .f32⟩
  | 85 => ⟨S100000, .f32⟩
  | 86 => ⟨S1x100000x1, .f32⟩
  | 87 => ⟨S2x100000x128, .f32⟩
  | 88 => ⟨S2x100000x128, .f32⟩
  | 89 => ⟨S2x100000x256, .f32⟩
  | 90 => ⟨S1x1x256, .f32⟩
  | 91 => ⟨S2x100000x256, .f32⟩
  | 92 => ⟨S2x100000x256, .f32⟩
  | 93 => ⟨S2x100000x256, .f32⟩
  | 94 => ⟨S2x100000x256, .f32⟩
  | 95 => ⟨S2x100000x256, .f32⟩
  | 96 => ⟨S2x20000x128, .f32⟩
  | 97 => ⟨S1x1x128, .f32⟩
  | 98 => ⟨S2x20000x128, .f32⟩
  | 99 => ⟨S2x20000x128, .f32⟩
  | 100 => ⟨S_, .f32⟩
  | 101 => ⟨S2x20000, .f32⟩
  | 102 => ⟨S2x20000x1, .f32⟩
  | 103 => ⟨S_, .f32⟩
  | 104 => ⟨S2x20000x1, .f32⟩
  | 105 => ⟨S2x20000x1, .f32⟩
  | 106 => ⟨S2x20000x128, .f32⟩
  | 107 => ⟨S2x20000x128, .f32⟩
  | 108 => ⟨S2x20000x128, .f32⟩
  | 109 => ⟨S_, .f32⟩
  | 110 => ⟨S2x20000, .f32⟩
  | 111 => ⟨S2x20000x1, .f32⟩
  | 112 => ⟨S_, .f32⟩
  | 113 => ⟨S2x20000x1, .f32⟩
  | 114 => ⟨S2x20000x1, .f32⟩
  | 115 => ⟨S2x20000x128, .f32⟩
  | 116 => ⟨S2x20000x128, .f32⟩
  | 117 => ⟨S_, .f32⟩
  | 118 => ⟨S2x20000x1, .f32⟩
  | 119 => ⟨S2x20000x1, .f32⟩
  | 120 => ⟨S2x20000x1, .f32⟩
  | 121 => ⟨S2x20000x128, .f32⟩
  | 122 => ⟨S2x20000x128, .f32⟩
  | 123 => ⟨S1x1x128, .f32⟩
  | 124 => ⟨S2x20000x128, .f32⟩
  | 125 => ⟨S2x20000x128, .f32⟩
  | 126 => ⟨S1x1x128, .f32⟩
  | 127 => ⟨S2x20000x128, .f32⟩
  | _ => ⟨S2x20000x128, .f32⟩

abbrev hbmTy0_2 (i : Nat) : BufTy := match i % 128 with
  | 0 => ⟨S2x20000x128, .f32⟩
  | 1 => ⟨S2x100000x128, .f32⟩
  | 2 => ⟨S1x1x128, .f32⟩
  | 3 => ⟨S2x100000x128, .f32⟩
  | 4 => ⟨S2x100000x128, .f32⟩
  | 5 => ⟨S_, .f32⟩
  | 6 => ⟨S2x100000, .f32⟩
  | 7 => ⟨S2x100000x1, .f32⟩
  | 8 => ⟨S_, .f32⟩
  | 9 => ⟨S2x100000x1, .f32⟩
  | 10 => ⟨S2x100000x1, .f32⟩
  | 11 => ⟨S2x100000x128, .f32⟩
  | 12 => ⟨S2x100000x128, .f32⟩
  | 13 => ⟨S2x100000x128, .f32⟩
  | 14 => ⟨S_, .f32⟩
  | 15 => ⟨S2x100000, .f32⟩
  | 16 => ⟨S2x100000x1, .f32⟩
  | 17 => ⟨S_, .f32⟩
  | 18 => ⟨S2x100000x1, .f32⟩
  | 19 => ⟨S2x100000x1, .f32⟩
  | 20 => ⟨S2x100000x128, .f32⟩
  | 21 => ⟨S2x100000x128, .f32⟩
  | 22 => ⟨S_, .f32⟩
  | 23 => ⟨S2x100000x1, .f32⟩
  | 24 => ⟨S2x100000x1, .f32⟩
  | 25 => ⟨S2x100000x1, .f32⟩
  | 26 => ⟨S2x100000x128, .f32⟩
  | 27 => ⟨S2x100000x128, .f32⟩
  | 28 => ⟨S1x1x128, .f32⟩
  | 29 => ⟨S2x100000x128, .f32⟩
  | 30 => ⟨S2x100000x128, .f32⟩
  | 31 => ⟨S1x1x128, .f32⟩
  | 32 => ⟨S2x100000x128, .f32⟩
  | 33 => ⟨S2x100000x128, .f32⟩
  | _ => ⟨S2x20000x128, .f32⟩

abbrev hbmTy (i : Nat) : BufTy := match i / 128 with
  | 0 => hbmTy0_0 i
  | 1 => hbmTy0_1 i
  | 2 => hbmTy0_2 i
  | _ => ⟨S2x20000x128, .f32⟩

abbrev bufTy : (tb : Table) → Fin (tcTables nBuf tb) → BufTy
  | .hbm, ⟨i, _⟩ => hbmTy i
  | _, _ => ⟨S2x20000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_c : Ref sig .tc := ⟨.hbm, 30, rfl⟩
abbrev main_v4 : Ref sig .tc := ⟨.hbm, 31, rfl⟩
abbrev main_v5 : Ref sig .tc := ⟨.hbm, 32, rfl⟩
abbrev main_c_0 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_cst : Ref sig .tc := ⟨.hbm, 39, rfl⟩
abbrev main_v11 : Ref sig .tc := ⟨.hbm, 40, rfl⟩
abbrev main_c_1 : Ref sig .tc := ⟨.hbm, 41, rfl⟩
abbrev main_v12 : Ref sig .tc := ⟨.hbm, 42, rfl⟩
abbrev main_v13 : Ref sig .tc := ⟨.hbm, 43, rfl⟩
abbrev main_c_2 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_cst_3 : Ref sig .tc := ⟨.hbm, 50, rfl⟩
abbrev main_v19 : Ref sig .tc := ⟨.hbm, 51, rfl⟩
abbrev main_c_4 : Ref sig .tc := ⟨.hbm, 52, rfl⟩
abbrev main_v20 : Ref sig .tc := ⟨.hbm, 53, rfl⟩
abbrev main_v21 : Ref sig .tc := ⟨.hbm, 54, rfl⟩
abbrev main_c_5 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_cst_6 : Ref sig .tc := ⟨.hbm, 60, rfl⟩
abbrev main_v26 : Ref sig .tc := ⟨.hbm, 61, rfl⟩
abbrev main_v27 : Ref sig .tc := ⟨.hbm, 62, rfl⟩
abbrev main_cst_7 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_c_8 : Ref sig .tc := ⟨.hbm, 79, rfl⟩
abbrev main_v43 : Ref sig .tc := ⟨.hbm, 80, rfl⟩
abbrev main_v44 : Ref sig .tc := ⟨.hbm, 81, rfl⟩
abbrev main_c_9 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_cst_10 : Ref sig .tc := ⟨.hbm, 88, rfl⟩
abbrev main_v50 : Ref sig .tc := ⟨.hbm, 89, rfl⟩
abbrev main_c_11 : Ref sig .tc := ⟨.hbm, 90, rfl⟩
abbrev main_v51 : Ref sig .tc := ⟨.hbm, 91, rfl⟩
abbrev main_v52 : Ref sig .tc := ⟨.hbm, 92, rfl⟩
abbrev main_c_12 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_cst_13 : Ref sig .tc := ⟨.hbm, 99, rfl⟩
abbrev main_v58 : Ref sig .tc := ⟨.hbm, 100, rfl⟩
abbrev main_c_14 : Ref sig .tc := ⟨.hbm, 101, rfl⟩
abbrev main_v59 : Ref sig .tc := ⟨.hbm, 102, rfl⟩
abbrev main_v60 : Ref sig .tc := ⟨.hbm, 103, rfl⟩
abbrev main_c_15 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_cst_16 : Ref sig .tc := ⟨.hbm, 109, rfl⟩
abbrev main_v65 : Ref sig .tc := ⟨.hbm, 110, rfl⟩
abbrev main_v66 : Ref sig .tc := ⟨.hbm, 111, rfl⟩
abbrev main_cst_17 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_c_18 : Ref sig .tc := ⟨.hbm, 129, rfl⟩
abbrev main_v83 : Ref sig .tc := ⟨.hbm, 130, rfl⟩
abbrev main_v84 : Ref sig .tc := ⟨.hbm, 131, rfl⟩
abbrev main_c_19 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_cst_20 : Ref sig .tc := ⟨.hbm, 138, rfl⟩
abbrev main_v90 : Ref sig .tc := ⟨.hbm, 139, rfl⟩
abbrev main_c_21 : Ref sig .tc := ⟨.hbm, 140, rfl⟩
abbrev main_v91 : Ref sig .tc := ⟨.hbm, 141, rfl⟩
abbrev main_v92 : Ref sig .tc := ⟨.hbm, 142, rfl⟩
abbrev main_c_22 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_cst_23 : Ref sig .tc := ⟨.hbm, 149, rfl⟩
abbrev main_v98 : Ref sig .tc := ⟨.hbm, 150, rfl⟩
abbrev main_c_24 : Ref sig .tc := ⟨.hbm, 151, rfl⟩
abbrev main_v99 : Ref sig .tc := ⟨.hbm, 152, rfl⟩
abbrev main_v100 : Ref sig .tc := ⟨.hbm, 153, rfl⟩
abbrev main_c_25 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_cst_26 : Ref sig .tc := ⟨.hbm, 159, rfl⟩
abbrev main_v105 : Ref sig .tc := ⟨.hbm, 160, rfl⟩
abbrev main_v106 : Ref sig .tc := ⟨.hbm, 161, rfl⟩
abbrev main_cst_27 : Ref sig .tc := ⟨.hbm, 162, rfl⟩
abbrev main_v107 : Ref sig .tc := ⟨.hbm, 163, rfl⟩
abbrev main_v108 : Ref sig .tc := ⟨.hbm, 164, rfl⟩
abbrev main_v109 : Ref sig .tc := ⟨.hbm, 165, rfl⟩
abbrev main_v110 : Ref sig .tc := ⟨.hbm, 166, rfl⟩
abbrev main_v111 : Ref sig .tc := ⟨.hbm, 167, rfl⟩
abbrev main_v112 : Ref sig .tc := ⟨.hbm, 168, rfl⟩
abbrev main_v113 : Ref sig .tc := ⟨.hbm, 169, rfl⟩
abbrev main_v114 : Ref sig .tc := ⟨.hbm, 170, rfl⟩
abbrev main_v115 : Ref sig .tc := ⟨.hbm, 171, rfl⟩
abbrev main_v116 : Ref sig .tc := ⟨.hbm, 172, rfl⟩
abbrev main_v117 : Ref sig .tc := ⟨.hbm, 173, rfl⟩
abbrev main_v118 : Ref sig .tc := ⟨.hbm, 174, rfl⟩
abbrev main_v119 : Ref sig .tc := ⟨.hbm, 175, rfl⟩
abbrev main_v120 : Ref sig .tc := ⟨.hbm, 176, rfl⟩
abbrev main_v121 : Ref sig .tc := ⟨.hbm, 177, rfl⟩
abbrev main_c_28 : Ref sig .tc := ⟨.hbm, 178, rfl⟩
abbrev main_v122 : Ref sig .tc := ⟨.hbm, 179, rfl⟩
abbrev main_v123 : Ref sig .tc := ⟨.hbm, 180, rfl⟩
abbrev main_c_29 : Ref sig .tc := ⟨.hbm, 181, rfl⟩
abbrev main_v124 : Ref sig .tc := ⟨.hbm, 182, rfl⟩
abbrev main_v125 : Ref sig .tc := ⟨.hbm, 183, rfl⟩
abbrev main_v126 : Ref sig .tc := ⟨.hbm, 184, rfl⟩
abbrev main_v127 : Ref sig .tc := ⟨.hbm, 185, rfl⟩
abbrev main_v128 : Ref sig .tc := ⟨.hbm, 186, rfl⟩
abbrev main_cst_30 : Ref sig .tc := ⟨.hbm, 187, rfl⟩
abbrev main_v129 : Ref sig .tc := ⟨.hbm, 188, rfl⟩
abbrev main_c_31 : Ref sig .tc := ⟨.hbm, 189, rfl⟩
abbrev main_v130 : Ref sig .tc := ⟨.hbm, 190, rfl⟩
abbrev main_v131 : Ref sig .tc := ⟨.hbm, 191, rfl⟩
abbrev main_c_32 : Ref sig .tc := ⟨.hbm, 192, rfl⟩
abbrev main_v132 : Ref sig .tc := ⟨.hbm, 193, rfl⟩
abbrev main_v133 : Ref sig .tc := ⟨.hbm, 194, rfl⟩
abbrev main_v134 : Ref sig .tc := ⟨.hbm, 195, rfl⟩
abbrev main_v135 : Ref sig .tc := ⟨.hbm, 196, rfl⟩
abbrev main_v136 : Ref sig .tc := ⟨.hbm, 197, rfl⟩
abbrev main_cst_33 : Ref sig .tc := ⟨.hbm, 198, rfl⟩
abbrev main_v137 : Ref sig .tc := ⟨.hbm, 199, rfl⟩
abbrev main_c_34 : Ref sig .tc := ⟨.hbm, 200, rfl⟩
abbrev main_v138 : Ref sig .tc := ⟨.hbm, 201, rfl⟩
abbrev main_v139 : Ref sig .tc := ⟨.hbm, 202, rfl⟩
abbrev main_c_35 : Ref sig .tc := ⟨.hbm, 203, rfl⟩
abbrev main_v140 : Ref sig .tc := ⟨.hbm, 204, rfl⟩
abbrev main_v141 : Ref sig .tc := ⟨.hbm, 205, rfl⟩
abbrev main_v142 : Ref sig .tc := ⟨.hbm, 206, rfl⟩
abbrev main_v143 : Ref sig .tc := ⟨.hbm, 207, rfl⟩
abbrev main_cst_36 : Ref sig .tc := ⟨.hbm, 208, rfl⟩
abbrev main_v144 : Ref sig .tc := ⟨.hbm, 209, rfl⟩
abbrev main_v145 : Ref sig .tc := ⟨.hbm, 210, rfl⟩
abbrev main_cst_37 : Ref sig .tc := ⟨.hbm, 211, rfl⟩
abbrev main_v146 : Ref sig .tc := ⟨.hbm, 212, rfl⟩
abbrev main_v147 : Ref sig .tc := ⟨.hbm, 213, rfl⟩
abbrev main_v148 : Ref sig .tc := ⟨.hbm, 214, rfl⟩
abbrev main_v149 : Ref sig .tc := ⟨.hbm, 215, rfl⟩
abbrev main_v150 : Ref sig .tc := ⟨.hbm, 216, rfl⟩
abbrev main_v151 : Ref sig .tc := ⟨.hbm, 217, rfl⟩
abbrev main_v152 : Ref sig .tc := ⟨.hbm, 218, rfl⟩
abbrev main_v153 : Ref sig .tc := ⟨.hbm, 219, rfl⟩
abbrev main_v154 : Ref sig .tc := ⟨.hbm, 220, rfl⟩
abbrev main_v155 : Ref sig .tc := ⟨.hbm, 221, rfl⟩
abbrev main_v156 : Ref sig .tc := ⟨.hbm, 222, rfl⟩
abbrev main_v157 : Ref sig .tc := ⟨.hbm, 223, rfl⟩
abbrev main_v158 : Ref sig .tc := ⟨.hbm, 224, rfl⟩
abbrev main_v159 : Ref sig .tc := ⟨.hbm, 225, rfl⟩
abbrev main_v160 : Ref sig .tc := ⟨.hbm, 226, rfl⟩
abbrev main_v161 : Ref sig .tc := ⟨.hbm, 227, rfl⟩
abbrev main_cst_38 : Ref sig .tc := ⟨.hbm, 228, rfl⟩
abbrev main_v162 : Ref sig .tc := ⟨.hbm, 229, rfl⟩
abbrev main_v163 : Ref sig .tc := ⟨.hbm, 230, rfl⟩
abbrev main_cst_39 : Ref sig .tc := ⟨.hbm, 231, rfl⟩
abbrev main_v164 : Ref sig .tc := ⟨.hbm, 232, rfl⟩
abbrev main_v165 : Ref sig .tc := ⟨.hbm, 233, rfl⟩
abbrev main_v166 : Ref sig .tc := ⟨.hbm, 234, rfl⟩
abbrev main_v167 : Ref sig .tc := ⟨.hbm, 235, rfl⟩
abbrev main_v168 : Ref sig .tc := ⟨.hbm, 236, rfl⟩
abbrev main_cst_40 : Ref sig .tc := ⟨.hbm, 237, rfl⟩
abbrev main_v169 : Ref sig .tc := ⟨.hbm, 238, rfl⟩
abbrev main_v170 : Ref sig .tc := ⟨.hbm, 239, rfl⟩
abbrev main_cst_41 : Ref sig .tc := ⟨.hbm, 240, rfl⟩
abbrev main_v171 : Ref sig .tc := ⟨.hbm, 241, rfl⟩
abbrev main_v172 : Ref sig .tc := ⟨.hbm, 242, rfl⟩
abbrev main_v173 : Ref sig .tc := ⟨.hbm, 243, rfl⟩
abbrev main_v174 : Ref sig .tc := ⟨.hbm, 244, rfl⟩
abbrev main_cst_42 : Ref sig .tc := ⟨.hbm, 245, rfl⟩
abbrev main_v175 : Ref sig .tc := ⟨.hbm, 246, rfl⟩
abbrev main_v176 : Ref sig .tc := ⟨.hbm, 247, rfl⟩
abbrev main_v177 : Ref sig .tc := ⟨.hbm, 248, rfl⟩
abbrev main_v178 : Ref sig .tc := ⟨.hbm, 249, rfl⟩
abbrev main_v179 : Ref sig .tc := ⟨.hbm, 250, rfl⟩
abbrev main_v180 : Ref sig .tc := ⟨.hbm, 251, rfl⟩
abbrev main_v181 : Ref sig .tc := ⟨.hbm, 252, rfl⟩
abbrev main_v182 : Ref sig .tc := ⟨.hbm, 253, rfl⟩
abbrev main_v183 : Ref sig .tc := ⟨.hbm, 254, rfl⟩
abbrev main_v184 : Ref sig .tc := ⟨.hbm, 255, rfl⟩
abbrev main_v185 : Ref sig .tc := ⟨.hbm, 256, rfl⟩
abbrev main_v186 : Ref sig .tc := ⟨.hbm, 257, rfl⟩
abbrev main_v187 : Ref sig .tc := ⟨.hbm, 258, rfl⟩
abbrev main_v188 : Ref sig .tc := ⟨.hbm, 259, rfl⟩
abbrev main_v189 : Ref sig .tc := ⟨.hbm, 260, rfl⟩
abbrev main_cst_43 : Ref sig .tc := ⟨.hbm, 261, rfl⟩
abbrev main_v190 : Ref sig .tc := ⟨.hbm, 262, rfl⟩
abbrev main_v191 : Ref sig .tc := ⟨.hbm, 263, rfl⟩
abbrev main_cst_44 : Ref sig .tc := ⟨.hbm, 264, rfl⟩
abbrev main_v192 : Ref sig .tc := ⟨.hbm, 265, rfl⟩
abbrev main_v193 : Ref sig .tc := ⟨.hbm, 266, rfl⟩
abbrev main_v194 : Ref sig .tc := ⟨.hbm, 267, rfl⟩
abbrev main_v195 : Ref sig .tc := ⟨.hbm, 268, rfl⟩
abbrev main_v196 : Ref sig .tc := ⟨.hbm, 269, rfl⟩
abbrev main_cst_45 : Ref sig .tc := ⟨.hbm, 270, rfl⟩
abbrev main_v197 : Ref sig .tc := ⟨.hbm, 271, rfl⟩
abbrev main_v198 : Ref sig .tc := ⟨.hbm, 272, rfl⟩
abbrev main_cst_46 : Ref sig .tc := ⟨.hbm, 273, rfl⟩
abbrev main_v199 : Ref sig .tc := ⟨.hbm, 274, rfl⟩
abbrev main_v200 : Ref sig .tc := ⟨.hbm, 275, rfl⟩
abbrev main_v201 : Ref sig .tc := ⟨.hbm, 276, rfl⟩
abbrev main_v202 : Ref sig .tc := ⟨.hbm, 277, rfl⟩
abbrev main_cst_47 : Ref sig .tc := ⟨.hbm, 278, rfl⟩
abbrev main_v203 : Ref sig .tc := ⟨.hbm, 279, rfl⟩
abbrev main_v204 : Ref sig .tc := ⟨.hbm, 280, rfl⟩
abbrev main_v205 : Ref sig .tc := ⟨.hbm, 281, rfl⟩
abbrev main_v206 : Ref sig .tc := ⟨.hbm, 282, rfl⟩
abbrev main_v207 : Ref sig .tc := ⟨.hbm, 283, rfl⟩
abbrev main_v208 : Ref sig .tc := ⟨.hbm, 284, rfl⟩
abbrev main_v209 : Ref sig .tc := ⟨.hbm, 285, rfl⟩
abbrev main_v210 : Ref sig .tc := ⟨.hbm, 286, rfl⟩
abbrev main_v211 : Ref sig .tc := ⟨.hbm, 287, rfl⟩
abbrev main_v212 : Ref sig .tc := ⟨.hbm, 288, rfl⟩
abbrev main_v213 : Ref sig .tc := ⟨.hbm, 289, rfl⟩

abbrev nD : Nat := 1
abbrev τ : Topo := Topo.v7x

variable {F : FTy → Type} [FloatOps F]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  bcast_S_S160000 : S_.BroadcastsInDim S160000 (![] : Fin 0 → Fin S160000.rank)
  bcast_S160000_S160000x1_0 : S160000.BroadcastsInDim S160000x1 (![0] : Fin 1 → Fin S160000x1.rank)
  bcast_S_S2x20000x128 : S_.BroadcastsInDim S2x20000x128 (![] : Fin 0 → Fin S2x20000x128.rank)
  bcast_S_S20000 : S_.BroadcastsInDim S20000 (![] : Fin 0 → Fin S20000.rank)
  bcast_S20000_S1x20000x1_1 : S20000.BroadcastsInDim S1x20000x1 (![1] : Fin 1 → Fin S1x20000x1.rank)
  bcast_S1x20000x1_S2x20000x128_0_1_2 : S1x20000x1.BroadcastsInDim S2x20000x128 (![0, 1, 2] : Fin 3 → Fin S2x20000x128.rank)
  bcast_S256_S1x1x256_2 : S256.BroadcastsInDim S1x1x256 (![2] : Fin 1 → Fin S1x1x256.rank)
  bcast_S1x1x256_S2x20000x256_0_1_2 : S1x1x256.BroadcastsInDim S2x20000x256 (![0, 1, 2] : Fin 3 → Fin S2x20000x256.rank)
  slices_S2x40000_S1x40000_0_0 : S2x40000.Slices ![0, 0] S1x40000
  shapeCasts_S1x40000_S40000 : S1x40000.ShapeCasts S40000
  slices_S2x40000_S1x40000_1_0 : S2x40000.Slices ![1, 0] S1x40000
  bcast_S_S40000 : S_.BroadcastsInDim S40000 (![] : Fin 0 → Fin S40000.rank)
  bcast_S40000_S40000x1_0 : S40000.BroadcastsInDim S40000x1 (![0] : Fin 1 → Fin S40000x1.rank)
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S2x100000x128 : S_.BroadcastsInDim S2x100000x128 (![] : Fin 0 → Fin S2x100000x128.rank)
  bcast_S_S100000 : S_.BroadcastsInDim S100000 (![] : Fin 0 → Fin S100000.rank)
  bcast_S100000_S1x100000x1_1 : S100000.BroadcastsInDim S1x100000x1 (![1] : Fin 1 → Fin S1x100000x1.rank)
  bcast_S1x100000x1_S2x100000x128_0_1_2 : S1x100000x1.BroadcastsInDim S2x100000x128 (![0, 1, 2] : Fin 3 → Fin S2x100000x128.rank)
  bcast_S1x1x256_S2x100000x256_0_1_2 : S1x1x256.BroadcastsInDim S2x100000x256 (![0, 1, 2] : Fin 3 → Fin S2x100000x256.rank)
  bcast_S128_S1x1x128_2 : S128.BroadcastsInDim S1x1x128 (![2] : Fin 1 → Fin S1x1x128.rank)
  bcast_S1x1x128_S2x20000x128_0_1_2 : S1x1x128.BroadcastsInDim S2x20000x128 (![0, 1, 2] : Fin 3 → Fin S2x20000x128.rank)
  reducesTo_S2x20000x128_S2x20000_d2 : S2x20000x128.ReducesTo [2] S2x20000
  h_S_ : 0 < S_.numel
  bcast_S2x20000_S2x20000x1_0_1 : S2x20000.BroadcastsInDim S2x20000x1 (![0, 1] : Fin 2 → Fin S2x20000x1.rank)
  bcast_S_S2x20000x1 : S_.BroadcastsInDim S2x20000x1 (![] : Fin 0 → Fin S2x20000x1.rank)
  bcast_S2x20000x1_S2x20000x128_0_1_2 : S2x20000x1.BroadcastsInDim S2x20000x128 (![0, 1, 2] : Fin 3 → Fin S2x20000x128.rank)
  bcast_S1x1x128_S2x100000x128_0_1_2 : S1x1x128.BroadcastsInDim S2x100000x128 (![0, 1, 2] : Fin 3 → Fin S2x100000x128.rank)
  reducesTo_S2x100000x128_S2x100000_d2 : S2x100000x128.ReducesTo [2] S2x100000
  bcast_S2x100000_S2x100000x1_0_1 : S2x100000.BroadcastsInDim S2x100000x1 (![0, 1] : Fin 2 → Fin S2x100000x1.rank)
  bcast_S_S2x100000x1 : S_.BroadcastsInDim S2x100000x1 (![] : Fin 0 → Fin S2x100000x1.rank)
  bcast_S2x100000x1_S2x100000x128_0_1_2 : S2x100000x1.BroadcastsInDim S2x100000x128 (![0, 1, 2] : Fin 3 → Fin S2x100000x128.rank)
  gather_S2x20000x128_S160000x1_S2x160000x128_02_1_n_n_1_1_21128_wf : GatherDims.WF S2x20000x128 S160000x1 S2x160000x128 [0, 2] [1] [] [1] [] 1 ![2, 1, 128]
  scatter_S2x20000x128_S160000x1_S2x160000x128_02_1_1_1_wf : ScatterDims.WF S2x20000x128 S160000x1 S2x160000x128 [0, 2] [1] [1] 1
  scatter_S20000_S160000x1_S160000_n_0_0_1_wf : ScatterDims.WF S20000 S160000x1 S160000 [] [0] [0] 1
  dot_S2x20000x128_S256x128_S2x20000x256_2_1_01_0_n_n_wf : DotDims.WF S2x20000x128 S256x128 S2x20000x256 [2] [1] [0, 1] [0] [] []
  gather_S2x100000x128_S40000x1_S2x40000x128_02_1_n_n_1_1_21128_wf : GatherDims.WF S2x100000x128 S40000x1 S2x40000x128 [0, 2] [1] [] [1] [] 1 ![2, 1, 128]
  scatter_S2x20000x128_S40000x1_S2x40000x128_02_1_1_1_wf : ScatterDims.WF S2x20000x128 S40000x1 S2x40000x128 [0, 2] [1] [1] 1
  scatter_S20000_S40000x1_S40000_n_0_0_1_wf : ScatterDims.WF S20000 S40000x1 S40000 [] [0] [0] 1
  gather_S2x100000x128_S800000x1_S2x800000x128_02_1_n_n_1_1_21128_wf : GatherDims.WF S2x100000x128 S800000x1 S2x800000x128 [0, 2] [1] [] [1] [] 1 ![2, 1, 128]
  scatter_S2x100000x128_S800000x1_S2x800000x128_02_1_1_1_wf : ScatterDims.WF S2x100000x128 S800000x1 S2x800000x128 [0, 2] [1] [1] 1
  scatter_S100000_S800000x1_S800000_n_0_0_1_wf : ScatterDims.WF S100000 S800000x1 S800000 [] [0] [0] 1
  dot_S2x100000x128_S256x128_S2x100000x256_2_1_01_0_n_n_wf : DotDims.WF S2x100000x128 S256x128 S2x100000x256 [2] [1] [0, 1] [0] [] []
  gather_S2x20000x128_S40000x1_S2x40000x128_02_1_n_n_1_1_21128_wf : GatherDims.WF S2x20000x128 S40000x1 S2x40000x128 [0, 2] [1] [] [1] [] 1 ![2, 1, 128]
  scatter_S2x100000x128_S40000x1_S2x40000x128_02_1_1_1_wf : ScatterDims.WF S2x100000x128 S40000x1 S2x40000x128 [0, 2] [1] [1] 1
  scatter_S100000_S40000x1_S40000_n_0_0_1_wf : ScatterDims.WF S100000 S40000x1 S40000 [] [0] [0] 1
  dot_S2x20000x256_S128x256_S2x20000x128_2_1_01_0_n_n_wf : DotDims.WF S2x20000x256 S128x256 S2x20000x128 [2] [1] [0, 1] [0] [] []
  dot_S2x100000x256_S128x256_S2x100000x128_2_1_01_0_n_n_wf : DotDims.WF S2x100000x256 S128x256 S2x100000x128 [2] [1] [0, 1] [0] [] []

variable [Facts₀]

def gather_S2x20000x128_S160000x1_S2x160000x128_02_1_n_n_1_1_21128 : GatherDims S2x20000x128 S160000x1 S2x160000x128 where
  offsetDims := [0, 2]
  collapsedSliceDims := [1]
  operandBatchingDims := []
  startIndicesBatchingDims := []
  startIndexMap := [1]
  indexVectorDim := 1
  sliceSizes := ![2, 1, 128]
  wf := gather_S2x20000x128_S160000x1_S2x160000x128_02_1_n_n_1_1_21128_wf
def scatter_S2x20000x128_S160000x1_S2x160000x128_02_1_1_1 : ScatterDims S2x20000x128 S160000x1 S2x160000x128 where
  updateWindowDims := [0, 2]
  insertedWindowDims := [1]
  scatterDimsToOperandDims := [1]
  indexVectorDim := 1
  wf := scatter_S2x20000x128_S160000x1_S2x160000x128_02_1_1_1_wf
def scatter_S20000_S160000x1_S160000_n_0_0_1 : ScatterDims S20000 S160000x1 S160000 where
  updateWindowDims := []
  insertedWindowDims := [0]
  scatterDimsToOperandDims := [0]
  indexVectorDim := 1
  wf := scatter_S20000_S160000x1_S160000_n_0_0_1_wf
def dot_S2x20000x128_S256x128_S2x20000x256_2_1_01_0_n_n : DotDims S2x20000x128 S256x128 S2x20000x256 where
  lhsContracting := [2]
  rhsContracting := [1]
  lhsNonContracting := [0, 1]
  rhsNonContracting := [0]
  lhsBatch := []
  rhsBatch := []
  wf := dot_S2x20000x128_S256x128_S2x20000x256_2_1_01_0_n_n_wf
def gather_S2x100000x128_S40000x1_S2x40000x128_02_1_n_n_1_1_21128 : GatherDims S2x100000x128 S40000x1 S2x40000x128 where
  offsetDims := [0, 2]
  collapsedSliceDims := [1]
  operandBatchingDims := []
  startIndicesBatchingDims := []
  startIndexMap := [1]
  indexVectorDim := 1
  sliceSizes := ![2, 1, 128]
  wf := gather_S2x100000x128_S40000x1_S2x40000x128_02_1_n_n_1_1_21128_wf
def scatter_S2x20000x128_S40000x1_S2x40000x128_02_1_1_1 : ScatterDims S2x20000x128 S40000x1 S2x40000x128 where
  updateWindowDims := [0, 2]
  insertedWindowDims := [1]
  scatterDimsToOperandDims := [1]
  indexVectorDim := 1
  wf := scatter_S2x20000x128_S40000x1_S2x40000x128_02_1_1_1_wf
def scatter_S20000_S40000x1_S40000_n_0_0_1 : ScatterDims S20000 S40000x1 S40000 where
  updateWindowDims := []
  insertedWindowDims := [0]
  scatterDimsToOperandDims := [0]
  indexVectorDim := 1
  wf := scatter_S20000_S40000x1_S40000_n_0_0_1_wf
def gather_S2x100000x128_S800000x1_S2x800000x128_02_1_n_n_1_1_21128 : GatherDims S2x100000x128 S800000x1 S2x800000x128 where
  offsetDims := [0, 2]
  collapsedSliceDims := [1]
  operandBatchingDims := []
  startIndicesBatchingDims := []
  startIndexMap := [1]
  indexVectorDim := 1
  sliceSizes := ![2, 1, 128]
  wf := gather_S2x100000x128_S800000x1_S2x800000x128_02_1_n_n_1_1_21128_wf
def scatter_S2x100000x128_S800000x1_S2x800000x128_02_1_1_1 : ScatterDims S2x100000x128 S800000x1 S2x800000x128 where
  updateWindowDims := [0, 2]
  insertedWindowDims := [1]
  scatterDimsToOperandDims := [1]
  indexVectorDim := 1
  wf := scatter_S2x100000x128_S800000x1_S2x800000x128_02_1_1_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S2x100000x128_S256x128_S2x100000x256_2_1_01_0_n_n : DotDims S2x100000x128 S256x128 S2x100000x256 where
  lhsContracting := [2]
  rhsContracting := [1]
  lhsNonContracting := [0, 1]
  rhsNonContracting := [0]
  lhsBatch := []
  rhsBatch := []
  wf := dot_S2x100000x128_S256x128_S2x100000x256_2_1_01_0_n_n_wf
def gather_S2x20000x128_S40000x1_S2x40000x128_02_1_n_n_1_1_21128 : GatherDims S2x20000x128 S40000x1 S2x40000x128 where
  offsetDims := [0, 2]
  collapsedSliceDims := [1]
  operandBatchingDims := []
  startIndicesBatchingDims := []
  startIndexMap := [1]
  indexVectorDim := 1
  sliceSizes := ![2, 1, 128]
  wf := gather_S2x20000x128_S40000x1_S2x40000x128_02_1_n_n_1_1_21128_wf
def scatter_S2x100000x128_S40000x1_S2x40000x128_02_1_1_1 : ScatterDims S2x100000x128 S40000x1 S2x40000x128 where
  updateWindowDims := [0, 2]
  insertedWindowDims := [1]
  scatterDimsToOperandDims := [1]
  indexVectorDim := 1
  wf := scatter_S2x100000x128_S40000x1_S2x40000x128_02_1_1_1_wf
def scatter_S100000_S40000x1_S40000_n_0_0_1 : ScatterDims S100000 S40000x1 S40000 where
  updateWindowDims := []
  insertedWindowDims := [0]
  scatterDimsToOperandDims := [0]
  indexVectorDim := 1
  wf := scatter_S100000_S40000x1_S40000_n_0_0_1_wf
def dot_S2x20000x256_S128x256_S2x20000x128_2_1_01_0_n_n : DotDims S2x20000x256 S128x256 S2x20000x128 where
  lhsContracting := [2]
  rhsContracting := [1]
  lhsNonContracting := [0, 1]
  rhsNonContracting := [0]
  lhsBatch := []
  rhsBatch := []
  wf := dot_S2x20000x256_S128x256_S2x20000x128_2_1_01_0_n_n_wf
def dot_S2x100000x256_S128x256_S2x100000x128_2_1_01_0_n_n : DotDims S2x100000x256 S128x256 S2x100000x128 where
  lhsContracting := [2]
  rhsContracting := [1]
  lhsNonContracting := [0, 1]
  rhsNonContracting := [0]
  lhsBatch := []
  rhsBatch := []
  wf := dot_S2x100000x256_S128x256_S2x100000x128_2_1_01_0_n_n_wf

class Facts : Prop extends Facts₀ where

variable [Facts]
-- ==== Proof.KernelRun.lean ====
/-
  The idealized kernel program's run with EVERY buffer named.

  The program is four segments: a stretch of host operations, the first fused node-update call, a second (short)
  stretch, the second call.  The buffer contents at each boundary are a fold from the launch memory: after a host
  stretch, the operations' results; after a call, the call's arrays at what its grid points wrote back and every
  other buffer untouched.  The run below says that every weakly fair execution terminates, faultless, with every
  unscoped buffer of every core at the last boundary's contents; the two results and the arguments are then read off
  that one fact.
-/
import proofs.«125976_j40492951666849_2_alg».proof.Proof.Gen.KernelIdeal.Frame

set_option maxRecDepth 16384

noncomputable section

namespace Cert.KernelIdeal.WholeRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with every unscoped buffer of every core at
    the contents the fold through the four segments gives it. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The two results and the arguments, read off the run: each result buffer ends at the last boundary's contents, each
    argument as launched (no host operation and no call writes an argument). -/
theorem run_full : θ_run defs (onTc (τ := τ) (main (F := F))) ⟨m, fun _ => 0, ρ⟩ (fun r => ∀ c : Dev nD,
      r.2.mem ((c.tc : Thread nD τ).loc main_v142) = W4 m ρ c (Proc.devRef .tc main_v142)
      ∧ r.2.mem ((c.tc : Thread nD τ).loc main_v147) = W4 m ρ c (Proc.devRef .tc main_v147)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  (θ_run defs _ _).mono (fun r h c =>
    ⟨h c _ (mem_uc main_v142 (by decide)), h c _ (mem_uc main_v147 (by decide)),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c),
     (h c _ (mem_uc main_arg8 (by decide))).trans (W4_main_arg8 m ρ c),
     (h c _ (mem_uc main_arg9 (by decide))).trans (W4_main_arg9 m ρ c),
     (h c _ (mem_uc main_arg10 (by decide))).trans (W4_main_arg10 m ρ c),
     (h c _ (mem_uc main_arg11 (by decide))).trans (W4_main_arg11 m ρ c),
     (h c _ (mem_uc main_arg12 (by decide))).trans (W4_main_arg12 m ρ c),
     (h c _ (mem_uc main_arg13 (by decide))).trans (W4_main_arg13 m ρ c),
     (h c _ (mem_uc main_arg14 (by decide))).trans (W4_main_arg14 m ρ c),
     (h c _ (mem_uc main_arg15 (by decide))).trans (W4_main_arg15 m ρ c),
     (h c _ (mem_uc main_arg16 (by decide))).trans (W4_main_arg16 m ρ c),
     (h c _ (mem_uc main_arg17 (by decide))).trans (W4_main_arg17 m ρ c),
     (h c _ (mem_uc main_arg18 (by decide))).trans (W4_main_arg18 m ρ c),
     (h c _ (mem_uc main_arg19 (by decide))).trans (W4_main_arg19 m ρ c),
     (h c _ (mem_uc main_arg20 (by decide))).trans (W4_main_arg20 m ρ c),
     (h c _ (mem_uc main_arg21 (by decide))).trans (W4_main_arg21 m ρ c),
     (h c _ (mem_uc main_arg22 (by decide))).trans (W4_main_arg22 m ρ c),
     (h c _ (mem_uc main_arg23 (by decide))).trans (W4_main_arg23 m ρ c),
     (h c _ (mem_uc main_arg24 (by decide))).trans (W4_main_arg24 m ρ c),
     (h c _ (mem_uc main_arg25 (by decide))).trans (W4_main_arg25 m ρ c)⟩) (run_all m ρ)

end Cert.KernelIdeal.WholeRun

end
-- ==== Proof.KernelHostDefs.lean ====
/-
  The arrays the two fused node-update calls are handed, as functions of the program's arguments.

  Before the first call the host computes, for each of the four relations, the neighbour aggregate (gather the source
  rows, scatter-add them onto the destinations) and the in-degree count (scatter-add ones), then the packed reciprocal
  scales 1 / max(count, 1), the merged self-weights and biases (sums of the two relations'), and the row vectors
  reshaped to one-row matrices.  The aggregates and counts are named here and never opened.
-/
import proofs.«125976_j40492951666849_2_alg».proof.Proof.Gen.KernelIdeal.Frame

set_option maxRecDepth 16384

noncomputable section

namespace Cert.KernelIdeal.HostVal

open Cert.KernelIdeal Cert.KernelIdeal.Gen Idealize.ShloMosaic Idealize.ShloMosaic.TcCoe Idealize.SL.Sem Idealize.ShloMosaic.StableHlo

variable {F : FTy → Type} [FloatOps F]
/-- Neighbour aggregate of the 20000-node type over the first relation: the source rows of the feature array `z` named by the edge list's first row, scatter-added into zeros at the destinations named by its second row (negative indices wrapped by the node count). -/
def aggPipe (z : FVec F S2x20000x128 .f32) (e : (⟨S2x160000, .i32⟩ : BufTy).Contents (Elt F)) : FVec F S2x20000x128 .f32 :=
  Host.scatterAdd scatter_S2x20000x128_S160000x1_S2x160000x128_02_1_1_1 (broadcastInDim S2x20000x128 ![] bcast_S_S2x20000x128 (constant S_ .f32 0x00000000#32)) (broadcastInDim S160000x1 ![0] bcast_S160000_S160000x1_0 (select (cmpi .slt (shapeCast _ (extractStridedSlice S1x160000 ![1, 0] e slices_S2x160000_S1x160000_1_0) shapeCasts_S1x160000_S160000) (broadcastInDim S160000 ![] bcast_S_S160000 (constantI S_ 32 0#32))) (addi (shapeCast _ (extractStridedSlice S1x160000 ![1, 0] e slices_S2x160000_S1x160000_1_0) shapeCasts_S1x160000_S160000) (broadcastInDim S160000 ![] bcast_S_S160000 (constantI S_ 32 20000#32))) (shapeCast _ (extractStridedSlice S1x160000 ![1, 0] e slices_S2x160000_S1x160000_1_0) shapeCasts_S1x160000_S160000))) (Host.gather gather_S2x20000x128_S160000x1_S2x160000x128_02_1_n_n_1_1_21128 z (broadcastInDim S160000x1 ![0] bcast_S160000_S160000x1_0 (select (cmpi .slt (shapeCast _ (extractStridedSlice S1x160000 ![0, 0] e slices_S2x160000_S1x160000_0_0) shapeCasts_S1x160000_S160000) (broadcastInDim S160000 ![] bcast_S_S160000 (constantI S_ 32 0#32))) (addi (shapeCast _ (extractStridedSlice S1x160000 ![0, 0] e slices_S2x160000_S1x160000_0_0) shapeCasts_S1x160000_S160000) (broadcastInDim S160000 ![] bcast_S_S160000 (constantI S_ 32 20000#32))) (shapeCast _ (extractStridedSlice S1x160000 ![0, 0] e slices_S2x160000_S1x160000_0_0) shapeCasts_S1x160000_S160000))))

/-- In-degrees of the 20000-node type over the first relation: ones scatter-added into zeros at the edge list's destinations. -/
def cntPipe (e : (⟨S2x160000, .i32⟩ : BufTy).Contents (Elt F)) : FVec F S20000 .f32 :=
  Host.scatterAdd scatter_S20000_S160000x1_S160000_n_0_0_1 (broadcastInDim S20000 ![] bcast_S_S20000 (constant S_ .f32 0x00000000#32)) (broadcastInDim S160000x1 ![0] bcast_S160000_S160000x1_0 (select (cmpi .slt (shapeCast _ (extractStridedSlice S1x160000 ![1, 0] e slices_S2x160000_S1x160000_1_0) shapeCasts_S1x160000_S160000) (broadcastInDim S160000 ![] bcast_S_S160000 (constantI S_ 32 0#32))) (addi (shapeCast _ (extractStridedSlice S1x160000 ![1, 0] e slices_S2x160000_S1x160000_1_0) shapeCasts_S1x160000_S160000) (broadcastInDim S160000 ![] bcast_S_S160000 (constantI S_ 32 20000#32))) (shapeCast _ (extractStridedSlice S1x160000 ![1, 0] e slices_S2x160000_S1x160000_1_0) shapeCasts_S1x160000_S160000))) (broadcastInDim S160000 ![] bcast_S_S160000 (constant S_ .f32 0x3F800000#32))

/-- Neighbour aggregate of the 20000-node type over the cross relation (sources among the 100000 nodes). -/
def aggCf (z : FVec F S2x100000x128 .f32) (e : (⟨S2x40000, .i32⟩ : BufTy).Contents (Elt F)) : FVec F S2x20000x128 .f32 :=
  Host.scatterAdd scatter_S2x20000x128_S40000x1_S2x40000x128_02_1_1_1 (broadcastInDim S2x20000x128 ![] bcast_S_S2x20000x128 (constant S_ .f32 0x00000000#32)) (broadcastInDim S40000x1 ![0] bcast_S40000_S40000x1_0 (select (cmpi .slt (shapeCast _ (extractStridedSlice S1x40000 ![1, 0] e slices_S2x40000_S1x40000_1_0) shapeCasts_S1x40000_S40000) (broadcastInDim S40000 ![] bcast_S_S40000 (constantI S_ 32 0#32))) (addi (shapeCast _ (extractStridedSlice S1x40000 ![1, 0] e slices_S2x40000_S1x40000_1_0) shapeCasts_S1x40000_S40000) (broadcastInDim S40000 ![] bcast_S_S40000 (constantI S_ 32 20000#32))) (shapeCast _ (extractStridedSlice S1x40000 ![1, 0] e slices_S2x40000_S1x40000_1_0) shapeCasts_S1x40000_S40000))) (Host.gather gather_S2x100000x128_S40000x1_S2x40000x128_02_1_n_n_1_1_21128 z (broadcastInDim S40000x1 ![0] bcast_S40000_S40000x1_0 (select (cmpi .slt (shapeCast _ (extractStridedSlice S1x40000 ![0, 0] e slices_S2x40000_S1x40000_0_0) shapeCasts_S1x40000_S40000) (broadcastInDim S40000 ![] bcast_S_S40000 (constantI S_ 32 0#32))) (addi (shapeCast _ (extractStridedSlice S1x40000 ![0, 0] e slices_S2x40000_S1x40000_0_0) shapeCasts_S1x40000_S40000) (broadcastInDim S40000 ![] bcast_S_S40000 (constantI S_ 32 100000#32))) (shapeCast _ (extractStridedSlice S1x40000 ![0, 0] e slices_S2x40000_S1x40000_0_0) shapeCasts_S1x40000_S40000))))

/-- In-degrees of the 20000-node type over the cross relation. -/
def cntCf (e : (⟨S2x40000, .i32⟩ : BufTy).Contents (Elt F)) : FVec F S20000 .f32 :=
  Host.scatterAdd scatter_S20000_S40000x1_S40000_n_0_0_1 (broadcastInDim S20000 ![] bcast_S_S20000 (constant S_ .f32 0x00000000#32)) (broadcastInDim S40000x1 ![0] bcast_S40000_S40000x1_0 (select (cmpi .slt (shapeCast _ (extractStridedSlice S1x40000 ![1, 0] e slices_S2x40000_S1x40000_1_0) shapeCasts_S1x40000_S40000) (broadcastInDim S40000 ![] bcast_S_S40000 (constantI S_ 32 0#32))) (addi (shapeCast _ (extractStridedSlice S1x40000 ![1, 0] e slices_S2x40000_S1x40000_1_0) shapeCasts_S1x40000_S40000) (broadcastInDim S40000 ![] bcast_S_S40000 (constantI S_ 32 20000#32))) (shapeCast _ (extractStridedSlice S1x40000 ![1, 0] e slices_S2x40000_S1x40000_1_0) shapeCasts_S1x40000_S40000))) (broadcastInDim S40000 ![] bcast_S_S40000 (constant S_ .f32 0x3F800000#32))

/-- Neighbour aggregate of the 100000-node type over its own relation. -/
def aggSurf (z : FVec F S2x100000x128 .f32) (e : (⟨S2x800000, .i32⟩ : BufTy).Contents (Elt F)) : FVec F S2x100000x128 .f32 :=
  Host.scatterAdd scatter_S2x100000x128_S800000x1_S2x800000x128_02_1_1_1 (broadcastInDim S2x100000x128 ![] bcast_S_S2x100000x128 (constant S_ .f32 0x00000000#32)) (broadcastInDim S800000x1 ![0] bcast_S800000_S800000x1_0 (select (cmpi .slt (shapeCast _ (extractStridedSlice S1x800000 ![1, 0] e slices_S2x800000_S1x800000_1_0) shapeCasts_S1x800000_S800000) (broadcastInDim S800000 ![] bcast_S_S800000 (constantI S_ 32 0#32))) (addi (shapeCast _ (extractStridedSlice S1x800000 ![1, 0] e slices_S2x800000_S1x800000_1_0) shapeCasts_S1x800000_S800000) (broadcastInDim S800000 ![] bcast_S_S800000 (constantI S_ 32 100000#32))) (shapeCast _ (extractStridedSlice S1x800000 ![1, 0] e slices_S2x800000_S1x800000_1_0) shapeCasts_S1x800000_S800000))) (Host.gather gather_S2x100000x128_S800000x1_S2x800000x128_02_1_n_n_1_1_21128 z (broadcastInDim S800000x1 ![0] bcast_S800000_S800000x1_0 (select (cmpi .slt (shapeCast _ (extractStridedSlice S1x800000 ![0, 0] e slices_S2x800000_S1x800000_0_0) shapeCasts_S1x800000_S800000) (broadcastInDim S800000 ![] bcast_S_S800000 (constantI S_ 32 0#32))) (addi (shapeCast _ (extractStridedSlice S1x800000 ![0, 0] e slices_S2x800000_S1x800000_0_0) shapeCasts_S1x800000_S800000) (broadcastInDim S800000 ![] bcast_S_S800000 (constantI S_ 32 100000#32))) (shapeCast _ (extractStridedSlice S1x800000 ![0, 0] e slices_S2x800000_S1x800000_0_0) shapeCasts_S1x800000_S800000))))

/-- In-degrees of the 100000-node type over its own relation. -/
def cntSurf (e : (⟨S2x800000, .i32⟩ : BufTy).Contents (Elt F)) : FVec F S100000 .f32 :=
  Host.scatterAdd scatter_S100000_S800000x1_S800000_n_0_0_1 (broadcastInDim S100000 ![] bcast_S_S100000 (constant S_ .f32 0x00000000#32)) (broadcastInDim S800000x1 ![0] bcast_S800000_S800000x1_0 (select (cmpi .slt (shapeCast _ (extractStridedSlice S1x800000 ![1, 0] e slices_S2x800000_S1x800000_1_0) shapeCasts_S1x800000_S800000) (broadcastInDim S800000 ![] bcast_S_S800000 (constantI S_ 32 0#32))) (addi (shapeCast _ (extractStridedSlice S1x800000 ![1, 0] e slices_S2x800000_S1x800000_1_0) shapeCasts_S1x800000_S800000) (broadcastInDim S800000 ![] bcast_S_S800000 (constantI S_ 32 100000#32))) (shapeCast _ (extractStridedSlice S1x800000 ![1, 0] e slices_S2x800000_S1x800000_1_0) shapeCasts_S1x800000_S800000))) (broadcastInDim S800000 ![] bcast_S_S800000 (constant S_ .f32 0x3F800000#32))

/-- Neighbour aggregate of the 100000-node type over the cross relation (sources among the 20000 nodes). -/
def aggC2 (z : FVec F S2x20000x128 .f32) (e : (⟨S2x40000, .i32⟩ : BufTy).Contents (Elt F)) : FVec F S2x100000x128 .f32 :=
  Host.scatterAdd scatter_S2x100000x128_S40000x1_S2x40000x128_02_1_1_1 (broadcastInDim S2x100000x128 ![] bcast_S_S2x100000x128 (constant S_ .f32 0x00000000#32)) (broadcastInDim S40000x1 ![0] bcast_S40000_S40000x1_0 (select (cmpi .slt (shapeCast _ (extractStridedSlice S1x40000 ![1, 0] e slices_S2x40000_S1x40000_1_0) shapeCasts_S1x40000_S40000) (broadcastInDim S40000 ![] bcast_S_S40000 (constantI S_ 32 0#32))) (addi (shapeCast _ (extractStridedSlice S1x40000 ![1, 0] e slices_S2x40000_S1x40000_1_0) shapeCasts_S1x40000_S40000) (broadcastInDim S40000 ![] bcast_S_S40000 (constantI S_ 32 100000#32))) (shapeCast _ (extractStridedSlice S1x40000 ![1, 0] e slices_S2x40000_S1x40000_1_0) shapeCasts_S1x40000_S40000))) (Host.gather gather_S2x20000x128_S40000x1_S2x40000x128_02_1_n_n_1_1_21128 z (broadcastInDim S40000x1 ![0] bcast_S40000_S40000x1_0 (select (cmpi .slt (shapeCast _ (extractStridedSlice S1x40000 ![0, 0] e slices_S2x40000_S1x40000_0_0) shapeCasts_S1x40000_S40000) (broadcastInDim S40000 ![] bcast_S_S40000 (constantI S_ 32 0#32))) (addi (shapeCast _ (extractStridedSlice S1x40000 ![0, 0] e slices_S2x40000_S1x40000_0_0) shapeCasts_S1x40000_S40000) (broadcastInDim S40000 ![] bcast_S_S40000 (constantI S_ 32 20000#32))) (shapeCast _ (extractStridedSlice S1x40000 ![0, 0] e slices_S2x40000_S1x40000_0_0) shapeCasts_S1x40000_S40000))))

/-- In-degrees of the 100000-node type over the cross relation. -/
def cntC2 (e : (⟨S2x40000, .i32⟩ : BufTy).Contents (Elt F)) : FVec F S100000 .f32 :=
  Host.scatterAdd scatter_S100000_S40000x1_S40000_n_0_0_1 (broadcastInDim S100000 ![] bcast_S_S100000 (constant S_ .f32 0x00000000#32)) (broadcastInDim S40000x1 ![0] bcast_S40000_S40000x1_0 (select (cmpi .slt (shapeCast _ (extractStridedSlice S1x40000 ![1, 0] e slices_S2x40000_S1x40000_1_0) shapeCasts_S1x40000_S40000) (broadcastInDim S40000 ![] bcast_S_S40000 (constantI S_ 32 0#32))) (addi (shapeCast _ (extractStridedSlice S1x40000 ![1, 0] e slices_S2x40000_S1x40000_1_0) shapeCasts_S1x40000_S40000) (broadcastInDim S40000 ![] bcast_S_S40000 (constantI S_ 32 100000#32))) (shapeCast _ (extractStridedSlice S1x40000 ![1, 0] e slices_S2x40000_S1x40000_1_0) shapeCasts_S1x40000_S40000))) (broadcastInDim S40000 ![] bcast_S_S40000 (constant S_ .f32 0x3F800000#32))

/-- The packed scales [20000, 2] of a node type: column k holds 1 / max(in-degree over relation k, 1). -/
def invPack20000 (cnt1 cnt2 : FVec F S20000 .f32) : FVec F S20000x2 .f32 :=
  concatenate S20000x2 1 [⟨S20000x1, broadcastInDim S20000x1 ![0] bcast_S20000_S20000x1_0 (Host.divf (broadcastInDim S20000 ![] bcast_S_S20000 (constant S_ .f32 0x3F800000#32)) (maximumf cnt1 (broadcastInDim S20000 ![] bcast_S_S20000 (constant S_ .f32 0x3F800000#32))))⟩, ⟨S20000x1, broadcastInDim S20000x1 ![0] bcast_S20000_S20000x1_0 (Host.divf (broadcastInDim S20000 ![] bcast_S_S20000 (constant S_ .f32 0x3F800000#32)) (maximumf cnt2 (broadcastInDim S20000 ![] bcast_S_S20000 (constant S_ .f32 0x3F800000#32))))⟩] concatenates_S20000x1_S20000x1_S20000x2_d1

/-- The packed scales [100000, 2] of a node type: column k holds 1 / max(in-degree over relation k, 1). -/
def invPack100000 (cnt1 cnt2 : FVec F S100000 .f32) : FVec F S100000x2 .f32 :=
  concatenate S100000x2 1 [⟨S100000x1, broadcastInDim S100000x1 ![0] bcast_S100000_S100000x1_0 (Host.divf (broadcastInDim S100000 ![] bcast_S_S100000 (constant S_ .f32 0x3F800000#32)) (maximumf cnt1 (broadcastInDim S100000 ![] bcast_S_S100000 (constant S_ .f32 0x3F800000#32))))⟩, ⟨S100000x1, broadcastInDim S100000x1 ![0] bcast_S100000_S100000x1_0 (Host.divf (broadcastInDim S100000 ![] bcast_S_S100000 (constant S_ .f32 0x3F800000#32)) (maximumf cnt2 (broadcastInDim S100000 ![] bcast_S_S100000 (constant S_ .f32 0x3F800000#32))))⟩] concatenates_S100000x1_S100000x1_S100000x2_d1

end Cert.KernelIdeal.HostVal

end
-- ==== Proof.KernelHost0.lean ====
/-
  What the first fused call finds in each of its twelve input arrays: the fold of the first host stretch over the
  launch memory, read at each array's buffer.
-/
import proofs.«125976_j40492951666849_2_alg».proof.Proof.KernelHostDefs

set_option maxRecDepth 16384

noncomputable section

namespace Cert.KernelIdeal.HostVal

open Cert.KernelIdeal Cert.KernelIdeal.Gen Idealize.ShloMosaic Idealize.ShloMosaic.TcCoe Idealize.SL.Sem Idealize.ShloMosaic.StableHlo

variable {F : FTy → Type} [FloatOps F]

variable (m : (ℓ : Loc nD τ sig) → Buf (Elt F) ℓ) (ρ : Dev nD → PrngReg)

theorem W1_v18 (c : Dev nD) : W1 m ρ c (Proc.devRef .tc main_v18) = aggPipe (m ((c : Thread nD τ).loc main_arg0)) (m ((c : Thread nD τ).loc main_arg2)) := by
  show StableHlo.after hostOps0 (W0 m ρ c) (Proc.devRef .tc main_v18) = _
  after_results_simp <;> rfl

theorem W1_v46 (c : Dev nD) : W1 m ρ c (Proc.devRef .tc main_v46) = aggCf (m ((c : Thread nD τ).loc main_arg1)) (m ((c : Thread nD τ).loc main_arg5)) := by
  show StableHlo.after hostOps0 (W0 m ρ c) (Proc.devRef .tc main_v46) = _
  after_results_simp <;> rfl

theorem W1_v126 (c : Dev nD) : W1 m ρ c (Proc.devRef .tc main_v126) = invPack20000 (cntPipe (m ((c : Thread nD τ).loc main_arg2))) (cntCf (m ((c : Thread nD τ).loc main_arg5))) := by
  show StableHlo.after hostOps0 (W0 m ρ c) (Proc.devRef .tc main_v126) = _
  after_results_simp <;> rfl

theorem W1_arg0 (c : Dev nD) : W1 m ρ c (Proc.devRef .tc main_arg0) = m ((c : Thread nD τ).loc main_arg0) := by
  show StableHlo.after hostOps0 (W0 m ρ c) (Proc.devRef .tc main_arg0) = _
  after_results_simp <;> rfl

theorem W1_arg6 (c : Dev nD) : W1 m ρ c (Proc.devRef .tc main_arg6) = m ((c : Thread nD τ).loc main_arg6) := by
  show StableHlo.after hostOps0 (W0 m ρ c) (Proc.devRef .tc main_arg6) = _
  after_results_simp <;> rfl

theorem W1_arg15 (c : Dev nD) : W1 m ρ c (Proc.devRef .tc main_arg15) = m ((c : Thread nD τ).loc main_arg15) := by
  show StableHlo.after hostOps0 (W0 m ρ c) (Proc.devRef .tc main_arg15) = _
  after_results_simp <;> rfl

theorem W1_v138 (c : Dev nD) : W1 m ρ c (Proc.devRef .tc main_v138) = shapeCast S1x256 (addf (m ((c : Thread nD τ).loc main_arg7)) (m ((c : Thread nD τ).loc main_arg16))) shapeCasts_S256_S1x256 := by
  show StableHlo.after hostOps0 (W0 m ρ c) (Proc.devRef .tc main_v138) = _
  after_results_simp <;> rfl

theorem W1_v112 (c : Dev nD) : W1 m ρ c (Proc.devRef .tc main_v112) = addf (m ((c : Thread nD τ).loc main_arg8)) (m ((c : Thread nD τ).loc main_arg17)) := by
  show StableHlo.after hostOps0 (W0 m ρ c) (Proc.devRef .tc main_v112) = _
  after_results_simp <;> rfl

theorem W1_arg18 (c : Dev nD) : W1 m ρ c (Proc.devRef .tc main_arg18) = m ((c : Thread nD τ).loc main_arg18) := by
  show StableHlo.after hostOps0 (W0 m ρ c) (Proc.devRef .tc main_arg18) = _
  after_results_simp <;> rfl

theorem W1_v139 (c : Dev nD) : W1 m ρ c (Proc.devRef .tc main_v139) = shapeCast S1x128 (m ((c : Thread nD τ).loc main_arg19)) shapeCasts_S128_S1x128 := by
  show StableHlo.after hostOps0 (W0 m ρ c) (Proc.devRef .tc main_v139) = _
  after_results_simp <;> rfl

theorem W1_v140 (c : Dev nD) : W1 m ρ c (Proc.devRef .tc main_v140) = shapeCast S1x128 (m ((c : Thread nD τ).loc main_arg22)) shapeCasts_S128_S1x128 := by
  show StableHlo.after hostOps0 (W0 m ρ c) (Proc.devRef .tc main_v140) = _
  after_results_simp <;> rfl

theorem W1_v141 (c : Dev nD) : W1 m ρ c (Proc.devRef .tc main_v141) = shapeCast S1x128 (m ((c : Thread nD τ).loc main_arg23)) shapeCasts_S128_S1x128 := by
  show StableHlo.after hostOps0 (W0 m ρ c) (Proc.devRef .tc main_v141) = _
  after_results_simp <;> rfl

end Cert.KernelIdeal.HostVal

end
-- ==== Proof.KernelHostRead.lean ====
/-
  The host-built operands of the fused calls, read at an index: the packed scales' two columns are the reciprocals of
  the clamped degrees, a clamped degree max(count, 1) is at least one, and a vector reshaped to a one-row matrix reads
  the vector.
-/
import proofs.«125976_j40492951666849_2_alg».proof.Proof.KernelHostDefs
import Idealize.ShloMosaic.Lib.ValueIdx
import Idealize.ShloMosaic.Lib.Pipeline.Value
import Idealize.ShloMosaic.PureOps.Ideal.Laws

set_option maxRecDepth 16384

noncomputable section

namespace Cert.KernelIdeal.HostVal

open Cert.KernelIdeal Cert.KernelIdeal.Gen Idealize.ShloMosaic Idealize.ShloMosaic.TcCoe Idealize.ShloMosaic.ValueIdx

/-- The float word 0x3F800000 denotes one. -/
theorem one_word : Ideal.ofBits .f32 0x3F800000#32 = 1 := by
  simp [Ideal.ofBits, Ideal.ieee]
  rw [← EReal.coe_mul]
  norm_num

/-- Column 0 of the packed scales [20000, 2] at node n: one over the first relation's clamped degree. -/
theorem invPack20000_col0 (cnt1 cnt2 : FVec Ideal S20000 .f32) (n : Fin 20000) :
    invPack20000 (F := Ideal) cnt1 cnt2 (ix2 n (0 : Fin 2))
      = Ideal.div 1 ((maximumf cnt1 (broadcastInDim S20000 ![] bcast_S_S20000 (constant (F := Ideal) S_ .f32 0x3F800000#32))) (ix1 n)) := by
  unfold invPack20000
  refine (concatenate_pair_apply_left (1 : Fin S20000x2.rank) _ _ concatenates_S20000x1_S20000x1_S20000x2_d1 (ix2 n (0 : Fin 2)) rfl
    (ix2 n (0 : Fin 1)) (fun b => ?_)).trans ?_
  · match b with
    | ⟨0, _⟩ => rfl
    | ⟨1, _⟩ => rfl
  · refine (broadcastInDim_apply ![0] bcast_S20000_S20000x1_0 _ (ix2 n (0 : Fin 1)) (ix1 n) (fun a => ?_)).trans ?_
    · match a with
      | ⟨0, _⟩ => rfl
    · show Ideal.div (Ideal.ofBits .f32 0x3F800000#32) _ = Ideal.div 1 _
      rw [one_word]

/-- Column 1 of the packed scales at node n: one over the second relation's clamped degree. -/
theorem invPack20000_col1 (cnt1 cnt2 : FVec Ideal S20000 .f32) (n : Fin 20000) :
    invPack20000 (F := Ideal) cnt1 cnt2 (ix2 n (1 : Fin 2))
      = Ideal.div 1 ((maximumf cnt2 (broadcastInDim S20000 ![] bcast_S_S20000 (constant (F := Ideal) S_ .f32 0x3F800000#32))) (ix1 n)) := by
  unfold invPack20000
  refine (concatenate_pair_apply_right (1 : Fin S20000x2.rank) _ _ concatenates_S20000x1_S20000x1_S20000x2_d1 (ix2 n (1 : Fin 2)) rfl rfl
    (ix2 n (0 : Fin 1)) (fun b hb => ?_) rfl).trans ?_
  · match b with
    | ⟨0, _⟩ => rfl
    | ⟨1, _⟩ => exact absurd rfl hb
  · refine (broadcastInDim_apply ![0] bcast_S20000_S20000x1_0 _ (ix2 n (0 : Fin 1)) (ix1 n) (fun a => ?_)).trans ?_
    · match a with
      | ⟨0, _⟩ => rfl
    · show Ideal.div (Ideal.ofBits .f32 0x3F800000#32) _ = Ideal.div 1 _
      rw [one_word]

/-- A clamped degree is never zero: it is at least one. -/
theorem clamp20000_ne_zero (cnt : FVec Ideal S20000 .f32) (n : Fin 20000) :
    (maximumf cnt (broadcastInDim S20000 ![] bcast_S_S20000 (constant (F := Ideal) S_ .f32 0x3F800000#32))) (ix1 n) ≠ 0 := by
  show max (cnt (ix1 n)) (Ideal.ofBits .f32 0x3F800000#32) ≠ 0
  rw [one_word]
  exact (lt_of_lt_of_le zero_lt_one (le_max_right _ _)).ne'

/-- Column 0 of the packed scales [100000, 2] at node n: one over the first relation's clamped degree. -/
theorem invPack100000_col0 (cnt1 cnt2 : FVec Ideal S100000 .f32) (n : Fin 100000) :
    invPack100000 (F := Ideal) cnt1 cnt2 (ix2 n (0 : Fin 2))
      = Ideal.div 1 ((maximumf cnt1 (broadcastInDim S100000 ![] bcast_S_S100000 (constant (F := Ideal) S_ .f32 0x3F800000#32))) (ix1 n)) := by
  unfold invPack100000
  refine (concatenate_pair_apply_left (1 : Fin S100000x2.rank) _ _ concatenates_S100000x1_S100000x1_S100000x2_d1 (ix2 n (0 : Fin 2)) rfl
    (ix2 n (0 : Fin 1)) (fun b => ?_)).trans ?_
  · match b with
    | ⟨0, _⟩ => rfl
    | ⟨1, _⟩ => rfl
  · refine (broadcastInDim_apply ![0] bcast_S100000_S100000x1_0 _ (ix2 n (0 : Fin 1)) (ix1 n) (fun a => ?_)).trans ?_
    · match a with
      | ⟨0, _⟩ => rfl
    · show Ideal.div (Ideal.ofBits .f32 0x3F800000#32) _ = Ideal.div 1 _
      rw [one_word]

/-- Column 1 of the packed scales at node n: one over the second relation's clamped degree. -/
theorem invPack100000_col1 (cnt1 cnt2 : FVec Ideal S100000 .f32) (n : Fin 100000) :
    invPack100000 (F := Ideal) cnt1 cnt2 (ix2 n (1 : Fin 2))
      = Ideal.div 1 ((maximumf cnt2 (broadcastInDim S100000 ![] bcast_S_S100000 (constant (F := Ideal) S_ .f32 0x3F800000#32))) (ix1 n)) := by
  unfold invPack100000
  refine (concatenate_pair_apply_right (1 : Fin S100000x2.rank) _ _ concatenates_S100000x1_S100000x1_S100000x2_d1 (ix2 n (1 : Fin 2)) rfl rfl
    (ix2 n (0 : Fin 1)) (fun b hb => ?_) rfl).trans ?_
  · match b with
    | ⟨0, _⟩ => rfl
    | ⟨1, _⟩ => exact absurd rfl hb
  · refine (broadcastInDim_apply ![0] bcast_S100000_S100000x1_0 _ (ix2 n (0 : Fin 1)) (ix1 n) (fun a => ?_)).trans ?_
    · match a with
      | ⟨0, _⟩ => rfl
    · show Ideal.div (Ideal.ofBits .f32 0x3F800000#32) _ = Ideal.div 1 _
      rw [one_word]

/-- A clamped degree is never zero: it is at least one. -/
theorem clamp100000_ne_zero (cnt : FVec Ideal S100000 .f32) (n : Fin 100000) :
    (maximumf cnt (broadcastInDim S100000 ![] bcast_S_S100000 (constant (F := Ideal) S_ .f32 0x3F800000#32))) (ix1 n) ≠ 0 := by
  show max (cnt (ix1 n)) (Ideal.ofBits .f32 0x3F800000#32) ≠ 0
  rw [one_word]
  exact (lt_of_lt_of_le zero_lt_one (le_max_right _ _)).ne'

/-- A vector of 256 entries reshaped to a one-row matrix, read at (0, h). -/
theorem row256_apply (x : S256.Idx → EReal) (hc : S256.ShapeCasts S1x256) (h : Fin 256) :
    shapeCast S1x256 x hc (ix2 (0 : Fin 1) h) = x (ix1 h) := by
  refine (shapeCast_addUnit_apply ![256] x hc (ix2 (0 : Fin 1) h)).trans (congrArg x (funext fun a => ?_))
  match a with
  | ⟨0, _⟩ => rfl

/-- A vector of 128 entries reshaped to a one-row matrix, read at (0, d). -/
theorem row128_apply (x : S128.Idx → EReal) (hc : S128.ShapeCasts S1x128) (d : Fin 128) :
    shapeCast S1x128 x hc (ix2 (0 : Fin 1) d) = x (ix1 d) := by
  refine (shapeCast_addUnit_apply ![128] x hc (ix2 (0 : Fin 1) d)).trans (congrArg x (funext fun a => ?_))
  match a with
  | ⟨0, _⟩ => rfl

end Cert.KernelIdeal.HostVal

end
-- ==== Proof.NodeSpec.lean ====
/-
  The node update of one heterogeneous message-passing block, as plain functions on the extended reals.

  For one destination node type with N nodes, every output row (batch b, node n) is computed from
    * two aggregated neighbour rows a1, a2 : Fin 128 → EReal (sums of source features over incoming edges),
    * the node's own feature row z,
    * per-node scales for the two aggregates (the mean's 1 / max(in-degree, 1)),
  by   hidden h = Σ_d (a1 d · s1) · Wl1 h d + Σ_d (a2 d · s2) · Wl2 h d + Σ_d z d · Wr h d + bl h   (256 entries),
  then projected = Σ_h hidden h · Wp d h + bp d (128 entries), then layer-normalised over its 128 entries with gain g and
  offset beta.  Two arrangements of the hidden row are stated: the one that scales by the reciprocal and merges the two
  self-weights and biases first ('hiddenK'), and the one that divides by the degree and adds the two SAGE terms
  ('hiddenR').  'hidden_eq' is the law joining them: a·(1/c) = a/c for c ≠ 0 on the extended reals, and
  z·(u + v) = z·u + z·v for real z, u, v.
-/
import Idealize.ShloMosaic.PureOps.Ideal
import Idealize.ShloMosaic.Lib.ValueIdx

noncomputable section

namespace Cert.NodeSpec

open Idealize.ShloMosaic Idealize.ShloMosaic.ValueIdx

/-- The row length 128 as the float the programs divide by (the word of 128.0). -/
abbrev n128 : EReal := Ideal.ofBits .f32 0x43000000#32
/-- The layer norm's epsilon (the word both programs carry for 1e-5). -/
abbrev eps : EReal := Ideal.ofBits .f32 0x3727C5AC#32

/-- Hidden row, reciprocal-scaled aggregates, merged self-weight 'Wr' and merged bias 'bl'. -/
def hiddenK (a1 a2 z : Fin 128 → EReal) (s1 s2 : EReal) (Wl1 Wl2 Wr : Fin 256 → Fin 128 → EReal)
    (bl : Fin 256 → EReal) (h : Fin 256) : EReal :=
  ((∑ d, (a1 d * s1) * Wl1 h d + ∑ d, (a2 d * s2) * Wl2 h d) + ∑ d, z d * Wr h d) + bl h

/-- Hidden row, aggregates divided by the clamped degrees 'c1', 'c2', the two SAGE terms added. -/
def hiddenR (a1 a2 z : Fin 128 → EReal) (c1 c2 : EReal) (Wl1 Wl2 Wr1 Wr2 : Fin 256 → Fin 128 → EReal)
    (bl1 bl2 : Fin 256 → EReal) (h : Fin 256) : EReal :=
  ((∑ d, Ideal.div (a1 d) c1 * Wl1 h d + bl1 h) + ∑ d, z d * Wr1 h d)
    + ((∑ d, Ideal.div (a2 d) c2 * Wl2 h d + bl2 h) + ∑ d, z d * Wr2 h d)

/-- The projection of a hidden row back to 128 entries. -/
def proj (u : Fin 256 → EReal) (Wp : Fin 128 → Fin 256 → EReal) (bp : Fin 128 → EReal) (d : Fin 128) : EReal :=
  ∑ h, u h * Wp d h + bp d

/-- The mean of a row of 128 entries: their sum divided by 128.0. -/
def mean (p : Fin 128 → EReal) : EReal := Ideal.div (∑ d, p d) n128

/-- Layer normalisation of a row: centred, scaled by the reciprocal root of the variance plus epsilon, gain, offset. -/
def lnorm (p g beta : Fin 128 → EReal) (d : Fin 128) : EReal :=
  ((p d - mean p) * Ideal.rsqrt (mean (fun e => (p e - mean p) * (p e - mean p)) + eps)) * g d + beta d

/-- One output row from its hidden row. -/
def out (u : Fin 256 → EReal) (Wp : Fin 128 → Fin 256 → EReal) (bp g beta : Fin 128 → EReal) : Fin 128 → EReal :=
  lnorm (proj u Wp bp) g beta

/-- The whole output array [2, N, 128] in the first arrangement, from the arrays one fused node-update call is handed:
    the two aggregates and the features [2, N, 128], the packed scales [N, 2], the weights [256, 128] and [128, 256],
    and the row vectors as [1, 256] / [1, 128]. -/
def arrK (N : ℕ) (agg1 agg2 : (⟨3, ![2, N, 128]⟩ : Shape).Idx → EReal) (inv : (⟨2, ![N, 2]⟩ : Shape).Idx → EReal)
    (z : (⟨3, ![2, N, 128]⟩ : Shape).Idx → EReal) (Wl1 Wl2 : (⟨2, ![256, 128]⟩ : Shape).Idx → EReal)
    (bl : (⟨2, ![1, 256]⟩ : Shape).Idx → EReal) (Wr : (⟨2, ![256, 128]⟩ : Shape).Idx → EReal)
    (Wp : (⟨2, ![128, 256]⟩ : Shape).Idx → EReal) (bp g beta : (⟨2, ![1, 128]⟩ : Shape).Idx → EReal) :
    (⟨3, ![2, N, 128]⟩ : Shape).Idx → EReal := fun i =>
  let b : Fin 2 := i 0
  let n : Fin N := i 1
  out (hiddenK (fun d => agg1 (ix3 b n d)) (fun d => agg2 (ix3 b n d)) (fun d => z (ix3 b n d))
        (inv (ix2 n (0 : Fin 2))) (inv (ix2 n (1 : Fin 2)))
        (fun h d => Wl1 (ix2 h d)) (fun h d => Wl2 (ix2 h d)) (fun h d => Wr (ix2 h d)) (fun h => bl (ix2 (0 : Fin 1) h)))
      (fun d h => Wp (ix2 d h)) (fun d => bp (ix2 (0 : Fin 1) d)) (fun d => g (ix2 (0 : Fin 1) d))
      (fun d => beta (ix2 (0 : Fin 1) d)) (i 2)

/-- The whole output array [2, N, 128] in the second arrangement, from the aggregates, the clamped degrees [N], the
    features, the four SAGE weights and two biases [256], the projection and the layer norm's vectors [128]. -/
def arrR (N : ℕ) (agg1 agg2 : (⟨3, ![2, N, 128]⟩ : Shape).Idx → EReal) (c1 c2 : (⟨1, ![N]⟩ : Shape).Idx → EReal)
    (z : (⟨3, ![2, N, 128]⟩ : Shape).Idx → EReal) (Wl1 Wl2 Wr1 Wr2 : (⟨2, ![256, 128]⟩ : Shape).Idx → EReal)
    (bl1 bl2 : (⟨1, ![256]⟩ : Shape).Idx → EReal)
    (Wp : (⟨2, ![128, 256]⟩ : Shape).Idx → EReal) (bp g beta : (⟨1, ![128]⟩ : Shape).Idx → EReal) :
    (⟨3, ![2, N, 128]⟩ : Shape).Idx → EReal := fun i =>
  let b : Fin 2 := i 0
  let n : Fin N := i 1
  out (hiddenR (fun d => agg1 (ix3 b n d)) (fun d => agg2 (ix3 b n d)) (fun d => z (ix3 b n d))
        (c1 (ix1 n)) (c2 (ix1 n))
        (fun h d => Wl1 (ix2 h d)) (fun h d => Wl2 (ix2 h d)) (fun h d => Wr1 (ix2 h d)) (fun h d => Wr2 (ix2 h d))
        (fun h => bl1 (ix1 h)) (fun h => bl2 (ix1 h)))
      (fun d h => Wp (ix2 d h)) (fun d => bp (ix1 d)) (fun d => g (ix1 d)) (fun d => beta (ix1 d)) (i 2)

end Cert.NodeSpec

end
-- ==== Proof.KernelArray0Blk.lean ====
import proofs.«125976_j40492951666849_2_alg».proof.Proof.Gen.KernelIdeal.Frame
import proofs.«125976_j40492951666849_2_alg».proof.Proof.NodeSpec
import Idealize.ShloMosaic.Lib.ValueIdx
import Idealize.ShloMosaic.Lib.Pipeline.Value

noncomputable section

namespace Cert.KernelIdeal.Array0

open Cert.KernelIdeal Cert.KernelIdeal.Gen Idealize.ShloMosaic Idealize.ShloMosaic.TcCoe Idealize.SL.Sem
open Idealize.ShloMosaic.ValueIdx
open Idealize.ShloMosaic.Pipeline (Dat)

/-! # The blocks of region 0 inside their arrays

  The grid has 10 points.  At point t the two aggregates, the features and the result are cut along the node axis into
  blocks of 2000 consecutive nodes, block t holding nodes 2000·t … 2000·t + 1999 of 20000; the packed scales are cut the
  same way; the weights and the row vectors are taken whole at every point.  So row n of a block at point t is row
  2000·t + n of its array, and every node of the array lies in exactly the block numbered (node / 2000). -/

variable (V : (c : Dev nD) → (b : Ref sig .tc) → Buf (Elt Ideal) ((c : Thread nD τ).loc b)) (c : Dev nD)

/-- The node-blocked operands and the result move along the node axis only: block index (0, t, 0) at point t. -/
theorem idx_rows : ∀ t : Fin cfg0.N,
    win0_0.index t (0 : Fin 3) = 0 ∧ win0_0.index t (1 : Fin 3) = t.val ∧ win0_0.index t (2 : Fin 3) = 0
    ∧ win0_1.index t (0 : Fin 3) = 0 ∧ win0_1.index t (1 : Fin 3) = t.val ∧ win0_1.index t (2 : Fin 3) = 0
    ∧ win0_3.index t (0 : Fin 3) = 0 ∧ win0_3.index t (1 : Fin 3) = t.val ∧ win0_3.index t (2 : Fin 3) = 0
    ∧ win0_12.index t (0 : Fin 3) = 0 ∧ win0_12.index t (1 : Fin 3) = t.val ∧ win0_12.index t (2 : Fin 3) = 0 :=
  (by decide +kernel : ∀ t : Fin grid0.N, _)

/-- The packed scales move with the nodes: block index (t, 0) at point t; and there are 10 points. -/
theorem idx_scales : ∀ t : Fin cfg0.N,
    win0_2.index t (0 : Fin 2) = t.val ∧ win0_2.index t (1 : Fin 2) = 0 ∧ t.val < 10 :=
  (by decide +kernel : ∀ t : Fin grid0.N, _)

/-- The weights and the row vectors do not move: block index (0, 0) at every point. -/
theorem idx_whole : ∀ t : Fin cfg0.N,
    win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0 :=
  (by decide +kernel : ∀ t : Fin grid0.N, _)

/-- The node of the array that node n of the block at point t is: 2000·t + n. -/
def row (t : Fin cfg0.N) (n : Fin 2000) : Fin 20000 :=
  ⟨t.val * 2000 + n.val, by have h := (idx_scales t).2.2; have := n.isLt; omega⟩

theorem row_val (t : Fin cfg0.N) (n : Fin 2000) : (row t n).val = t.val * 2000 + n.val := rfl

/-! ## Where a block's entry sits in the array -/

theorem emb0 (t : Fin cfg0.N) (n : Fin 2000) (b : Fin 2) (d : Fin 128) :
    ((cfg0.win 0).blk t).view.emb (ix3 b n d) = ix3 b (row t n) d := by
  obtain ⟨e0, e1, e2, -, -, -, -, -, -, -, -, -⟩ := idx_rows t
  funext a; apply Fin.ext
  match a with
  | ⟨0, _⟩ => show win0_0.index t (0 : Fin 3) * 2 + 1 * b.val = b.val; omega
  | ⟨1, _⟩ => show win0_0.index t (1 : Fin 3) * 2000 + 1 * n.val = t.val * 2000 + n.val; omega
  | ⟨2, _⟩ => show win0_0.index t (2 : Fin 3) * 128 + 1 * d.val = d.val; omega

theorem emb1 (t : Fin cfg0.N) (n : Fin 2000) (b : Fin 2) (d : Fin 128) :
    ((cfg0.win 1).blk t).view.emb (ix3 b n d) = ix3 b (row t n) d := by
  obtain ⟨-, -, -, e0, e1, e2, -, -, -, -, -, -⟩ := idx_rows t
  funext a; apply Fin.ext
  match a with
  | ⟨0, _⟩ => show win0_1.index t (0 : Fin 3) * 2 + 1 * b.val = b.val; omega
  | ⟨1, _⟩ => show win0_1.index t (1 : Fin 3) * 2000 + 1 * n.val = t.val * 2000 + n.val; omega
  | ⟨2, _⟩ => show win0_1.index t (2 : Fin 3) * 128 + 1 * d.val = d.val; omega

theorem emb3 (t : Fin cfg0.N) (n : Fin 2000) (b : Fin 2) (d : Fin 128) :
    ((cfg0.win 3).blk t).view.emb (ix3 b n d) = ix3 b (row t n) d := by
  obtain ⟨-, -, -, -, -, -, e0, e1, e2, -, -, -⟩ := idx_rows t
  funext a; apply Fin.ext
  match a with
  | ⟨0, _⟩ => show win0_3.index t (0 : Fin 3) * 2 + 1 * b.val = b.val; omega
  | ⟨1, _⟩ => show win0_3.index t (1 : Fin 3) * 2000 + 1 * n.val = t.val * 2000 + n.val; omega
  | ⟨2, _⟩ => show win0_3.index t (2 : Fin 3) * 128 + 1 * d.val = d.val; omega

theorem emb12 (t : Fin cfg0.N) (n : Fin 2000) (b : Fin 2) (d : Fin 128) :
    ((cfg0.win 12).blk t).view.emb (ix3 b n d) = ix3 b (row t n) d := by
  obtain ⟨-, -, -, -, -, -, -, -, -, e0, e1, e2⟩ := idx_rows t
  funext a; apply Fin.ext
  match a with
  | ⟨0, _⟩ => show win0_12.index t (0 : Fin 3) * 2 + 1 * b.val = b.val; omega
  | ⟨1, _⟩ => show win0_12.index t (1 : Fin 3) * 2000 + 1 * n.val = t.val * 2000 + n.val; omega
  | ⟨2, _⟩ => show win0_12.index t (2 : Fin 3) * 128 + 1 * d.val = d.val; omega

theorem emb2 (t : Fin cfg0.N) (n : Fin 2000) (k : Fin 2) :
    ((cfg0.win 2).blk t).view.emb (ix2 n k) = ix2 (row t n) k := by
  obtain ⟨e0, e1, -⟩ := idx_scales t
  funext a; apply Fin.ext
  match a with
  | ⟨0, _⟩ => show win0_2.index t (0 : Fin 2) * 2000 + 1 * n.val = t.val * 2000 + n.val; omega
  | ⟨1, _⟩ => show win0_2.index t (1 : Fin 2) * 2 + 1 * k.val = k.val; omega

theorem emb4 (t : Fin cfg0.N) (h : Fin 256) (d : Fin 128) :
    ((cfg0.win 4).blk t).view.emb (ix2 h d) = ix2 h d := by
  obtain ⟨e0, e1, -, -, -, -, -, -, -, -, -, -, -, -, -, -⟩ := idx_whole t
  funext a; apply Fin.ext
  match a with
  | ⟨0, _⟩ => show win0_4.index t (0 : Fin 2) * 256 + 1 * h.val = h.val; omega
  | ⟨1, _⟩ => show win0_4.index t (1 : Fin 2) * 128 + 1 * d.val = d.val; omega

theorem emb5 (t : Fin cfg0.N) (h : Fin 256) (d : Fin 128) :
    ((cfg0.win 5).blk t).view.emb (ix2 h d) = ix2 h d := by
  obtain ⟨-, -, e0, e1, -, -, -, -, -, -, -, -, -, -, -, -⟩ := idx_whole t
  funext a; apply Fin.ext
  match a with
  | ⟨0, _⟩ => show win0_5.index t (0 : Fin 2) * 256 + 1 * h.val = h.val; omega
  | ⟨1, _⟩ => show win0_5.index t (1 : Fin 2) * 128 + 1 * d.val = d.val; omega

theorem emb6 (t : Fin cfg0.N) (z : Fin 1) (h : Fin 256) :
    ((cfg0.win 6).blk t).view.emb (ix2 z h) = ix2 z h := by
  obtain ⟨-, -, -, -, e0, e1, -, -, -, -, -, -, -, -, -, -⟩ := idx_whole t
  funext a; apply Fin.ext
  match a with
  | ⟨0, _⟩ => show win0_6.index t (0 : Fin 2) * 1 + 1 * z.val = z.val; omega
  | ⟨1, _⟩ => show win0_6.index t (1 : Fin 2) * 256 + 1 * h.val = h.val; omega

theorem emb7 (t : Fin cfg0.N) (h : Fin 256) (d : Fin 128) :
    ((cfg0.win 7).blk t).view.emb (ix2 h d) = ix2 h d := by
  obtain ⟨-, -, -, -, -, -, e0, e1, -, -, -, -, -, -, -, -⟩ := idx_whole t
  funext a; apply Fin.ext
  match a with
  | ⟨0, _⟩ => show win0_7.index t (0 : Fin 2) * 256 + 1 * h.val = h.val; omega
  | ⟨1, _⟩ => show win0_7.index t (1 : Fin 2) * 128 + 1 * d.val = d.val; omega

theorem emb8 (t : Fin cfg0.N) (d : Fin 128) (h : Fin 256) :
    ((cfg0.win 8).blk t).view.emb (ix2 d h) = ix2 d h := by
  obtain ⟨-, -, -, -, -, -, -, -, e0, e1, -, -, -, -, -, -⟩ := idx_whole t
  funext a; apply Fin.ext
  match a with
  | ⟨0, _⟩ => show win0_8.index t (0 : Fin 2) * 128 + 1 * d.val = d.val; omega
  | ⟨1, _⟩ => show win0_8.index t (1 : Fin 2) * 256 + 1 * h.val = h.val; omega

theorem emb9 (t : Fin cfg0.N) (z : Fin 1) (d : Fin 128) :
    ((cfg0.win 9).blk t).view.emb (ix2 z d) = ix2 z d := by
  obtain ⟨-, -, -, -, -, -, -, -, -, -, e0, e1, -, -, -, -⟩ := idx_whole t
  funext a; apply Fin.ext
  match a with
  | ⟨0, _⟩ => show win0_9.index t (0 : Fin 2) * 1 + 1 * z.val = z.val; omega
  | ⟨1, _⟩ => show win0_9.index t (1 : Fin 2) * 128 + 1 * d.val = d.val; omega

theorem emb10 (t : Fin cfg0.N) (z : Fin 1) (d : Fin 128) :
    ((cfg0.win 10).blk t).view.emb (ix2 z d) = ix2 z d := by
  obtain ⟨-, -, -, -, -, -, -, -, -, -, -, -, e0, e1, -, -⟩ := idx_whole t
  funext a; apply Fin.ext
  match a with
  | ⟨0, _⟩ => show win0_10.index t (0 : Fin 2) * 1 + 1 * z.val = z.val; omega
  | ⟨1, _⟩ => show win0_10.index t (1 : Fin 2) * 128 + 1 * d.val = d.val; omega

theorem emb11 (t : Fin cfg0.N) (z : Fin 1) (d : Fin 128) :
    ((cfg0.win 11).blk t).view.emb (ix2 z d) = ix2 z d := by
  obtain ⟨-, -, -, -, -, -, -, -, -, -, -, -, -, -, e0, e1⟩ := idx_whole t
  funext a; apply Fin.ext
  match a with
  | ⟨0, _⟩ => show win0_11.index t (0 : Fin 2) * 1 + 1 * z.val = z.val; omega
  | ⟨1, _⟩ => show win0_11.index t (1 : Fin 2) * 128 + 1 * d.val = d.val; omega

/-! ## What a block holds: the array's entries at those places -/

theorem blk0 (t : Fin cfg0.N) (n : Fin 2000) (b : Fin 2) (d : Fin 128) :
    iblk0 V c 0 t (ix3 b n d) = V c main_v18 (ix3 b (row t n) d) := by
  show V c main_v18 (((cfg0.win 0).blk t).view.emb (ix3 b n d)) = _
  rw [emb0]

theorem blk1 (t : Fin cfg0.N) (n : Fin 2000) (b : Fin 2) (d : Fin 128) :
    iblk0 V c 1 t (ix3 b n d) = V c main_v46 (ix3 b (row t n) d) := by
  show V c main_v46 (((cfg0.win 1).blk t).view.emb (ix3 b n d)) = _
  rw [emb1]

theorem blk3 (t : Fin cfg0.N) (n : Fin 2000) (b : Fin 2) (d : Fin 128) :
    iblk0 V c 3 t (ix3 b n d) = V c main_arg0 (ix3 b (row t n) d) := by
  show V c main_arg0 (((cfg0.win 3).blk t).view.emb (ix3 b n d)) = _
  rw [emb3]

theorem blk2 (t : Fin cfg0.N) (n : Fin 2000) (k : Fin 2) :
    iblk0 V c 2 t (ix2 n k) = V c main_v126 (ix2 (row t n) k) := by
  show V c main_v126 (((cfg0.win 2).blk t).view.emb (ix2 n k)) = _
  rw [emb2]

theorem blk4 (t : Fin cfg0.N) (h : Fin 256) (d : Fin 128) :
    iblk0 V c 4 t (ix2 h d) = V c main_arg6 (ix2 h d) := by
  show V c main_arg6 (((cfg0.win 4).blk t).view.emb (ix2 h d)) = _
  rw [emb4]

theorem blk5 (t : Fin cfg0.N) (h : Fin 256) (d : Fin 128) :
    iblk0 V c 5 t (ix2 h d) = V c main_arg15 (ix2 h d) := by
  show V c main_arg15 (((cfg0.win 5).blk t).view.emb (ix2 h d)) = _
  rw [emb5]

theorem blk6 (t : Fin cfg0.N) (z : Fin 1) (h : Fin 256) :
    iblk0 V c 6 t (ix2 z h) = V c main_v138 (ix2 z h) := by
  show V c main_v138 (((cfg0.win 6).blk t).view.emb (ix2 z h)) = _
  rw [emb6]

theorem blk7 (t : Fin cfg0.N) (h : Fin 256) (d : Fin 128) :
    iblk0 V c 7 t (ix2 h d) = V c main_v112 (ix2 h d) := by
  show V c main_v112 (((cfg0.win 7).blk t).view.emb (ix2 h d)) = _
  rw [emb7]

theorem blk8 (t : Fin cfg0.N) (d : Fin 128) (h : Fin 256) :
    iblk0 V c 8 t (ix2 d h) = V c main_arg18 (ix2 d h) := by
  show V c main_arg18 (((cfg0.win 8).blk t).view.emb (ix2 d h)) = _
  rw [emb8]

theorem blk9 (t : Fin cfg0.N) (z : Fin 1) (d : Fin 128) :
    iblk0 V c 9 t (ix2 z d) = V c main_v139 (ix2 z d) := by
  show V c main_v139 (((cfg0.win 9).blk t).view.emb (ix2 z d)) = _
  rw [emb9]

theorem blk10 (t : Fin cfg0.N) (z : Fin 1) (d : Fin 128) :
    iblk0 V c 10 t (ix2 z d) = V c main_v140 (ix2 z d) := by
  show V c main_v140 (((cfg0.win 10).blk t).view.emb (ix2 z d)) = _
  rw [emb10]

theorem blk11 (t : Fin cfg0.N) (z : Fin 1) (d : Fin 128) :
    iblk0 V c 11 t (ix2 z d) = V c main_v141 (ix2 z d) := by
  show V c main_v141 (((cfg0.win 11).blk t).view.emb (ix2 z d)) = _
  rw [emb11]

/-! ## The result's blocks cover its array -/

/-- An index of the result array is in point t's block iff each coordinate is in the block's range on its axis. -/
theorem mem_blk (t : Fin cfg0.N) (i : S2x20000x128.Idx) :
    i ∈ ((cfg0.win 12).blk t).view.set ↔ ∀ a : Fin 3, win0_12.index t a * S2x2000x128.size a ≤ (i a).val ∧ (i a).val < win0_12.index t a * S2x2000x128.size a + S2x2000x128.size a := by
  show i ∈ ((View.whole main_v142).slice (win0_12.rect t)).set ↔ _
  rw [View.set_slice_whole, Rect.mem_set_unit]
  exact Iff.rfl

/-- Node r of the result lies in the block of point r / 2000, which is written back. -/
theorem cover (i : S2x20000x128.Idx) :
    ∃ t : Fin cfg0.N, (cfg0.win 12).flush t = true ∧ i ∈ ((cfg0.win 12).blk t).view.set := by
  have h0 : (i 0).val < 2 := (i 0).isLt
  have h1 : (i 1).val < 20000 := (i 1).isLt
  have h2 : (i 2).val < 128 := (i 2).isLt
  have hN : (i 1).val / 2000 < cfg0.N := by
    show (i 1).val / 2000 < grid0.N
    rw [N_0]; omega
  obtain ⟨-, -, -, -, -, -, -, -, -, e0, e1, e2⟩ := idx_rows ⟨(i 1).val / 2000, hN⟩
  have e1' : win0_12.index ⟨(i 1).val / 2000, hN⟩ (1 : Fin 3) = (i 1).val / 2000 := e1
  refine ⟨⟨(i 1).val / 2000, hN⟩, flush0_12 _, ?_⟩
  rw [mem_blk]
  intro a
  match a with
  | ⟨0, _⟩ => show win0_12.index _ (0 : Fin 3) * 2 ≤ (i 0).val ∧ (i 0).val < win0_12.index _ (0 : Fin 3) * 2 + 2; omega
  | ⟨1, _⟩ => show win0_12.index _ (1 : Fin 3) * 2000 ≤ (i 1).val ∧ (i 1).val < win0_12.index _ (1 : Fin 3) * 2000 + 2000; omega
  | ⟨2, _⟩ => show win0_12.index _ (2 : Fin 3) * 128 ≤ (i 2).val ∧ (i 2).val < win0_12.index _ (2 : Fin 3) * 128 + 128; omega

end Cert.KernelIdeal.Array0

end
-- ==== Proof.KernelArrayLocal.lean ====
/-
  Locality of the node update.  An output row (batch b, node n) of the whole-array update 'arrK' is a function of
  row n of the two aggregates and of the features, of row n of the packed scales, and of the weights and row vectors.
  So if the rows n of one family of arrays (with N nodes) and the rows n' of another family (with M nodes) agree entry
  by entry, and the weights and row vectors agree entry by entry, the two updates agree on those output rows.  This is
  what lets a block of nodes be updated on its own: the block's row n is the whole array's row n' = (block offset) + n.
-/
import proofs.«125976_j40492951666849_2_alg».proof.Proof.NodeSpec

noncomputable section

namespace Cert.NodeSpec

open Idealize.ShloMosaic Idealize.ShloMosaic.ValueIdx

/-- Row n of (x0, x1, x2, x3) is row n' of (A0, A1, A2, A3), the weights and row vectors agree: then output row (b, n)
    of the update over N nodes is output row (b, n') of the update over M nodes. -/
theorem arrK_row_congr {N M : ℕ} (n : Fin N) (n' : Fin M)
    (x0 x1 : (⟨3, ![2, N, 128]⟩ : Shape).Idx → EReal) (x2 : (⟨2, ![N, 2]⟩ : Shape).Idx → EReal)
    (x3 : (⟨3, ![2, N, 128]⟩ : Shape).Idx → EReal)
    (A0 A1 : (⟨3, ![2, M, 128]⟩ : Shape).Idx → EReal) (A2 : (⟨2, ![M, 2]⟩ : Shape).Idx → EReal)
    (A3 : (⟨3, ![2, M, 128]⟩ : Shape).Idx → EReal)
    (x4 x5 A4 A5 : (⟨2, ![256, 128]⟩ : Shape).Idx → EReal) (x6 A6 : (⟨2, ![1, 256]⟩ : Shape).Idx → EReal)
    (x7 A7 : (⟨2, ![256, 128]⟩ : Shape).Idx → EReal) (x8 A8 : (⟨2, ![128, 256]⟩ : Shape).Idx → EReal)
    (x9 x10 x11 A9 A10 A11 : (⟨2, ![1, 128]⟩ : Shape).Idx → EReal)
    (h0 : ∀ (b : Fin 2) (d : Fin 128), x0 (ix3 b n d) = A0 (ix3 b n' d))
    (h1 : ∀ (b : Fin 2) (d : Fin 128), x1 (ix3 b n d) = A1 (ix3 b n' d))
    (h2 : ∀ k : Fin 2, x2 (ix2 n k) = A2 (ix2 n' k))
    (h3 : ∀ (b : Fin 2) (d : Fin 128), x3 (ix3 b n d) = A3 (ix3 b n' d))
    (h4 : ∀ (h : Fin 256) (d : Fin 128), x4 (ix2 h d) = A4 (ix2 h d))
    (h5 : ∀ (h : Fin 256) (d : Fin 128), x5 (ix2 h d) = A5 (ix2 h d))
    (h6 : ∀ h : Fin 256, x6 (ix2 (0 : Fin 1) h) = A6 (ix2 (0 : Fin 1) h))
    (h7 : ∀ (h : Fin 256) (d : Fin 128), x7 (ix2 h d) = A7 (ix2 h d))
    (h8 : ∀ (d : Fin 128) (h : Fin 256), x8 (ix2 d h) = A8 (ix2 d h))
    (h9 : ∀ d : Fin 128, x9 (ix2 (0 : Fin 1) d) = A9 (ix2 (0 : Fin 1) d))
    (h10 : ∀ d : Fin 128, x10 (ix2 (0 : Fin 1) d) = A10 (ix2 (0 : Fin 1) d))
    (h11 : ∀ d : Fin 128, x11 (ix2 (0 : Fin 1) d) = A11 (ix2 (0 : Fin 1) d))
    (b : Fin 2) (d : Fin 128) :
    arrK N x0 x1 x2 x3 x4 x5 x6 x7 x8 x9 x10 x11 (ix3 b n d)
      = arrK M A0 A1 A2 A3 A4 A5 A6 A7 A8 A9 A10 A11 (ix3 b n' d) := by
  have e0 : (fun e => x0 (ix3 b n e)) = fun e => A0 (ix3 b n' e) := funext (h0 b)
  have e1 : (fun e => x1 (ix3 b n e)) = fun e => A1 (ix3 b n' e) := funext (h1 b)
  have e3 : (fun e => x3 (ix3 b n e)) = fun e => A3 (ix3 b n' e) := funext (h3 b)
  have e4 : (fun h e => x4 (ix2 h e)) = fun h e => A4 (ix2 h e) := funext fun h => funext (h4 h)
  have e5 : (fun h e => x5 (ix2 h e)) = fun h e => A5 (ix2 h e) := funext fun h => funext (h5 h)
  have e6 : (fun h => x6 (ix2 (0 : Fin 1) h)) = fun h => A6 (ix2 (0 : Fin 1) h) := funext h6
  have e7 : (fun h e => x7 (ix2 h e)) = fun h e => A7 (ix2 h e) := funext fun h => funext (h7 h)
  have e8 : (fun e h => x8 (ix2 e h)) = fun e h => A8 (ix2 e h) := funext fun e => funext (h8 e)
  have e9 : (fun e => x9 (ix2 (0 : Fin 1) e)) = fun e => A9 (ix2 (0 : Fin 1) e) := funext h9
  have e10 : (fun e => x10 (ix2 (0 : Fin 1) e)) = fun e => A10 (ix2 (0 : Fin 1) e) := funext h10
  have e11 : (fun e => x11 (ix2 (0 : Fin 1) e)) = fun e => A11 (ix2 (0 : Fin 1) e) := funext h11
  show out (hiddenK (fun e => x0 (ix3 b n e)) (fun e => x1 (ix3 b n e)) (fun e => x3 (ix3 b n e))
        (x2 (ix2 n (0 : Fin 2))) (x2 (ix2 n (1 : Fin 2)))
        (fun h e => x4 (ix2 h e)) (fun h e => x5 (ix2 h e)) (fun h e => x7 (ix2 h e)) (fun h => x6 (ix2 (0 : Fin 1) h)))
      (fun e h => x8 (ix2 e h)) (fun e => x9 (ix2 (0 : Fin 1) e)) (fun e => x10 (ix2 (0 : Fin 1) e))
      (fun e => x11 (ix2 (0 : Fin 1) e)) d
    = out (hiddenK (fun e => A0 (ix3 b n' e)) (fun e => A1 (ix3 b n' e)) (fun e => A3 (ix3 b n' e))
        (A2 (ix2 n' (0 : Fin 2))) (A2 (ix2 n' (1 : Fin 2)))
        (fun h e => A4 (ix2 h e)) (fun h e => A5 (ix2 h e)) (fun h e => A7 (ix2 h e)) (fun h => A6 (ix2 (0 : Fin 1) h)))
      (fun e h => A8 (ix2 e h)) (fun e => A9 (ix2 (0 : Fin 1) e)) (fun e => A10 (ix2 (0 : Fin 1) e))
      (fun e => A11 (ix2 (0 : Fin 1) e)) d
  rw [e0, e1, e3, e4, e5, e6, e7, e8, e9, e10, e11, h2 0, h2 1]

end Cert.NodeSpec

end
-- ==== Proof.KernelArray0.lean ====
import proofs.«125976_j40492951666849_2_alg».proof.Proof.KernelArray0Blk
import proofs.«125976_j40492951666849_2_alg».proof.Proof.KernelArrayLocal

noncomputable section

namespace Cert.KernelIdeal.Array0

open Cert.KernelIdeal Cert.KernelIdeal.Gen Idealize.ShloMosaic Idealize.ShloMosaic.TcCoe Idealize.SL.Sem
open Idealize.ShloMosaic.ValueIdx
open Idealize.ShloMosaic.Pipeline (Dat)

/-! # Region 0: from the blocks to the whole array

  Given that the body's result on one block of 2000 nodes is the node update of that block ('hrow'), the array the region
  leaves is the node update of the whole arrays of 20000 nodes: each grid point writes back block t of that update
  (locality: output rows depend on the same rows of the node-blocked operands only, and row n of block t is row
  2000·t + n of the array), and the blocks cover the array. -/

variable (V : (c : Dev nD) → (b : Ref sig .tc) → Buf (Elt Ideal) ((c : Thread nD τ).loc b)) (c : Dev nD)

/-- What point t writes back is block t of the node update of the whole arrays. -/
theorem flushed_eq
    (hrow : ∀ (x0 x1 : Vec Ideal S2x2000x128 .f32) (x2 : Vec Ideal S2000x2 .f32) (x3 : Vec Ideal S2x2000x128 .f32) (x4 x5 : Vec Ideal S256x128 .f32) (x6 : Vec Ideal S1x256 .f32) (x7 : Vec Ideal S256x128 .f32) (x8 : Vec Ideal S128x256 .f32) (x9 x10 x11 : Vec Ideal S1x128 .f32),
      Gen.out0_12 (F := Ideal) x0 x1 x2 x3 x4 x5 x6 x7 x8 x9 x10 x11 = Cert.NodeSpec.arrK 2000 x0 x1 x2 x3 x4 x5 x6 x7 x8 x9 x10 x11)
    (t : Fin cfg0.N) :
    (Gen.dat0 (F := Ideal) V c).flushed 12 t
      = ((cfg0.win 12).blk t).view.read (Elt Ideal) (Cert.NodeSpec.arrK 20000 (V c main_v18) (V c main_v46) (V c main_v126) (V c main_arg0) (V c main_arg6) (V c main_arg15) (V c main_v138) (V c main_v112) (V c main_arg18) (V c main_v139) (V c main_v140) (V c main_v141)) := by
  show (cfg0.win 12).cut (grid0.coords t) ((Gen.dat0 (F := Ideal) V c).after 12 t) = _
  rw [after0_12, hrow]
  refine funext fun (j : S2x2000x128.Idx) => ?_
  obtain ⟨b, n, d, rfl⟩ : ∃ (b : Fin 2) (n : Fin 2000) (d : Fin 128), j = ix3 b n d := ⟨j 0, j 1, j 2, eq_ix3 j⟩
  show Cert.NodeSpec.arrK 2000 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (ix3 b n d)
    = Cert.NodeSpec.arrK 20000 (V c main_v18) (V c main_v46) (V c main_v126) (V c main_arg0) (V c main_arg6) (V c main_arg15) (V c main_v138) (V c main_v112) (V c main_arg18) (V c main_v139) (V c main_v140) (V c main_v141) (((cfg0.win 12).blk t).view.emb (ix3 b n d))
  rw [emb12]
  exact Cert.NodeSpec.arrK_row_congr n (row t n) _ _ _ _ _ _ _ _ _ _ _ _ _ _ _ _ _ _ _ _ _ _ _ _
    (blk0 V c t n) (blk1 V c t n) (blk2 V c t n) (blk3 V c t n) (blk4 V c t) (blk5 V c t) (blk6 V c t 0) (blk7 V c t)
    (blk8 V c t) (blk9 V c t 0) (blk10 V c t 0) (blk11 V c t 0) b d

/-- The array region 0 leaves is the node update of the arrays it finds. -/
theorem final
    (hrow : ∀ (x0 x1 : Vec Ideal S2x2000x128 .f32) (x2 : Vec Ideal S2000x2 .f32) (x3 : Vec Ideal S2x2000x128 .f32) (x4 x5 : Vec Ideal S256x128 .f32) (x6 : Vec Ideal S1x256 .f32) (x7 : Vec Ideal S256x128 .f32) (x8 : Vec Ideal S128x256 .f32) (x9 x10 x11 : Vec Ideal S1x128 .f32),
      Gen.out0_12 (F := Ideal) x0 x1 x2 x3 x4 x5 x6 x7 x8 x9 x10 x11 = Cert.NodeSpec.arrK 2000 x0 x1 x2 x3 x4 x5 x6 x7 x8 x9 x10 x11) :
    (Gen.dat0 (F := Ideal) V c).arrAt 12 cfg0.N
      = Cert.NodeSpec.arrK 20000 (V c main_v18) (V c main_v46) (V c main_v126) (V c main_arg0) (V c main_arg6) (V c main_arg15) (V c main_v138) (V c main_v112) (V c main_arg18) (V c main_v139) (V c main_v140) (V c main_v141) :=
  (Gen.dat0 (F := Ideal) V c).arrAt_eq_of_cover 12 (Cert.NodeSpec.arrK 20000 (V c main_v18) (V c main_v46) (V c main_v126) (V c main_arg0) (V c main_arg6) (V c main_arg15) (V c main_v138) (V c main_v112) (V c main_arg18) (V c main_v139) (V c main_v140) (V c main_v141))
    (fun t _ => flushed_eq V c hrow t) cover

end Cert.KernelIdeal.Array0

end
-- ==== Proof.KernelRowLayout.lean ====
/-
  Vector operations read at one element, for the shapes a row-wise node update meets.

  A stack of matrices [a, b, c] flattened to [a·b, c] puts matrix p's row q at row p·b + q, and back; a vector [a] seen
  as a column [a, 1]; a column [1, b, 1] spread over [a, b, c] and a column [a, 1] spread over [a, c] repeat the column's
  entry along the other axes; the sum of a matrix's rows' entries, one sum per row, is a sum over the columns; a product of an
  [R, K] matrix with a [K, C] matrix into a zero accumulator is, at (r, c), the sum over k of the entries' products; and a
  window of one column of a two-column matrix reads that column.
-/
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.RowLayout

open Idealize.ShloMosaic Idealize.ShloMosaic.ValueIdx

section Layout
variable {α : Type}

/-- [a, b, c] flattened to [R, c] with R = a·b: row r = p·b + q of the result is row q of matrix p. -/
theorem flatten_apply {a b c R : ℕ} (x : (⟨3, ![a, b, c]⟩ : Shape).Idx → α)
    (h : (⟨3, ![a, b, c]⟩ : Shape).ShapeCasts ⟨2, ![R, c]⟩) (r : Fin R) (d : Fin c) (p : Fin a) (q : Fin b)
    (hr : r.val = p.val * b + q.val) : shapeCast ⟨2, ![R, c]⟩ x h (ix2 r d) = x (ix3 p q d) :=
  shapeCast_apply x h _ _ (by
    rw [Shape.rowMajor_val_three, Shape.rowMajor_val_two]
    show (p.val * b + q.val) * c + d.val = r.val * c + d.val
    rw [hr])

/-- [R, c] with R = a·b cut back into [a, b, c]: row q of matrix p is row r = p·b + q. -/
theorem unflatten_apply {a b c R : ℕ} (y : (⟨2, ![R, c]⟩ : Shape).Idx → α)
    (h : (⟨2, ![R, c]⟩ : Shape).ShapeCasts ⟨3, ![a, b, c]⟩) (p : Fin a) (q : Fin b) (d : Fin c) (r : Fin R)
    (hr : r.val = p.val * b + q.val) : shapeCast ⟨3, ![a, b, c]⟩ y h (ix3 p q d) = y (ix2 r d) :=
  shapeCast_apply y h _ _ (by
    rw [Shape.rowMajor_val_three, Shape.rowMajor_val_two]
    show r.val * c + d.val = (p.val * b + q.val) * c + d.val
    rw [hr])

/-- A vector [a] seen as a column [a, 1] reads, at (i, u), its entry i. -/
theorem column_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [1, b, 1] spread over [a, b, c] reads, at (p, q, d), the column's entry q. -/
theorem spread_1b1_apply {a b c : ℕ} (v : (⟨3, ![1, b, 1]⟩ : Shape).Idx → α)
    (h : (⟨3, ![1, b, 1]⟩ : Shape).Broadcasts ⟨3, ![a, b, c]⟩) (p : Fin a) (q : Fin b) (d : Fin c) :
    broadcastTo ⟨3, ![a, b, c]⟩ v h (ix3 p q d) = v (ix3 (0 : Fin 1) q (0 : Fin 1)) := by
  refine broadcastTo_apply v h (ix3 p q d) (ix3 (0 : Fin 1) q (0 : Fin 1)) fun ax => ?_
  match ax with
  | ⟨0, _⟩ => rfl
  | ⟨1, _⟩ =>
    show q.val = if b = 1 then 0 else q.val
    split
    · have := q.isLt; omega
    · rfl
  | ⟨2, _⟩ => rfl

/-- A column [a, 1] spread over [a, c] reads, at (r, d), the column's entry r. -/
theorem spread_a1_apply {a c : ℕ} (v : (⟨2, ![a, 1]⟩ : Shape).Idx → α)
    (h : (⟨2, ![a, 1]⟩ : Shape).Broadcasts ⟨2, ![a, c]⟩) (r : Fin a) (d : Fin c) :
    broadcastTo ⟨2, ![a, c]⟩ v h (ix2 r d) = v (ix2 r (0 : Fin 1)) := by
  refine broadcastTo_apply v h (ix2 r d) (ix2 r (0 : Fin 1)) fun ax => ?_
  match ax with
  | ⟨0, _⟩ =>
    show r.val = if a = 1 then 0 else r.val
    split
    · have := r.isLt; omega
    · rfl
  | ⟨1, _⟩ => rfl

end Layout

/-- The sum along the rows of an [R, c] matrix, read at row r, is the sum over the columns of the row's entries. -/
theorem rowSum_apply {R c : ℕ} (src : FVec Ideal ⟨2, ![R, c]⟩ .f32) (h : (⟨2, ![R, c]⟩ : Shape).Reduces [1] ⟨1, ![R]⟩)
    (hφ : FKind.Formats .f32) (hacc : (0x00000000#32 : BitVec 32) = FKind.add.neutral .f32 hφ) (r : Fin R) :
    multiReduction (F := Ideal) .add [1] ⟨1, ![R]⟩ src 0x00000000#32 h hφ hacc (ix1 r) = ∑ k : Fin c, src (ix2 r k) := by
  refine (Ideal.multiReduction_add_single src 0x00000000#32 h hφ hacc (ix1 r)).trans ?_
  refine Finset.sum_congr rfl fun k _ => congrArg src (funext fun ax => Fin.ext ?_)
  match ax with
  | ⟨0, _⟩ => rfl
  | ⟨1, _⟩ => rfl

/-- A product of an [R, K] matrix and a [K, C] matrix into the zero accumulator, read at (r, c): the sum over k of the
    products of the entries (r, k) and (k, c). The dimension numbers contract the first operand's columns with the second's
    rows; the four facts about them hold by computation at literal shapes. -/
theorem matmul_apply2 {R K C : ℕ} (D : DotDims ⟨2, ![R, K]⟩ ⟨2, ![K, C]⟩ ⟨2, ![R, C]⟩)
    (hl : D.lhsContracting = [1]) (hrc : D.rhsContracting = [0])
    (hrank : D.contr.rank = 1) (hsize : D.contr.size ⟨0, by omega⟩ = K)
    (h0 : ∀ j k, (D.lhsIdx j k 0).val = (j 0).val) (h1 : ∀ j k, (D.rhsIdx j k 1).val = (j 1).val)
    (prec : Option ContractPrecision) (lhs : FVec Ideal ⟨2, ![R, K]⟩ .f32) (rhs : FVec Ideal ⟨2, ![K, C]⟩ .f32)
    (r : Fin R) (c : Fin C) :
    matmul D prec lhs rhs (constant (F := Ideal) ⟨2, ![R, C]⟩ .f32 0x00000000#32) (ix2 r c)
      = ∑ k : Fin K, lhs (ix2 r k) * rhs (ix2 k c) := by
  refine (Ideal.matmul_constant_zero_apply D prec lhs rhs (ix2 r c)).trans ?_
  rw [← Equiv.sum_comp (contrEquiv1 D K hrank hsize).symm]
  refine Finset.sum_congr rfl fun k _ => ?_
  congr 2
  · funext ax
    match ax with
    | ⟨0, _⟩ => exact Fin.ext (h0 _ _)
    | ⟨1, _⟩ => exact Fin.ext ((D.lhsIdx_val_of_single hl _ _).trans (contrEquiv1_symm_val D K hrank hsize k))
  · funext ax
    match ax with
    | ⟨0, _⟩ => exact Fin.ext ((D.rhsIdx_val_of_single hrc _ _).trans (contrEquiv1_symm_val D K hrank hsize k))
    | ⟨1, _⟩ => exact Fin.ext (h1 _ _)

/-- A window of column o of an [N, 2] matrix, read at (n, u), is the matrix's entry (n, o). -/
theorem column_window_apply {N : ℕ} {Val : EltTy → Type} {e : EltTy} (X : (⟨2, ![N, 2]⟩ : Shape).Idx → Val e) (o : Fin 2)
    (inb : ∀ a, (![0, o.val] : Fin 2 → Nat) a + (⟨2, ![N, 1]⟩ : Shape).size a ≤ (⟨2, ![N, 2]⟩ : Shape).size a)
    (n : Fin N) (u : Fin 1) :
    View.ld X (Rect.unit (s := ⟨2, ![N, 2]⟩) ![0, o.val] (⟨2, ![N, 1]⟩ : Shape).size inb) (ix2 n u) = X (ix2 n o) := by
  have hu : u.val = 0 := by omega
  refine congrArg X (funext fun ax => Fin.ext ?_)
  match ax with
  | ⟨0, _⟩ => show 0 + 1 * n.val = n.val; omega
  | ⟨1, _⟩ => show o.val + 1 * u.val = o.val; omega

end Cert.KernelIdeal.RowLayout

end
-- ==== Proof.KernelRow0Hidden.lean ====
/-
  The hidden rows of the first node type's block, read at one entry.

  The block's two aggregates are scaled by the per-node reciprocals (a column of the packed scales, repeated along the
  batch and the lanes), the stack [2, 2000, 128] is flattened to 4000 rows (row 2000·b + n), and each of the three row
  matrices is multiplied with a transposed weight [256, 128]; the three products are added and the bias row is added to
  every row. At row 2000·b + n and entry h this is the specification's hidden row of node (b, n) at h.
-/
import proofs.«125976_j40492951666849_2_alg».proof.Proof.Gen.KernelIdeal.Frame
import proofs.«125976_j40492951666849_2_alg».proof.Proof.NodeSpec
import proofs.«125976_j40492951666849_2_alg».proof.Proof.KernelRowLayout

noncomputable section

namespace Cert.KernelIdeal.Row0

open Idealize.ShloMosaic Idealize.ShloMosaic.ValueIdx Cert.KernelIdeal Cert.KernelIdeal.Gen Cert.KernelIdeal.RowLayout

/-- An aggregate scaled by its column of reciprocals, as 4000 rows. -/
def scaledRows (s : Vec Ideal S2000x1 .f32) (a : Vec Ideal S2x2000x128 .f32) : FVec Ideal S4000x128 .f32 :=
  shapeCast S4000x128
    (mulf (shapeCast S2x2000x128 a shapeCasts_S2x2000x128_S2x2000x128)
      (broadcastTo S2x2000x128
        (shapeCast S1x2000x1 (shapeCast S2000x1 s shapeCasts_S2000x1_S2000x1) shapeCasts_S2000x1_S1x2000x1)
        broadcasts_S1x2000x1_S2x2000x128))
    shapeCasts_S2x2000x128_S4000x128

/-- 4000 rows of 128 entries times a transposed weight [256, 128], from zero. -/
def rowsTimes (x : FVec Ideal S4000x128 .f32) (W : FVec Ideal S256x128 .f32) : FVec Ideal S4000x256 .f32 :=
  matmul dot_S4000x128_S128x256_S4000x256_1_0_0_1_n_n (some .fp32) x
    (transpose S128x256 [1, 0] W transposes_S256x128_p1_0_S128x256) (constant S4000x256 .f32 0x00000000#32)

/-- The hidden rows are the three products added, plus the bias row. -/
theorem pay2_eq (v0 v3 : Vec Ideal S2000x1 .f32) (v6 v11 v16 : Vec Ideal S2x2000x128 .f32)
    (v18 v19 v20 : Vec Ideal S256x128 .f32) (v30 : Vec Ideal S1x256 .f32) :
    k0_pay2 (F := Ideal) v0 v3 v6 v11 v16 v18 v19 v20 v30
      = addf (addf (addf (rowsTimes (scaledRows v0 v6) v18) (rowsTimes (scaledRows v3 v11) v19))
            (rowsTimes (shapeCast S4000x128 v16 shapeCasts_S2x2000x128_S4000x128)
              (shapeCast S256x128 v20 shapeCasts_S256x128_S256x128)))
          (broadcastTo S4000x256 (shapeCast S1x256 v30 shapeCasts_S1x256_S1x256) broadcasts_S1x256_S4000x256) := rfl

/-- A scaled aggregate at row 2000·b + n, entry d: the aggregate's entry times the node's reciprocal. -/
theorem scaledRows_apply (s : Vec Ideal S2000x1 .f32) (a : Vec Ideal S2x2000x128 .f32) (b : Fin 2) (n : Fin 2000)
    (d : Fin 128) (r : Fin 4000) (hr : r.val = b.val * 2000 + n.val) :
    scaledRows s a (ix2 r d) = a (ix3 b n d) * s (ix2 n (0 : Fin 1)) := by
  unfold scaledRows
  refine (flatten_apply _ _ r d b n hr).trans ?_
  rw [mulf_apply, shapeCast_self, shapeCast_self]
  refine congrArg (a (ix3 b n d) * ·) ?_
  refine (spread_1b1_apply _ _ b n d).trans ?_
  exact shapeCast_ab_1ab_apply s _ (0 : Fin 1) n (0 : Fin 1)

/-- A product with a transposed weight at (r, h): the sum over d of the row's entry d times the weight's entry (h, d). -/
theorem rowsTimes_apply (x : FVec Ideal S4000x128 .f32) (W : FVec Ideal S256x128 .f32) (r : Fin 4000) (h : Fin 256) :
    rowsTimes x W (ix2 r h) = ∑ d : Fin 128, x (ix2 r d) * W (ix2 h d) := by
  unfold rowsTimes
  refine (matmul_apply2 dot_S4000x128_S128x256_S4000x256_1_0_0_1_n_n rfl rfl rfl rfl (fun _ _ => rfl) (fun _ _ => rfl)
    (some .fp32) x _ r h).trans ?_
  exact Finset.sum_congr rfl fun d _ => congrArg (x (ix2 r d) * ·) (transpose_ix2_apply W _ d h)

/-- The hidden rows at row 2000·b + n, entry h: the specification's hidden row of node (b, n). -/
theorem pay2_apply (v0 v3 : Vec Ideal S2000x1 .f32) (v6 v11 v16 : Vec Ideal S2x2000x128 .f32)
    (v18 v19 v20 : Vec Ideal S256x128 .f32) (v30 : Vec Ideal S1x256 .f32) (b : Fin 2) (n : Fin 2000) (r : Fin 4000)
    (hr : r.val = b.val * 2000 + n.val) (h : Fin 256) :
    k0_pay2 (F := Ideal) v0 v3 v6 v11 v16 v18 v19 v20 v30 (ix2 r h)
      = Cert.NodeSpec.hiddenK (fun d => v6 (ix3 b n d)) (fun d => v11 (ix3 b n d)) (fun d => v16 (ix3 b n d))
          (v0 (ix2 n (0 : Fin 1))) (v3 (ix2 n (0 : Fin 1)))
          (fun h d => v18 (ix2 h d)) (fun h d => v19 (ix2 h d)) (fun h d => v20 (ix2 h d))
          (fun h => v30 (ix2 (0 : Fin 1) h)) h := by
  rw [pay2_eq]
  unfold Cert.NodeSpec.hiddenK
  rw [addf_apply, addf_apply, addf_apply, rowsTimes_apply, rowsTimes_apply, rowsTimes_apply, shapeCast_self,
    shapeCast_self]
  refine congrArg₂ (· + ·) (congrArg₂ (· + ·) (congrArg₂ (· + ·) ?_ ?_) ?_) ?_
  · exact Finset.sum_congr rfl fun d _ => congrArg (· * v18 (ix2 h d)) (scaledRows_apply v0 v6 b n d r hr)
  · exact Finset.sum_congr rfl fun d _ => congrArg (· * v19 (ix2 h d)) (scaledRows_apply v3 v11 b n d r hr)
  · exact Finset.sum_congr rfl fun d _ => congrArg (· * v20 (ix2 h d)) (flatten_apply v16 _ r d b n hr)
  · exact broadcastTo_1b_ab_apply v30 _ r h

end Cert.KernelIdeal.Row0

end
-- ==== Proof.KernelRow0Norm.lean ====
/-
  The projection and the layer norm of the first node type's block, read at one entry.

  From 4000 hidden rows of 256 entries: each row times the transposed projection weight [128, 256] plus the bias row;
  then, row by row, the mean (the sum of the 128 entries divided by 128), the centred row, the mean of its squares plus
  epsilon, the reciprocal root, the gain row and the offset row; the 4000 rows are cut back into [2, 2000, 128]. At
  (b, n, d) this is the specification's output row of the hidden row 2000·b + n, at d.
-/
import proofs.«125976_j40492951666849_2_alg».proof.Proof.Gen.KernelIdeal.Frame
import proofs.«125976_j40492951666849_2_alg».proof.Proof.NodeSpec
import proofs.«125976_j40492951666849_2_alg».proof.Proof.KernelRowLayout

noncomputable section

namespace Cert.KernelIdeal.Row0

open Idealize.ShloMosaic Idealize.ShloMosaic.ValueIdx Cert.KernelIdeal Cert.KernelIdeal.Gen Cert.KernelIdeal.RowLayout

/-- The projected rows: hidden rows times the transposed projection weight, plus the bias row. -/
def projRows (u : FVec Ideal S4000x256 .f32) (Wp : FVec Ideal S128x256 .f32) (bp : FVec Ideal S1x128 .f32) :
    FVec Ideal S4000x128 .f32 :=
  addf
    (matmul dot_S4000x256_S256x128_S4000x128_1_0_0_1_n_n (some .fp32) u
      (transpose S256x128 [1, 0] Wp transposes_S128x256_p1_0_S256x128) (constant S4000x128 .f32 0x00000000#32))
    (broadcastTo S4000x128 (shapeCast S1x128 bp shapeCasts_S1x128_S1x128) broadcasts_S1x128_S4000x128)

/-- The column of row means: each row's sum divided by 128. -/
def rowMean (p : FVec Ideal S4000x128 .f32) : FVec Ideal S4000x1 .f32 :=
  divf
    (shapeCast S4000x1 (multiReduction .add [1] S4000 p 0x00000000#32 reduces_S4000x128_S4000 (.inl rfl) rfl)
      shapeCasts_S4000_S4000x1)
    (broadcast S4000x1 (Scalar.ofBits .f32 0x43000000#32))

/-- The rows with their means taken off. -/
def centred (p : FVec Ideal S4000x128 .f32) : FVec Ideal S4000x128 .f32 :=
  subf p (broadcastTo S4000x128 (rowMean p) broadcasts_S4000x1_S4000x128)

/-- The normalised rows: centred, times the reciprocal root of the mean square plus epsilon, gain, offset. -/
def normRows (p : FVec Ideal S4000x128 .f32) (g beta : FVec Ideal S1x128 .f32) : FVec Ideal S4000x128 .f32 :=
  addf
    (mulf
      (mulf (centred p)
        (broadcastTo S4000x128
          (rsqrt (addf (rowMean (mulf (centred p) (centred p))) (broadcast S4000x1 (Scalar.ofBits .f32 0x3727C5AC#32))))
          broadcasts_S4000x1_S4000x128))
      (broadcastTo S4000x128 (shapeCast S1x128 g shapeCasts_S1x128_S1x128) broadcasts_S1x128_S4000x128))
    (broadcastTo S4000x128 (shapeCast S1x128 beta shapeCasts_S1x128_S1x128) broadcasts_S1x128_S4000x128)

/-- The stored block is the normalised projected rows, cut into [2, 2000, 128]. -/
theorem pay1_eq (u : FVec Ideal S4000x256 .f32) (Wp : FVec Ideal S128x256 .f32) (bp g beta : FVec Ideal S1x128 .f32) :
    k0_pay1 (F := Ideal) u Wp bp g beta
      = shapeCast S2x2000x128 (normRows (projRows u Wp bp) g beta) shapeCasts_S4000x128_S2x2000x128 := rfl

/-- A projected row at entry e is the specification's projection of the hidden row. -/
theorem projRows_apply (u : FVec Ideal S4000x256 .f32) (Wp : FVec Ideal S128x256 .f32) (bp : FVec Ideal S1x128 .f32)
    (r : Fin 4000) (e : Fin 128) :
    projRows u Wp bp (ix2 r e)
      = Cert.NodeSpec.proj (fun h => u (ix2 r h)) (fun d h => Wp (ix2 d h)) (fun d => bp (ix2 (0 : Fin 1) d)) e := by
  unfold projRows Cert.NodeSpec.proj
  rw [addf_apply, shapeCast_self]
  refine congrArg₂ (· + ·) ?_ (broadcastTo_1b_ab_apply bp _ r e)
  refine (matmul_apply2 dot_S4000x256_S256x128_S4000x128_1_0_0_1_n_n rfl rfl rfl rfl (fun _ _ => rfl) (fun _ _ => rfl)
    (some .fp32) u _ r e).trans ?_
  exact Finset.sum_congr rfl fun h _ => congrArg (u (ix2 r h) * ·) (transpose_ix2_apply Wp _ h e)

/-- The mean column at row r is the specification's mean of the row. -/
theorem rowMean_apply (p : FVec Ideal S4000x128 .f32) (r : Fin 4000) :
    rowMean p (ix2 r (0 : Fin 1)) = Cert.NodeSpec.mean (fun e => p (ix2 r e)) := by
  unfold rowMean Cert.NodeSpec.mean
  rw [divf_apply, broadcast_apply]
  refine congrArg₂ Ideal.div ?_ rfl
  exact (column_apply _ _ r (0 : Fin 1)).trans (rowSum_apply p _ _ _ r)

/-- A centred row's entry: the entry less the row's mean. -/
theorem centred_apply (p : FVec Ideal S4000x128 .f32) (r : Fin 4000) (e : Fin 128) :
    centred p (ix2 r e) = p (ix2 r e) - Cert.NodeSpec.mean (fun e => p (ix2 r e)) := by
  unfold centred
  rw [subf_apply]
  exact congrArg (p (ix2 r e) - ·) ((spread_a1_apply _ _ r e).trans (rowMean_apply p r))

/-- A normalised row at entry d is the specification's layer norm of the row. -/
theorem normRows_apply (p : FVec Ideal S4000x128 .f32) (g beta : FVec Ideal S1x128 .f32) (r : Fin 4000) (d : Fin 128) :
    normRows p g beta (ix2 r d)
      = Cert.NodeSpec.lnorm (fun e => p (ix2 r e)) (fun d => g (ix2 (0 : Fin 1) d)) (fun d => beta (ix2 (0 : Fin 1) d)) d := by
  unfold normRows Cert.NodeSpec.lnorm
  rw [addf_apply, mulf_apply, mulf_apply, shapeCast_self, shapeCast_self, centred_apply]
  refine congrArg₂ (· + ·) (congrArg₂ (· * ·) (congrArg₂ (· * ·) rfl ?_) (broadcastTo_1b_ab_apply g _ r d))
    (broadcastTo_1b_ab_apply beta _ r d)
  refine (spread_a1_apply _ _ r d).trans ?_
  show Ideal.rsqrt (rowMean (mulf (centred p) (centred p)) (ix2 r (0 : Fin 1)) + Ideal.ofBits .f32 0x3727C5AC#32) = _
  rw [rowMean_apply]
  refine congrArg (fun m => Ideal.rsqrt (Cert.NodeSpec.mean m + Cert.NodeSpec.eps)) (funext fun e => ?_)
  rw [mulf_apply, centred_apply]

/-- The stored block at (b, n, d): the specification's output row of hidden row 2000·b + n, at d. -/
theorem pay1_apply (u : FVec Ideal S4000x256 .f32) (Wp : FVec Ideal S128x256 .f32) (bp g beta : FVec Ideal S1x128 .f32)
    (b : Fin 2) (n : Fin 2000) (d : Fin 128) (r : Fin 4000) (hr : r.val = b.val * 2000 + n.val) :
    k0_pay1 (F := Ideal) u Wp bp g beta (ix3 b n d)
      = Cert.NodeSpec.out (fun h => u (ix2 r h)) (fun d h => Wp (ix2 d h)) (fun d => bp (ix2 (0 : Fin 1) d))
          (fun d => g (ix2 (0 : Fin 1) d)) (fun d => beta (ix2 (0 : Fin 1) d)) d := by
  rw [pay1_eq]
  refine (unflatten_apply _ _ b n d r hr).trans ?_
  refine (normRows_apply _ g beta r d).trans ?_
  unfold Cert.NodeSpec.out
  exact congrArg (fun p => Cert.NodeSpec.lnorm p _ _ d) (funext fun e => projRows_apply u Wp bp r e)

end Cert.KernelIdeal.Row0

end
-- ==== Proof.KernelRow0.lean ====
/-
  The first node type's block after the body, as one function of the blocks the body reads.

  The body stores once, over the whole block, and reads every operand whole except the packed scales, whose two columns
  it reads apart. So the stored block at (b, n, d) is the layer-normed projection of the hidden row 2000·b + n, which is
  the specification's hidden row of node (b, n) with the node's two scales read from the two columns.
-/
import proofs.«125976_j40492951666849_2_alg».proof.Proof.Gen.KernelIdeal.Frame
import proofs.«125976_j40492951666849_2_alg».proof.Proof.NodeSpec
import proofs.«125976_j40492951666849_2_alg».proof.Proof.KernelRowLayout
import proofs.«125976_j40492951666849_2_alg».proof.Proof.KernelRow0Hidden
import proofs.«125976_j40492951666849_2_alg».proof.Proof.KernelRow0Norm

noncomputable section

namespace Cert.KernelIdeal.Row0

open Idealize.ShloMosaic Idealize.ShloMosaic.ValueIdx Cert.KernelIdeal Cert.KernelIdeal.Gen Cert.KernelIdeal.RowLayout

/-- The zero offsets of a whole rank-3 window. -/
theorem zero3 : (![0, 0, 0] : Fin 3 → Nat) = fun _ => 0 := funext fun a => by fin_cases a <;> rfl
/-- The zero offsets of a whole rank-2 window. -/
theorem zero2 : (![0, 0] : Fin 2 → Nat) = fun _ => 0 := funext fun a => by fin_cases a <;> rfl

/-- The block the body leaves is the specification's array on the block's operands. -/
theorem out0_12_eq (x0 x1 : Vec Ideal S2x2000x128 .f32) (x2 : Vec Ideal S2000x2 .f32) (x3 : Vec Ideal S2x2000x128 .f32)
    (x4 x5 : Vec Ideal S256x128 .f32) (x6 : Vec Ideal S1x256 .f32) (x7 : Vec Ideal S256x128 .f32)
    (x8 : Vec Ideal S128x256 .f32) (x9 x10 x11 : Vec Ideal S1x128 .f32) :
    Cert.KernelIdeal.Gen.out0_12 (F := Ideal) x0 x1 x2 x3 x4 x5 x6 x7 x8 x9 x10 x11
      = Cert.NodeSpec.arrK 2000 x0 x1 x2 x3 x4 x5 x6 x7 x8 x9 x10 x11 := by
  unfold out0_12
  rw [View.canon_unit_zero zero3]
  simp only [View.ld_unit_zero (S := S2x2000x128) zero3, View.ld_unit_zero (S := S256x128) zero2,
    View.ld_unit_zero (S := S1x256) zero2, View.ld_unit_zero (S := S128x256) zero2,
    View.ld_unit_zero (S := S1x128) zero2]
  funext i
  obtain ⟨b, n, d, rfl⟩ : ∃ (b : Fin 2) (n : Fin 2000) (d : Fin 128), i = ix3 b n d := ⟨i 0, i 1, i 2, eq_ix3 i⟩
  have hb := b.isLt
  have hn := n.isLt
  refine (pay1_apply _ x8 x9 x10 x11 b n d ⟨b.val * 2000 + n.val, by omega⟩ rfl).trans ?_
  show Cert.NodeSpec.out _ _ _ _ _ d = Cert.NodeSpec.out _ _ _ _ _ d
  refine congrArg (fun u => Cert.NodeSpec.out u _ _ _ _ d) (funext fun h => ?_)
  refine (pay2_apply _ _ x0 x1 x3 x4 x5 x7 x6 b n _ rfl h).trans ?_
  exact congrArg₂ (fun s1 s2 => Cert.NodeSpec.hiddenK _ _ _ s1 s2 _ _ _ _ h)
    (column_window_apply x2 (0 : Fin 2) _ n (0 : Fin 1)) (column_window_apply x2 (1 : Fin 2) _ n (0 : Fin 1))

end Cert.KernelIdeal.Row0

end
-- ==== Proof.NodeLaw.lean ====
/-
  The law joining the two arrangements of the node update.

  On the extended reals x / c = x · c⁻¹ whenever c ≠ 0 (infinite c included), so a row scaled by the reciprocal 1 / c
  is the row divided by c.  A real feature row distributes over the sum of two real weight rows,
  Σ_d z d · (u d + v d) = Σ_d z d · u d + Σ_d z d · v d.  Everything else is a regrouping of a sum of six terms.
  The projection and the layer normalisation are then applied to equal hidden rows.
-/
import proofs.«125976_j40492951666849_2_alg».proof.Proof.NodeSpec

noncomputable section

namespace Cert.NodeSpec

open Idealize.ShloMosaic Idealize.ShloMosaic.ValueIdx

/-- Scaling by the reciprocal of a nonzero extended real is dividing by it. -/
theorem mul_div_one (a c : EReal) (hc : c ≠ 0) : a * Ideal.div 1 c = Ideal.div a c := by
  unfold Ideal.div
  rw [if_neg hc, if_neg hc, one_mul]

/-- A real times a sum of two reals, inside the extended reals. -/
theorem real_mul_add {z u v : EReal} (hz : ∃ r : ℝ, z = r) (hu : ∃ r : ℝ, u = r) (hv : ∃ r : ℝ, v = r) :
    z * (u + v) = z * u + z * v := by
  obtain ⟨a, rfl⟩ := hz
  obtain ⟨b, rfl⟩ := hu
  obtain ⟨c, rfl⟩ := hv
  rw [← EReal.coe_add, ← EReal.coe_mul, ← EReal.coe_mul, ← EReal.coe_mul, ← EReal.coe_add, mul_add]

/-- The two arrangements of the hidden row agree: reciprocal scales against division by the nonzero clamped degrees,
    the merged self-weight against the two self-terms (real features, real weights), the merged bias. -/
theorem hidden_eq (a1 a2 z : Fin 128 → EReal) (c1 c2 : EReal) (Wl1 Wl2 Wr1 Wr2 : Fin 256 → Fin 128 → EReal)
    (bl1 bl2 : Fin 256 → EReal) (hc1 : c1 ≠ 0) (hc2 : c2 ≠ 0)
    (hz : ∀ d, ∃ r : ℝ, z d = r) (h1 : ∀ h d, ∃ r : ℝ, Wr1 h d = r) (h2 : ∀ h d, ∃ r : ℝ, Wr2 h d = r) :
    hiddenK a1 a2 z (Ideal.div 1 c1) (Ideal.div 1 c2) Wl1 Wl2 (fun h d => Wr1 h d + Wr2 h d) (fun h => bl1 h + bl2 h)
      = hiddenR a1 a2 z c1 c2 Wl1 Wl2 Wr1 Wr2 bl1 bl2 := by
  funext h
  unfold hiddenK hiddenR
  have e1 : ∀ d, a1 d * Ideal.div 1 c1 = Ideal.div (a1 d) c1 := fun d => mul_div_one _ _ hc1
  have e2 : ∀ d, a2 d * Ideal.div 1 c2 = Ideal.div (a2 d) c2 := fun d => mul_div_one _ _ hc2
  have e3 : ∑ d, z d * (Wr1 h d + Wr2 h d) = ∑ d, z d * Wr1 h d + ∑ d, z d * Wr2 h d := by
    rw [← Finset.sum_add_distrib]
    exact Finset.sum_congr rfl fun d _ => real_mul_add (hz d) (h1 h d) (h2 h d)
  simp only [e1, e2]
  rw [e3]
  abel

/-- The first arrangement's array read at batch b, node n, entry d. -/
theorem arrK_apply (N : ℕ) (agg1 agg2 : (⟨3, ![2, N, 128]⟩ : Shape).Idx → EReal) (inv : (⟨2, ![N, 2]⟩ : Shape).Idx → EReal)
    (z : (⟨3, ![2, N, 128]⟩ : Shape).Idx → EReal) (Wl1 Wl2 : (⟨2, ![256, 128]⟩ : Shape).Idx → EReal)
    (bl : (⟨2, ![1, 256]⟩ : Shape).Idx → EReal) (Wr : (⟨2, ![256, 128]⟩ : Shape).Idx → EReal)
    (Wp : (⟨2, ![128, 256]⟩ : Shape).Idx → EReal) (bp g beta : (⟨2, ![1, 128]⟩ : Shape).Idx → EReal)
    (b : Fin 2) (n : Fin N) (d : Fin 128) :
    arrK N agg1 agg2 inv z Wl1 Wl2 bl Wr Wp bp g beta (ix3 b n d)
      = out (hiddenK (fun e => agg1 (ix3 b n e)) (fun e => agg2 (ix3 b n e)) (fun e => z (ix3 b n e))
          (inv (ix2 n (0 : Fin 2))) (inv (ix2 n (1 : Fin 2)))
          (fun h e => Wl1 (ix2 h e)) (fun h e => Wl2 (ix2 h e)) (fun h e => Wr (ix2 h e)) (fun h => bl (ix2 (0 : Fin 1) h)))
        (fun e h => Wp (ix2 e h)) (fun e => bp (ix2 (0 : Fin 1) e)) (fun e => g (ix2 (0 : Fin 1) e))
        (fun e => beta (ix2 (0 : Fin 1) e)) d := rfl

/-- The second arrangement's array read at batch b, node n, entry d. -/
theorem arrR_apply (N : ℕ) (agg1 agg2 : (⟨3, ![2, N, 128]⟩ : Shape).Idx → EReal) (c1 c2 : (⟨1, ![N]⟩ : Shape).Idx → EReal)
    (z : (⟨3, ![2, N, 128]⟩ : Shape).Idx → EReal) (Wl1 Wl2 Wr1 Wr2 : (⟨2, ![256, 128]⟩ : Shape).Idx → EReal)
    (bl1 bl2 : (⟨1, ![256]⟩ : Shape).Idx → EReal)
    (Wp : (⟨2, ![128, 256]⟩ : Shape).Idx → EReal) (bp g beta : (⟨1, ![128]⟩ : Shape).Idx → EReal)
    (b : Fin 2) (n : Fin N) (d : Fin 128) :
    arrR N agg1 agg2 c1 c2 z Wl1 Wl2 Wr1 Wr2 bl1 bl2 Wp bp g beta (ix3 b n d)
      = out (hiddenR (fun e => agg1 (ix3 b n e)) (fun e => agg2 (ix3 b n e)) (fun e => z (ix3 b n e))
          (c1 (ix1 n)) (c2 (ix1 n))
          (fun h e => Wl1 (ix2 h e)) (fun h e => Wl2 (ix2 h e)) (fun h e => Wr1 (ix2 h e)) (fun h e => Wr2 (ix2 h e))
          (fun h => bl1 (ix1 h)) (fun h => bl2 (ix1 h)))
        (fun e h => Wp (ix2 e h)) (fun e => bp (ix1 e)) (fun e => g (ix1 e)) (fun e => beta (ix1 e)) d := rfl

/-- The whole arrays agree when the first arrangement's operands are the second's, repacked: the packed scales are the
    reciprocals of the nonzero clamped degrees, the merged weight and bias are the sums, the row vectors are the
    vectors; the features and the two self-weights are real. -/
theorem arrK_eq_arrR (N : ℕ) (agg1 agg2 : (⟨3, ![2, N, 128]⟩ : Shape).Idx → EReal) (inv : (⟨2, ![N, 2]⟩ : Shape).Idx → EReal)
    (c1 c2 : (⟨1, ![N]⟩ : Shape).Idx → EReal)
    (z : (⟨3, ![2, N, 128]⟩ : Shape).Idx → EReal) (Wl1 Wl2 Wr Wr1 Wr2 : (⟨2, ![256, 128]⟩ : Shape).Idx → EReal)
    (bl : (⟨2, ![1, 256]⟩ : Shape).Idx → EReal) (bl1 bl2 : (⟨1, ![256]⟩ : Shape).Idx → EReal)
    (Wp : (⟨2, ![128, 256]⟩ : Shape).Idx → EReal) (bp g beta : (⟨2, ![1, 128]⟩ : Shape).Idx → EReal)
    (bp' g' beta' : (⟨1, ![128]⟩ : Shape).Idx → EReal)
    (hinv0 : ∀ n : Fin N, inv (ix2 n (0 : Fin 2)) = Ideal.div 1 (c1 (ix1 n)))
    (hinv1 : ∀ n : Fin N, inv (ix2 n (1 : Fin 2)) = Ideal.div 1 (c2 (ix1 n)))
    (hc1 : ∀ n : Fin N, c1 (ix1 n) ≠ 0) (hc2 : ∀ n : Fin N, c2 (ix1 n) ≠ 0)
    (hWr : ∀ (h : Fin 256) (d : Fin 128), Wr (ix2 h d) = Wr1 (ix2 h d) + Wr2 (ix2 h d))
    (hbl : ∀ h : Fin 256, bl (ix2 (0 : Fin 1) h) = bl1 (ix1 h) + bl2 (ix1 h))
    (hbp : ∀ d : Fin 128, bp (ix2 (0 : Fin 1) d) = bp' (ix1 d))
    (hg : ∀ d : Fin 128, g (ix2 (0 : Fin 1) d) = g' (ix1 d))
    (hbeta : ∀ d : Fin 128, beta (ix2 (0 : Fin 1) d) = beta' (ix1 d))
    (hz : ∀ i, ∃ r : ℝ, z i = r) (hWr1 : ∀ i, ∃ r : ℝ, Wr1 i = r) (hWr2 : ∀ i, ∃ r : ℝ, Wr2 i = r) :
    arrK N agg1 agg2 inv z Wl1 Wl2 bl Wr Wp bp g beta
      = arrR N agg1 agg2 c1 c2 z Wl1 Wl2 Wr1 Wr2 bl1 bl2 Wp bp' g' beta' := by
  funext i
  obtain ⟨b, n, d, rfl⟩ : ∃ (b : Fin 2) (n : Fin N) (d : Fin 128), i = ix3 b n d := ⟨i 0, i 1, i 2, eq_ix3 i⟩
  rw [arrK_apply, arrR_apply, hinv0, hinv1]
  simp only [hWr, hbl, hbp, hg, hbeta]
  rw [hidden_eq _ _ _ _ _ _ _ _ _ _ _ (hc1 n) (hc2 n) (fun e => hz _) (fun h e => hWr1 _) (fun h e => hWr2 _)]

end Cert.NodeSpec

end
-- ==== Proof.KernelOut1.lean ====
/-
  The idealized kernel program's first result, the update of the node type with 20000 nodes, as the specification's whole-array
  function of the program's arguments: the fused call's output array is the block-by-block node update of the twelve
  arrays the call is handed (the call's grid tiles the node axis; each block is computed from its own rows only), and
  those arrays are the host's aggregates, packed reciprocal degrees, merged weights and reshaped rows.  In the second
  statement the same array is put in the reference's arrangement by the law of the two arrangements.
-/
import proofs.«125976_j40492951666849_2_alg».proof.Proof.KernelRun
import proofs.«125976_j40492951666849_2_alg».proof.Proof.KernelHost0
import proofs.«125976_j40492951666849_2_alg».proof.Proof.KernelHostRead
import proofs.«125976_j40492951666849_2_alg».proof.Proof.KernelArray0
import proofs.«125976_j40492951666849_2_alg».proof.Proof.KernelRow0
import proofs.«125976_j40492951666849_2_alg».proof.Proof.NodeLaw

set_option maxRecDepth 16384

noncomputable section

namespace Cert.KernelIdeal.Out1

open Cert.KernelIdeal Cert.KernelIdeal.Gen Cert.KernelIdeal.HostVal Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg)

/-- The result buffer after the run holds the node update, in the fused call's arrangement, of the host-built operands. -/
theorem value_K (c : Dev nD) : W4 m ρ c (Proc.devRef .tc main_v142)
    = Cert.NodeSpec.arrK 20000 (aggPipe (m ((c : Thread nD τ).loc main_arg0)) (m ((c : Thread nD τ).loc main_arg2))) (aggCf (m ((c : Thread nD τ).loc main_arg1)) (m ((c : Thread nD τ).loc main_arg5)))
        (invPack20000 (cntPipe (m ((c : Thread nD τ).loc main_arg2))) (cntCf (m ((c : Thread nD τ).loc main_arg5)))) (m ((c : Thread nD τ).loc main_arg0)) (m ((c : Thread nD τ).loc main_arg6)) (m ((c : Thread nD τ).loc main_arg15))
        (shapeCast S1x256 (addf (m ((c : Thread nD τ).loc main_arg7)) (m ((c : Thread nD τ).loc main_arg16)) : FVec Ideal S256 .f32) shapeCasts_S256_S1x256) (addf (m ((c : Thread nD τ).loc main_arg8)) (m ((c : Thread nD τ).loc main_arg17)) : FVec Ideal S256x128 .f32) (m ((c : Thread nD τ).loc main_arg18))
        (shapeCast S1x128 (m ((c : Thread nD τ).loc main_arg19)) shapeCasts_S128_S1x128) (shapeCast S1x128 (m ((c : Thread nD τ).loc main_arg22)) shapeCasts_S128_S1x128) (shapeCast S1x128 (m ((c : Thread nD τ).loc main_arg23)) shapeCasts_S128_S1x128) := by
  have e4 : W4 m ρ c (Proc.devRef .tc main_v142) = W3 m ρ c (Proc.devRef .tc main_v142) := W4_of_ne m ρ c main_v142 (by decide)
  have e3 : W3 m ρ c (Proc.devRef .tc main_v142) = W2 m ρ c (Proc.devRef .tc main_v142) := by
    show StableHlo.after hostOps1 (W2 m ρ c) (Proc.devRef .tc main_v142) = _
    after_results_simp <;> rfl
  have e2 : W2 m ρ c (Proc.devRef .tc main_v142) = (dat0 (V1 m ρ) c).arrAt 12 cfg0.N := W2_arr m ρ c 12
  refine e4.trans (e3.trans (e2.trans ((Cert.KernelIdeal.Array0.final (V1 m ρ) c Cert.KernelIdeal.Row0.out0_12_eq).trans ?_)))
  show Cert.NodeSpec.arrK 20000 (W1 m ρ c (Proc.devRef .tc main_v18)) (W1 m ρ c (Proc.devRef .tc main_v46)) (W1 m ρ c (Proc.devRef .tc main_v126)) (W1 m ρ c (Proc.devRef .tc main_arg0)) (W1 m ρ c (Proc.devRef .tc main_arg6)) (W1 m ρ c (Proc.devRef .tc main_arg15)) (W1 m ρ c (Proc.devRef .tc main_v138)) (W1 m ρ c (Proc.devRef .tc main_v112)) (W1 m ρ c (Proc.devRef .tc main_arg18)) (W1 m ρ c (Proc.devRef .tc main_v139)) (W1 m ρ c (Proc.devRef .tc main_v140)) (W1 m ρ c (Proc.devRef .tc main_v141)) = _
  rw [W1_v18 m ρ c, W1_v46 m ρ c, W1_v126 m ρ c, W1_arg0 m ρ c, W1_arg6 m ρ c, W1_arg15 m ρ c, W1_v138 m ρ c, W1_v112 m ρ c, W1_arg18 m ρ c, W1_v139 m ρ c, W1_v140 m ρ c, W1_v141 m ρ c]

/-- The same array in the reference's arrangement: division by the clamped degrees, the two SAGE terms added.  The
    features and the two self-weights are real. -/
theorem value_R (c : Dev nD) (hz : ∀ i, ∃ r : ℝ, m ((c : Thread nD τ).loc main_arg0) i = (r : EReal))
    (hw1 : ∀ i, ∃ r : ℝ, m ((c : Thread nD τ).loc main_arg8) i = (r : EReal)) (hw2 : ∀ i, ∃ r : ℝ, m ((c : Thread nD τ).loc main_arg17) i = (r : EReal)) :
    W4 m ρ c (Proc.devRef .tc main_v142)
    = Cert.NodeSpec.arrR 20000 (aggPipe (m ((c : Thread nD τ).loc main_arg0)) (m ((c : Thread nD τ).loc main_arg2))) (aggCf (m ((c : Thread nD τ).loc main_arg1)) (m ((c : Thread nD τ).loc main_arg5)))
        (maximumf (cntPipe (m ((c : Thread nD τ).loc main_arg2))) (broadcastInDim S20000 ![] bcast_S_S20000 (constant (F := Ideal) S_ .f32 0x3F800000#32))) (maximumf (cntCf (m ((c : Thread nD τ).loc main_arg5))) (broadcastInDim S20000 ![] bcast_S_S20000 (constant (F := Ideal) S_ .f32 0x3F800000#32)))
        (m ((c : Thread nD τ).loc main_arg0)) (m ((c : Thread nD τ).loc main_arg6)) (m ((c : Thread nD τ).loc main_arg15)) (m ((c : Thread nD τ).loc main_arg8)) (m ((c : Thread nD τ).loc main_arg17)) (m ((c : Thread nD τ).loc main_arg7)) (m ((c : Thread nD τ).loc main_arg16)) (m ((c : Thread nD τ).loc main_arg18)) (m ((c : Thread nD τ).loc main_arg19)) (m ((c : Thread nD τ).loc main_arg22)) (m ((c : Thread nD τ).loc main_arg23)) := by
  rw [value_K m ρ c]
  apply Cert.NodeSpec.arrK_eq_arrR
  · exact fun n => invPack20000_col0 _ _ n
  · exact fun n => invPack20000_col1 _ _ n
  · exact fun n => clamp20000_ne_zero _ n
  · exact fun n => clamp20000_ne_zero _ n
  · exact fun h d => rfl
  · exact fun h => row256_apply _ _ h
  · exact fun d => row128_apply _ _ d
  · exact fun d => row128_apply _ _ d
  · exact fun d => row128_apply _ _ d
  · exact hz
  · exact hw1
  · exact hw2

end Cert.KernelIdeal.Out1

end
-- ==== Proof.KernelHost1.lean ====
/-
  What the second fused call finds in each of its twelve input arrays.  Its entry contents are the second (short) host
  stretch — four reshapes — folded over the first call's exit contents; none of these twelve arrays is an array of the
  first call, so each is what the first stretch left, and the four reshaped rows are reshapes of that.
-/
import proofs.«125976_j40492951666849_2_alg».proof.Proof.KernelHostDefs

set_option maxRecDepth 16384
-- walking a buffer back through the 190 operations of the first host stretch is one long simp pass
set_option maxHeartbeats 2000000

noncomputable section

namespace Cert.KernelIdeal.HostVal

open Cert.KernelIdeal Cert.KernelIdeal.Gen Idealize.ShloMosaic Idealize.ShloMosaic.TcCoe Idealize.SL.Sem Idealize.ShloMosaic.StableHlo

variable {F : FTy → Type} [FloatOps F]

variable (m : (ℓ : Loc nD τ sig) → Buf (Elt F) ℓ) (ρ : Dev nD → PrngReg)

theorem W3_v74 (c : Dev nD) : W3 m ρ c (Proc.devRef .tc main_v74) = aggSurf (m ((c : Thread nD τ).loc main_arg1)) (m ((c : Thread nD τ).loc main_arg3)) := by
  have h3 : W3 m ρ c (Proc.devRef .tc main_v74) = W2 m ρ c (Proc.devRef .tc main_v74) := by
    show StableHlo.after hostOps1 (W2 m ρ c) (Proc.devRef .tc main_v74) = _
    after_results_simp <;> rfl
  rw [h3, W2_of_ne m ρ c main_v74 (by decide)]
  show StableHlo.after hostOps0 (W0 m ρ c) (Proc.devRef .tc main_v74) = _
  after_results_simp <;> rfl

theorem W3_v102 (c : Dev nD) : W3 m ρ c (Proc.devRef .tc main_v102) = aggC2 (m ((c : Thread nD τ).loc main_arg0)) (m ((c : Thread nD τ).loc main_arg4)) := by
  have h3 : W3 m ρ c (Proc.devRef .tc main_v102) = W2 m ρ c (Proc.devRef .tc main_v102) := by
    show StableHlo.after hostOps1 (W2 m ρ c) (Proc.devRef .tc main_v102) = _
    after_results_simp <;> rfl
  rw [h3, W2_of_ne m ρ c main_v102 (by decide)]
  show StableHlo.after hostOps0 (W0 m ρ c) (Proc.devRef .tc main_v102) = _
  after_results_simp <;> rfl

theorem W3_v137 (c : Dev nD) : W3 m ρ c (Proc.devRef .tc main_v137) = invPack100000 (cntSurf (m ((c : Thread nD τ).loc main_arg3))) (cntC2 (m ((c : Thread nD τ).loc main_arg4))) := by
  have h3 : W3 m ρ c (Proc.devRef .tc main_v137) = W2 m ρ c (Proc.devRef .tc main_v137) := by
    show StableHlo.after hostOps1 (W2 m ρ c) (Proc.devRef .tc main_v137) = _
    after_results_simp <;> rfl
  rw [h3, W2_of_ne m ρ c main_v137 (by decide)]
  show StableHlo.after hostOps0 (W0 m ρ c) (Proc.devRef .tc main_v137) = _
  after_results_simp <;> rfl

theorem W3_arg1 (c : Dev nD) : W3 m ρ c (Proc.devRef .tc main_arg1) = m ((c : Thread nD τ).loc main_arg1) := by
  have h3 : W3 m ρ c (Proc.devRef .tc main_arg1) = W2 m ρ c (Proc.devRef .tc main_arg1) := by
    show StableHlo.after hostOps1 (W2 m ρ c) (Proc.devRef .tc main_arg1) = _
    after_results_simp <;> rfl
  rw [h3, W2_of_ne m ρ c main_arg1 (by decide)]
  show StableHlo.after hostOps0 (W0 m ρ c) (Proc.devRef .tc main_arg1) = _
  after_results_simp <;> rfl

theorem W3_arg9 (c : Dev nD) : W3 m ρ c (Proc.devRef .tc main_arg9) = m ((c : Thread nD τ).loc main_arg9) := by
  have h3 : W3 m ρ c (Proc.devRef .tc main_arg9) = W2 m ρ c (Proc.devRef .tc main_arg9) := by
    show StableHlo.after hostOps1 (W2 m ρ c) (Proc.devRef .tc main_arg9) = _
    after_results_simp <;> rfl
  rw [h3, W2_of_ne m ρ c main_arg9 (by decide)]
  show StableHlo.after hostOps0 (W0 m ρ c) (Proc.devRef .tc main_arg9) = _
  after_results_simp <;> rfl

theorem W3_arg12 (c : Dev nD) : W3 m ρ c (Proc.devRef .tc main_arg12) = m ((c : Thread nD τ).loc main_arg12) := by
  have h3 : W3 m ρ c (Proc.devRef .tc main_arg12) = W2 m ρ c (Proc.devRef .tc main_arg12) := by
    show StableHlo.after hostOps1 (W2 m ρ c) (Proc.devRef .tc main_arg12) = _
    after_results_simp <;> rfl
  rw [h3, W2_of_ne m ρ c main_arg12 (by decide)]
  show StableHlo.after hostOps0 (W0 m ρ c) (Proc.devRef .tc main_arg12) = _
  after_results_simp <;> rfl

theorem W3_v143 (c : Dev nD) : W3 m ρ c (Proc.devRef .tc main_v143) = shapeCast S1x256 (addf (m ((c : Thread nD τ).loc main_arg10)) (m ((c : Thread nD τ).loc main_arg13))) shapeCasts_S256_S1x256 := by
  have h3 : W3 m ρ c (Proc.devRef .tc main_v143) = shapeCast S1x256 (W2 m ρ c (Proc.devRef .tc main_v115)) shapeCasts_S256_S1x256 := by
    show StableHlo.after hostOps1 (W2 m ρ c) (Proc.devRef .tc main_v143) = _
    after_results_simp <;> rfl
  have h1 : W2 m ρ c (Proc.devRef .tc main_v115) = (addf (m ((c : Thread nD τ).loc main_arg10)) (m ((c : Thread nD τ).loc main_arg13))) := by
    rw [W2_of_ne m ρ c main_v115 (by decide)]
    show StableHlo.after hostOps0 (W0 m ρ c) (Proc.devRef .tc main_v115) = _
    after_results_simp <;> rfl
  rw [h3, h1]

theorem W3_v114 (c : Dev nD) : W3 m ρ c (Proc.devRef .tc main_v114) = addf (m ((c : Thread nD τ).loc main_arg11)) (m ((c : Thread nD τ).loc main_arg14)) := by
  have h3 : W3 m ρ c (Proc.devRef .tc main_v114) = W2 m ρ c (Proc.devRef .tc main_v114) := by
    show StableHlo.after hostOps1 (W2 m ρ c) (Proc.devRef .tc main_v114) = _
    after_results_simp <;> rfl
  rw [h3, W2_of_ne m ρ c main_v114 (by decide)]
  show StableHlo.after hostOps0 (W0 m ρ c) (Proc.devRef .tc main_v114) = _
  after_results_simp <;> rfl

theorem W3_arg20 (c : Dev nD) : W3 m ρ c (Proc.devRef .tc main_arg20) = m ((c : Thread nD τ).loc main_arg20) := by
  have h3 : W3 m ρ c (Proc.devRef .tc main_arg20) = W2 m ρ c (Proc.devRef .tc main_arg20) := by
    show StableHlo.after hostOps1 (W2 m ρ c) (Proc.devRef .tc main_arg20) = _
    after_results_simp <;> rfl
  rw [h3, W2_of_ne m ρ c main_arg20 (by decide)]
  show StableHlo.after hostOps0 (W0 m ρ c) (Proc.devRef .tc main_arg20) = _
  after_results_simp <;> rfl

theorem W3_v144 (c : Dev nD) : W3 m ρ c (Proc.devRef .tc main_v144) = shapeCast S1x128 (m ((c : Thread nD τ).loc main_arg21)) shapeCasts_S128_S1x128 := by
  have h3 : W3 m ρ c (Proc.devRef .tc main_v144) = shapeCast S1x128 (W2 m ρ c (Proc.devRef .tc main_arg21)) shapeCasts_S128_S1x128 := by
    show StableHlo.after hostOps1 (W2 m ρ c) (Proc.devRef .tc main_v144) = _
    after_results_simp <;> rfl
  have h1 : W2 m ρ c (Proc.devRef .tc main_arg21) = (m ((c : Thread nD τ).loc main_arg21)) := by
    rw [W2_of_ne m ρ c main_arg21 (by decide)]
    show StableHlo.after hostOps0 (W0 m ρ c) (Proc.devRef .tc main_arg21) = _
    after_results_simp <;> rfl
  rw [h3, h1]

theorem W3_v145 (c : Dev nD) : W3 m ρ c (Proc.devRef .tc main_v145) = shapeCast S1x128 (m ((c : Thread nD τ).loc main_arg24)) shapeCasts_S128_S1x128 := by
  have h3 : W3 m ρ c (Proc.devRef .tc main_v145) = shapeCast S1x128 (W2 m ρ c (Proc.devRef .tc main_arg24)) shapeCasts_S128_S1x128 := by
    show StableHlo.after hostOps1 (W2 m ρ c) (Proc.devRef .tc main_v145) = _
    after_results_simp <;> rfl
  have h1 : W2 m ρ c (Proc.devRef .tc main_arg24) = (m ((c : Thread nD τ).loc main_arg24)) := by
    rw [W2_of_ne m ρ c main_arg24 (by decide)]
    show StableHlo.after hostOps0 (W0 m ρ c) (Proc.devRef .tc main_arg24) = _
    after_results_simp <;> rfl
  rw [h3, h1]

theorem W3_v146 (c : Dev nD) : W3 m ρ c (Proc.devRef .tc main_v146) = shapeCast S1x128 (m ((c : Thread nD τ).loc main_arg25)) shapeCasts_S128_S1x128 := by
  have h3 : W3 m ρ c (Proc.devRef .tc main_v146) = shapeCast S1x128 (W2 m ρ c (Proc.devRef .tc main_arg25)) shapeCasts_S128_S1x128 := by
    show StableHlo.after hostOps1 (W2 m ρ c) (Proc.devRef .tc main_v146) = _
    after_results_simp <;> rfl
  have h1 : W2 m ρ c (Proc.devRef .tc main_arg25) = (m ((c : Thread nD τ).loc main_arg25)) := by
    rw [W2_of_ne m ρ c main_arg25 (by decide)]
    show StableHlo.after hostOps0 (W0 m ρ c) (Proc.devRef .tc main_arg25) = _
    after_results_simp <;> rfl
  rw [h3, h1]

end Cert.KernelIdeal.HostVal

end
-- ==== Proof.KernelArray1Blk.lean ====
import proofs.«125976_j40492951666849_2_alg».proof.Proof.Gen.KernelIdeal.Frame
import proofs.«125976_j40492951666849_2_alg».proof.Proof.NodeSpec
import Idealize.ShloMosaic.Lib.ValueIdx
import Idealize.ShloMosaic.Lib.Pipeline.Value

noncomputable section

namespace Cert.KernelIdeal.Array1

open Cert.KernelIdeal Cert.KernelIdeal.Gen Idealize.ShloMosaic Idealize.ShloMosaic.TcCoe Idealize.SL.Sem
open Idealize.ShloMosaic.ValueIdx
open Idealize.ShloMosaic.Pipeline (Dat)

/-! # The blocks of region 1 inside their arrays

  The grid has 25 points.  At point t the two aggregates, the features and the result are cut along the node axis into
  blocks of 4000 consecutive nodes, block t holding nodes 4000·t … 4000·t + 3999 of 100000; the packed scales are cut the
  same way; the weights and the row vectors are taken whole at every point.  So row n of a block at point t is row
  4000·t + n of its array, and every node of the array lies in exactly the block numbered (node / 4000). -/

variable (V : (c : Dev nD) → (b : Ref sig .tc) → Buf (Elt Ideal) ((c : Thread nD τ).loc b)) (c : Dev nD)

/-- The node-blocked operands and the result move along the node axis only: block index (0, t, 0) at point t. -/
theorem idx_rows : ∀ t : Fin cfg1.N,
    win1_0.index t (0 : Fin 3) = 0 ∧ win1_0.index t (1 : Fin 3) = t.val ∧ win1_0.index t (2 : Fin 3) = 0
    ∧ win1_1.index t (0 : Fin 3) = 0 ∧ win1_1.index t (1 : Fin 3) = t.val ∧ win1_1.index t (2 : Fin 3) = 0
    ∧ win1_3.index t (0 : Fin 3) = 0 ∧ win1_3.index t (1 : Fin 3) = t.val ∧ win1_3.index t (2 : Fin 3) = 0
    ∧ win1_12.index t (0 : Fin 3) = 0 ∧ win1_12.index t (1 : Fin 3) = t.val ∧ win1_12.index t (2 : Fin 3) = 0 :=
  (by decide +kernel : ∀ t : Fin grid1.N, _)

/-- The packed scales move with the nodes: block index (t, 0) at point t; and there are 25 points. -/
theorem idx_scales : ∀ t : Fin cfg1.N,
    win1_2.index t (0 : Fin 2) = t.val ∧ win1_2.index t (1 : Fin 2) = 0 ∧ t.val < 25 :=
  (by decide +kernel : ∀ t : Fin grid1.N, _)

/-- The weights and the row vectors do not move: block index (0, 0) at every point. -/
theorem idx_whole : ∀ t : Fin cfg1.N,
    win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = 0 ∧ win1_9.index t (1 : Fin 2) = 0
    ∧ win1_10.index t (0 : Fin 2) = 0 ∧ win1_10.index t (1 : Fin 2) = 0
    ∧ win1_11.index t (0 : Fin 2) = 0 ∧ win1_11.index t (1 : Fin 2) = 0 :=
  (by decide +kernel : ∀ t : Fin grid1.N, _)

/-- The node of the array that node n of the block at point t is: 4000·t + n. -/
def row (t : Fin cfg1.N) (n : Fin 4000) : Fin 100000 :=
  ⟨t.val * 4000 + n.val, by have h := (idx_scales t).2.2; have := n.isLt; omega⟩

theorem row_val (t : Fin cfg1.N) (n : Fin 4000) : (row t n).val = t.val * 4000 + n.val := rfl

/-! ## Where a block's entry sits in the array -/

theorem emb0 (t : Fin cfg1.N) (n : Fin 4000) (b : Fin 2) (d : Fin 128) :
    ((cfg1.win 0).blk t).view.emb (ix3 b n d) = ix3 b (row t n) d := by
  obtain ⟨e0, e1, e2, -, -, -, -, -, -, -, -, -⟩ := idx_rows t
  funext a; apply Fin.ext
  match a with
  | ⟨0, _⟩ => show win1_0.index t (0 : Fin 3) * 2 + 1 * b.val = b.val; omega
  | ⟨1, _⟩ => show win1_0.index t (1 : Fin 3) * 4000 + 1 * n.val = t.val * 4000 + n.val; omega
  | ⟨2, _⟩ => show win1_0.index t (2 : Fin 3) * 128 + 1 * d.val = d.val; omega

theorem emb1 (t : Fin cfg1.N) (n : Fin 4000) (b : Fin 2) (d : Fin 128) :
    ((cfg1.win 1).blk t).view.emb (ix3 b n d) = ix3 b (row t n) d := by
  obtain ⟨-, -, -, e0, e1, e2, -, -, -, -, -, -⟩ := idx_rows t
  funext a; apply Fin.ext
  match a with
  | ⟨0, _⟩ => show win1_1.index t (0 : Fin 3) * 2 + 1 * b.val = b.val; omega
  | ⟨1, _⟩ => show win1_1.index t (1 : Fin 3) * 4000 + 1 * n.val = t.val * 4000 + n.val; omega
  | ⟨2, _⟩ => show win1_1.index t (2 : Fin 3) * 128 + 1 * d.val = d.val; omega

theorem emb3 (t : Fin cfg1.N) (n : Fin 4000) (b : Fin 2) (d : Fin 128) :
    ((cfg1.win 3).blk t).view.emb (ix3 b n d) = ix3 b (row t n) d := by
  obtain ⟨-, -, -, -, -, -, e0, e1, e2, -, -, -⟩ := idx_rows t
  funext a; apply Fin.ext
  match a with
  | ⟨0, _⟩ => show win1_3.index t (0 : Fin 3) * 2 + 1 * b.val = b.val; omega
  | ⟨1, _⟩ => show win1_3.index t (1 : Fin 3) * 4000 + 1 * n.val = t.val * 4000 + n.val; omega
  | ⟨2, _⟩ => show win1_3.index t (2 : Fin 3) * 128 + 1 * d.val = d.val; omega

theorem emb12 (t : Fin cfg1.N) (n : Fin 4000) (b : Fin 2) (d : Fin 128) :
    ((cfg1.win 12).blk t).view.emb (ix3 b n d) = ix3 b (row t n) d := by
  obtain ⟨-, -, -, -, -, -, -, -, -, e0, e1, e2⟩ := idx_rows t
  funext a; apply Fin.ext
  match a with
  | ⟨0, _⟩ => show win1_12.index t (0 : Fin 3) * 2 + 1 * b.val = b.val; omega
  | ⟨1, _⟩ => show win1_12.index t (1 : Fin 3) * 4000 + 1 * n.val = t.val * 4000 + n.val; omega
  | ⟨2, _⟩ => show win1_12.index t (2 : Fin 3) * 128 + 1 * d.val = d.val; omega

theorem emb2 (t : Fin cfg1.N) (n : Fin 4000) (k : Fin 2) :
    ((cfg1.win 2).blk t).view.emb (ix2 n k) = ix2 (row t n) k := by
  obtain ⟨e0, e1, -⟩ := idx_scales t
  funext a; apply Fin.ext
  match a with
  | ⟨0, _⟩ => show win1_2.index t (0 : Fin 2) * 4000 + 1 * n.val = t.val * 4000 + n.val; omega
  | ⟨1, _⟩ => show win1_2.index t (1 : Fin 2) * 2 + 1 * k.val = k.val; omega

theorem emb4 (t : Fin cfg1.N) (h : Fin 256) (d : Fin 128) :
    ((cfg1.win 4).blk t).view.emb (ix2 h d) = ix2 h d := by
  obtain ⟨e0, e1, -, -, -, -, -, -, -, -, -, -, -, -, -, -⟩ := idx_whole t
  funext a; apply Fin.ext
  match a with
  | ⟨0, _⟩ => show win1_4.index t (0 : Fin 2) * 256 + 1 * h.val = h.val; omega
  | ⟨1, _⟩ => show win1_4.index t (1 : Fin 2) * 128 + 1 * d.val = d.val; omega

theorem emb5 (t : Fin cfg1.N) (h : Fin 256) (d : Fin 128) :
    ((cfg1.win 5).blk t).view.emb (ix2 h d) = ix2 h d := by
  obtain ⟨-, -, e0, e1, -, -, -, -, -, -, -, -, -, -, -, -⟩ := idx_whole t
  funext a; apply Fin.ext
  match a with
  | ⟨0, _⟩ => show win1_5.index t (0 : Fin 2) * 256 + 1 * h.val = h.val; omega
  | ⟨1, _⟩ => show win1_5.index t (1 : Fin 2) * 128 + 1 * d.val = d.val; omega

theorem emb6 (t : Fin cfg1.N) (z : Fin 1) (h : Fin 256) :
    ((cfg1.win 6).blk t).view.emb (ix2 z h) = ix2 z h := by
  obtain ⟨-, -, -, -, e0, e1, -, -, -, -, -, -, -, -, -, -⟩ := idx_whole t
  funext a; apply Fin.ext
  match a with
  | ⟨0, _⟩ => show win1_6.index t (0 : Fin 2) * 1 + 1 * z.val = z.val; omega
  | ⟨1, _⟩ => show win1_6.index t (1 : Fin 2) * 256 + 1 * h.val = h.val; omega

theorem emb7 (t : Fin cfg1.N) (h : Fin 256) (d : Fin 128) :
    ((cfg1.win 7).blk t).view.emb (ix2 h d) = ix2 h d := by
  obtain ⟨-, -, -, -, -, -, e0, e1, -, -, -, -, -, -, -, -⟩ := idx_whole t
  funext a; apply Fin.ext
  match a with
  | ⟨0, _⟩ => show win1_7.index t (0 : Fin 2) * 256 + 1 * h.val = h.val; omega
  | ⟨1, _⟩ => show win1_7.index t (1 : Fin 2) * 128 + 1 * d.val = d.val; omega

theorem emb8 (t : Fin cfg1.N) (d : Fin 128) (h : Fin 256) :
    ((cfg1.win 8).blk t).view.emb (ix2 d h) = ix2 d h := by
  obtain ⟨-, -, -, -, -, -, -, -, e0, e1, -, -, -, -, -, -⟩ := idx_whole t
  funext a; apply Fin.ext
  match a with
  | ⟨0, _⟩ => show win1_8.index t (0 : Fin 2) * 128 + 1 * d.val = d.val; omega
  | ⟨1, _⟩ => show win1_8.index t (1 : Fin 2) * 256 + 1 * h.val = h.val; omega

theorem emb9 (t : Fin cfg1.N) (z : Fin 1) (d : Fin 128) :
    ((cfg1.win 9).blk t).view.emb (ix2 z d) = ix2 z d := by
  obtain ⟨-, -, -, -, -, -, -, -, -, -, e0, e1, -, -, -, -⟩ := idx_whole t
  funext a; apply Fin.ext
  match a with
  | ⟨0, _⟩ => show win1_9.index t (0 : Fin 2) * 1 + 1 * z.val = z.val; omega
  | ⟨1, _⟩ => show win1_9.index t (1 : Fin 2) * 128 + 1 * d.val = d.val; omega

theorem emb10 (t : Fin cfg1.N) (z : Fin 1) (d : Fin 128) :
    ((cfg1.win 10).blk t).view.emb (ix2 z d) = ix2 z d := by
  obtain ⟨-, -, -, -, -, -, -, -, -, -, -, -, e0, e1, -, -⟩ := idx_whole t
  funext a; apply Fin.ext
  match a with
  | ⟨0, _⟩ => show win1_10.index t (0 : Fin 2) * 1 + 1 * z.val = z.val; omega
  | ⟨1, _⟩ => show win1_10.index t (1 : Fin 2) * 128 + 1 * d.val = d.val; omega

theorem emb11 (t : Fin cfg1.N) (z : Fin 1) (d : Fin 128) :
    ((cfg1.win 11).blk t).view.emb (ix2 z d) = ix2 z d := by
  obtain ⟨-, -, -, -, -, -, -, -, -, -, -, -, -, -, e0, e1⟩ := idx_whole t
  funext a; apply Fin.ext
  match a with
  | ⟨0, _⟩ => show win1_11.index t (0 : Fin 2) * 1 + 1 * z.val = z.val; omega
  | ⟨1, _⟩ => show win1_11.index t (1 : Fin 2) * 128 + 1 * d.val = d.val; omega

/-! ## What a block holds: the array's entries at those places -/

theorem blk0 (t : Fin cfg1.N) (n : Fin 4000) (b : Fin 2) (d : Fin 128) :
    iblk1 V c 0 t (ix3 b n d) = V c main_v74 (ix3 b (row t n) d) := by
  show V c main_v74 (((cfg1.win 0).blk t).view.emb (ix3 b n d)) = _
  rw [emb0]

theorem blk1 (t : Fin cfg1.N) (n : Fin 4000) (b : Fin 2) (d : Fin 128) :
    iblk1 V c 1 t (ix3 b n d) = V c main_v102 (ix3 b (row t n) d) := by
  show V c main_v102 (((cfg1.win 1).blk t).view.emb (ix3 b n d)) = _
  rw [emb1]

theorem blk3 (t : Fin cfg1.N) (n : Fin 4000) (b : Fin 2) (d : Fin 128) :
    iblk1 V c 3 t (ix3 b n d) = V c main_arg1 (ix3 b (row t n) d) := by
  show V c main_arg1 (((cfg1.win 3).blk t).view.emb (ix3 b n d)) = _
  rw [emb3]

theorem blk2 (t : Fin cfg1.N) (n : Fin 4000) (k : Fin 2) :
    iblk1 V c 2 t (ix2 n k) = V c main_v137 (ix2 (row t n) k) := by
  show V c main_v137 (((cfg1.win 2).blk t).view.emb (ix2 n k)) = _
  rw [emb2]

theorem blk4 (t : Fin cfg1.N) (h : Fin 256) (d : Fin 128) :
    iblk1 V c 4 t (ix2 h d) = V c main_arg9 (ix2 h d) := by
  show V c main_arg9 (((cfg1.win 4).blk t).view.emb (ix2 h d)) = _
  rw [emb4]

theorem blk5 (t : Fin cfg1.N) (h : Fin 256) (d : Fin 128) :
    iblk1 V c 5 t (ix2 h d) = V c main_arg12 (ix2 h d) := by
  show V c main_arg12 (((cfg1.win 5).blk t).view.emb (ix2 h d)) = _
  rw [emb5]

theorem blk6 (t : Fin cfg1.N) (z : Fin 1) (h : Fin 256) :
    iblk1 V c 6 t (ix2 z h) = V c main_v143 (ix2 z h) := by
  show V c main_v143 (((cfg1.win 6).blk t).view.emb (ix2 z h)) = _
  rw [emb6]

theorem blk7 (t : Fin cfg1.N) (h : Fin 256) (d : Fin 128) :
    iblk1 V c 7 t (ix2 h d) = V c main_v114 (ix2 h d) := by
  show V c main_v114 (((cfg1.win 7).blk t).view.emb (ix2 h d)) = _
  rw [emb7]

theorem blk8 (t : Fin cfg1.N) (d : Fin 128) (h : Fin 256) :
    iblk1 V c 8 t (ix2 d h) = V c main_arg20 (ix2 d h) := by
  show V c main_arg20 (((cfg1.win 8).blk t).view.emb (ix2 d h)) = _
  rw [emb8]

theorem blk9 (t : Fin cfg1.N) (z : Fin 1) (d : Fin 128) :
    iblk1 V c 9 t (ix2 z d) = V c main_v144 (ix2 z d) := by
  show V c main_v144 (((cfg1.win 9).blk t).view.emb (ix2 z d)) = _
  rw [emb9]

theorem blk10 (t : Fin cfg1.N) (z : Fin 1) (d : Fin 128) :
    iblk1 V c 10 t (ix2 z d) = V c main_v145 (ix2 z d) := by
  show V c main_v145 (((cfg1.win 10).blk t).view.emb (ix2 z d)) = _
  rw [emb10]

theorem blk11 (t : Fin cfg1.N) (z : Fin 1) (d : Fin 128) :
    iblk1 V c 11 t (ix2 z d) = V c main_v146 (ix2 z d) := by
  show V c main_v146 (((cfg1.win 11).blk t).view.emb (ix2 z d)) = _
  rw [emb11]

/-! ## The result's blocks cover its array -/

/-- An index of the result array is in point t's block iff each coordinate is in the block's range on its axis. -/
theorem mem_blk (t : Fin cfg1.N) (i : S2x100000x128.Idx) :
    i ∈ ((cfg1.win 12).blk t).view.set ↔ ∀ a : Fin 3, win1_12.index t a * S2x4000x128.size a ≤ (i a).val ∧ (i a).val < win1_12.index t a * S2x4000x128.size a + S2x4000x128.size a := by
  show i ∈ ((View.whole main_v147).slice (win1_12.rect t)).set ↔ _
  rw [View.set_slice_whole, Rect.mem_set_unit]
  exact Iff.rfl

/-- Node r of the result lies in the block of point r / 4000, which is written back. -/
theorem cover (i : S2x100000x128.Idx) :
    ∃ t : Fin cfg1.N, (cfg1.win 12).flush t = true ∧ i ∈ ((cfg1.win 12).blk t).view.set := by
  have h0 : (i 0).val < 2 := (i 0).isLt
  have h1 : (i 1).val < 100000 := (i 1).isLt
  have h2 : (i 2).val < 128 := (i 2).isLt
  have hN : (i 1).val / 4000 < cfg1.N := by
    show (i 1).val / 4000 < grid1.N
    rw [N_1]; omega
  obtain ⟨-, -, -, -, -, -, -, -, -, e0, e1, e2⟩ := idx_rows ⟨(i 1).val / 4000, hN⟩
  have e1' : win1_12.index ⟨(i 1).val / 4000, hN⟩ (1 : Fin 3) = (i 1).val / 4000 := e1
  refine ⟨⟨(i 1).val / 4000, hN⟩, flush1_12 _, ?_⟩
  rw [mem_blk]
  intro a
  match a with
  | ⟨0, _⟩ => show win1_12.index _ (0 : Fin 3) * 2 ≤ (i 0).val ∧ (i 0).val < win1_12.index _ (0 : Fin 3) * 2 + 2; omega
  | ⟨1, _⟩ => show win1_12.index _ (1 : Fin 3) * 4000 ≤ (i 1).val ∧ (i 1).val < win1_12.index _ (1 : Fin 3) * 4000 + 4000; omega
  | ⟨2, _⟩ => show win1_12.index _ (2 : Fin 3) * 128 ≤ (i 2).val ∧ (i 2).val < win1_12.index _ (2 : Fin 3) * 128 + 128; omega

end Cert.KernelIdeal.Array1

end
-- ==== Proof.KernelArray1.lean ====
import proofs.«125976_j40492951666849_2_alg».proof.Proof.KernelArray1Blk
import proofs.«125976_j40492951666849_2_alg».proof.Proof.KernelArrayLocal

noncomputable section

namespace Cert.KernelIdeal.Array1

open Cert.KernelIdeal Cert.KernelIdeal.Gen Idealize.ShloMosaic Idealize.ShloMosaic.TcCoe Idealize.SL.Sem
open Idealize.ShloMosaic.ValueIdx
open Idealize.ShloMosaic.Pipeline (Dat)

/-! # Region 1: from the blocks to the whole array

  Given that the body's result on one block of 4000 nodes is the node update of that block ('hrow'), the array the region
  leaves is the node update of the whole arrays of 100000 nodes: each grid point writes back block t of that update
  (locality: output rows depend on the same rows of the node-blocked operands only, and row n of block t is row
  4000·t + n of the array), and the blocks cover the array. -/

variable (V : (c : Dev nD) → (b : Ref sig .tc) → Buf (Elt Ideal) ((c : Thread nD τ).loc b)) (c : Dev nD)

/-- What point t writes back is block t of the node update of the whole arrays. -/
theorem flushed_eq
    (hrow : ∀ (x0 x1 : Vec Ideal S2x4000x128 .f32) (x2 : Vec Ideal S4000x2 .f32) (x3 : Vec Ideal S2x4000x128 .f32) (x4 x5 : Vec Ideal S256x128 .f32) (x6 : Vec Ideal S1x256 .f32) (x7 : Vec Ideal S256x128 .f32) (x8 : Vec Ideal S128x256 .f32) (x9 x10 x11 : Vec Ideal S1x128 .f32),
      Gen.out1_12 (F := Ideal) x0 x1 x2 x3 x4 x5 x6 x7 x8 x9 x10 x11 = Cert.NodeSpec.arrK 4000 x0 x1 x2 x3 x4 x5 x6 x7 x8 x9 x10 x11)
    (t : Fin cfg1.N) :
    (Gen.dat1 (F := Ideal) V c).flushed 12 t
      = ((cfg1.win 12).blk t).view.read (Elt Ideal) (Cert.NodeSpec.arrK 100000 (V c main_v74) (V c main_v102) (V c main_v137) (V c main_arg1) (V c main_arg9) (V c main_arg12) (V c main_v143) (V c main_v114) (V c main_arg20) (V c main_v144) (V c main_v145) (V c main_v146)) := by
  show (cfg1.win 12).cut (grid1.coords t) ((Gen.dat1 (F := Ideal) V c).after 12 t) = _
  rw [after1_12, hrow]
  refine funext fun (j : S2x4000x128.Idx) => ?_
  obtain ⟨b, n, d, rfl⟩ : ∃ (b : Fin 2) (n : Fin 4000) (d : Fin 128), j = ix3 b n d := ⟨j 0, j 1, j 2, eq_ix3 j⟩
  show Cert.NodeSpec.arrK 4000 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (ix3 b n d)
    = Cert.NodeSpec.arrK 100000 (V c main_v74) (V c main_v102) (V c main_v137) (V c main_arg1) (V c main_arg9) (V c main_arg12) (V c main_v143) (V c main_v114) (V c main_arg20) (V c main_v144) (V c main_v145) (V c main_v146) (((cfg1.win 12).blk t).view.emb (ix3 b n d))
  rw [emb12]
  exact Cert.NodeSpec.arrK_row_congr n (row t n) _ _ _ _ _ _ _ _ _ _ _ _ _ _ _ _ _ _ _ _ _ _ _ _
    (blk0 V c t n) (blk1 V c t n) (blk2 V c t n) (blk3 V c t n) (blk4 V c t) (blk5 V c t) (blk6 V c t 0) (blk7 V c t)
    (blk8 V c t) (blk9 V c t 0) (blk10 V c t 0) (blk11 V c t 0) b d

/-- The array region 1 leaves is the node update of the arrays it finds. -/
theorem final
    (hrow : ∀ (x0 x1 : Vec Ideal S2x4000x128 .f32) (x2 : Vec Ideal S4000x2 .f32) (x3 : Vec Ideal S2x4000x128 .f32) (x4 x5 : Vec Ideal S256x128 .f32) (x6 : Vec Ideal S1x256 .f32) (x7 : Vec Ideal S256x128 .f32) (x8 : Vec Ideal S128x256 .f32) (x9 x10 x11 : Vec Ideal S1x128 .f32),
      Gen.out1_12 (F := Ideal) x0 x1 x2 x3 x4 x5 x6 x7 x8 x9 x10 x11 = Cert.NodeSpec.arrK 4000 x0 x1 x2 x3 x4 x5 x6 x7 x8 x9 x10 x11) :
    (Gen.dat1 (F := Ideal) V c).arrAt 12 cfg1.N
      = Cert.NodeSpec.arrK 100000 (V c main_v74) (V c main_v102) (V c main_v137) (V c main_arg1) (V c main_arg9) (V c main_arg12) (V c main_v143) (V c main_v114) (V c main_arg20) (V c main_v144) (V c main_v145) (V c main_v146) :=
  (Gen.dat1 (F := Ideal) V c).arrAt_eq_of_cover 12 (Cert.NodeSpec.arrK 100000 (V c main_v74) (V c main_v102) (V c main_v137) (V c main_arg1) (V c main_arg9) (V c main_arg12) (V c main_v143) (V c main_v114) (V c main_arg20) (V c main_v144) (V c main_v145) (V c main_v146))
    (fun t _ => flushed_eq V c hrow t) cover

end Cert.KernelIdeal.Array1

end
-- ==== Proof.KernelRow1Hidden.lean ====
/-
  The hidden rows of the second node type's block, read at one entry.

  The block's two aggregates are scaled by the per-node reciprocals (a column of the packed scales, repeated along the
  batch and the lanes), the stack [2, 4000, 128] is flattened to 8000 rows (row 4000·b + n), and each of the three row
  matrices is multiplied with a transposed weight [256, 128]; the three products are added and the bias row is added to
  every row. At row 4000·b + n and entry h this is the specification's hidden row of node (b, n) at h.
-/
import proofs.«125976_j40492951666849_2_alg».proof.Proof.Gen.KernelIdeal.Frame
import proofs.«125976_j40492951666849_2_alg».proof.Proof.NodeSpec
import proofs.«125976_j40492951666849_2_alg».proof.Proof.KernelRowLayout

noncomputable section

namespace Cert.KernelIdeal.Row1

open Idealize.ShloMosaic Idealize.ShloMosaic.ValueIdx Cert.KernelIdeal Cert.KernelIdeal.Gen Cert.KernelIdeal.RowLayout

/-- An aggregate scaled by its column of reciprocals, as 8000 rows. -/
def scaledRows (s : Vec Ideal S4000x1 .f32) (a : Vec Ideal S2x4000x128 .f32) : FVec Ideal S8000x128 .f32 :=
  shapeCast S8000x128
    (mulf (shapeCast S2x4000x128 a shapeCasts_S2x4000x128_S2x4000x128)
      (broadcastTo S2x4000x128
        (shapeCast S1x4000x1 (shapeCast S4000x1 s shapeCasts_S4000x1_S4000x1) shapeCasts_S4000x1_S1x4000x1)
        broadcasts_S1x4000x1_S2x4000x128))
    shapeCasts_S2x4000x128_S8000x128

/-- 8000 rows of 128 entries times a transposed weight [256, 128], from zero. -/
def rowsTimes (x : FVec Ideal S8000x128 .f32) (W : FVec Ideal S256x128 .f32) : FVec Ideal S8000x256 .f32 :=
  matmul dot_S8000x128_S128x256_S8000x256_1_0_0_1_n_n (some .fp32) x
    (transpose S128x256 [1, 0] W transposes_S256x128_p1_0_S128x256) (constant S8000x256 .f32 0x00000000#32)

/-- The hidden rows are the three products added, plus the bias row. -/
theorem pay2_eq (v0 v3 : Vec Ideal S4000x1 .f32) (v6 v11 v16 : Vec Ideal S2x4000x128 .f32)
    (v18 v19 v20 : Vec Ideal S256x128 .f32) (v30 : Vec Ideal S1x256 .f32) :
    k1_pay2 (F := Ideal) v0 v3 v6 v11 v16 v18 v19 v20 v30
      = addf (addf (addf (rowsTimes (scaledRows v0 v6) v18) (rowsTimes (scaledRows v3 v11) v19))
            (rowsTimes (shapeCast S8000x128 v16 shapeCasts_S2x4000x128_S8000x128)
              (shapeCast S256x128 v20 shapeCasts_S256x128_S256x128)))
          (broadcastTo S8000x256 (shapeCast S1x256 v30 shapeCasts_S1x256_S1x256) broadcasts_S1x256_S8000x256) := rfl

/-- A scaled aggregate at row 4000·b + n, entry d: the aggregate's entry times the node's reciprocal. -/
theorem scaledRows_apply (s : Vec Ideal S4000x1 .f32) (a : Vec Ideal S2x4000x128 .f32) (b : Fin 2) (n : Fin 4000)
    (d : Fin 128) (r : Fin 8000) (hr : r.val = b.val * 4000 + n.val) :
    scaledRows s a (ix2 r d) = a (ix3 b n d) * s (ix2 n (0 : Fin 1)) := by
  unfold scaledRows
  refine (flatten_apply _ _ r d b n hr).trans ?_
  rw [mulf_apply, shapeCast_self, shapeCast_self]
  refine congrArg (a (ix3 b n d) * ·) ?_
  refine (spread_1b1_apply _ _ b n d).trans ?_
  exact shapeCast_ab_1ab_apply s _ (0 : Fin 1) n (0 : Fin 1)

/-- A product with a transposed weight at (r, h): the sum over d of the row's entry d times the weight's entry (h, d). -/
theorem rowsTimes_apply (x : FVec Ideal S8000x128 .f32) (W : FVec Ideal S256x128 .f32) (r : Fin 8000) (h : Fin 256) :
    rowsTimes x W (ix2 r h) = ∑ d : Fin 128, x (ix2 r d) * W (ix2 h d) := by
  unfold rowsTimes
  refine (matmul_apply2 dot_S8000x128_S128x256_S8000x256_1_0_0_1_n_n rfl rfl rfl rfl (fun _ _ => rfl) (fun _ _ => rfl)
    (some .fp32) x _ r h).trans ?_
  exact Finset.sum_congr rfl fun d _ => congrArg (x (ix2 r d) * ·) (transpose_ix2_apply W _ d h)

/-- The hidden rows at row 4000·b + n, entry h: the specification's hidden row of node (b, n). -/
theorem pay2_apply (v0 v3 : Vec Ideal S4000x1 .f32) (v6 v11 v16 : Vec Ideal S2x4000x128 .f32)
    (v18 v19 v20 : Vec Ideal S256x128 .f32) (v30 : Vec Ideal S1x256 .f32) (b : Fin 2) (n : Fin 4000) (r : Fin 8000)
    (hr : r.val = b.val * 4000 + n.val) (h : Fin 256) :
    k1_pay2 (F := Ideal) v0 v3 v6 v11 v16 v18 v19 v20 v30 (ix2 r h)
      = Cert.NodeSpec.hiddenK (fun d => v6 (ix3 b n d)) (fun d => v11 (ix3 b n d)) (fun d => v16 (ix3 b n d))
          (v0 (ix2 n (0 : Fin 1))) (v3 (ix2 n (0 : Fin 1)))
          (fun h d => v18 (ix2 h d)) (fun h d => v19 (ix2 h d)) (fun h d => v20 (ix2 h d))
          (fun h => v30 (ix2 (0 : Fin 1) h)) h := by
  rw [pay2_eq]
  unfold Cert.NodeSpec.hiddenK
  rw [addf_apply, addf_apply, addf_apply, rowsTimes_apply, rowsTimes_apply, rowsTimes_apply, shapeCast_self,
    shapeCast_self]
  refine congrArg₂ (· + ·) (congrArg₂ (· + ·) (congrArg₂ (· + ·) ?_ ?_) ?_) ?_
  · exact Finset.sum_congr rfl fun d _ => congrArg (· * v18 (ix2 h d)) (scaledRows_apply v0 v6 b n d r hr)
  · exact Finset.sum_congr rfl fun d _ => congrArg (· * v19 (ix2 h d)) (scaledRows_apply v3 v11 b n d r hr)
  · exact Finset.sum_congr rfl fun d _ => congrArg (· * v20 (ix2 h d)) (flatten_apply v16 _ r d b n hr)
  · exact broadcastTo_1b_ab_apply v30 _ r h

end Cert.KernelIdeal.Row1

end
-- ==== Proof.KernelRow1Norm.lean ====
/-
  The projection and the layer norm of the second node type's block, read at one entry.

  From 8000 hidden rows of 256 entries: each row times the transposed projection weight [128, 256] plus the bias row;
  then, row by row, the mean (the sum of the 128 entries divided by 128), the centred row, the mean of its squares plus
  epsilon, the reciprocal root, the gain row and the offset row; the 8000 rows are cut back into [2, 4000, 128]. At
  (b, n, d) this is the specification's output row of the hidden row 4000·b + n, at d.
-/
import proofs.«125976_j40492951666849_2_alg».proof.Proof.Gen.KernelIdeal.Frame
import proofs.«125976_j40492951666849_2_alg».proof.Proof.NodeSpec
import proofs.«125976_j40492951666849_2_alg».proof.Proof.KernelRowLayout

noncomputable section

namespace Cert.KernelIdeal.Row1

open Idealize.ShloMosaic Idealize.ShloMosaic.ValueIdx Cert.KernelIdeal Cert.KernelIdeal.Gen Cert.KernelIdeal.RowLayout

/-- The projected rows: hidden rows times the transposed projection weight, plus the bias row. -/
def projRows (u : FVec Ideal S8000x256 .f32) (Wp : FVec Ideal S128x256 .f32) (bp : FVec Ideal S1x128 .f32) :
    FVec Ideal S8000x128 .f32 :=
  addf
    (matmul dot_S8000x256_S256x128_S8000x128_1_0_0_1_n_n (some .fp32) u
      (transpose S256x128 [1, 0] Wp transposes_S128x256_p1_0_S256x128) (constant S8000x128 .f32 0x00000000#32))
    (broadcastTo S8000x128 (shapeCast S1x128 bp shapeCasts_S1x128_S1x128) broadcasts_S1x128_S8000x128)

/-- The column of row means: each row's sum divided by 128. -/
def rowMean (p : FVec Ideal S8000x128 .f32) : FVec Ideal S8000x1 .f32 :=
  divf
    (shapeCast S8000x1 (multiReduction .add [1] S8000 p 0x00000000#32 reduces_S8000x128_S8000 (.inl rfl) rfl)
      shapeCasts_S8000_S8000x1)
    (broadcast S8000x1 (Scalar.ofBits .f32 0x43000000#32))

/-- The rows with their means taken off. -/
def centred (p : FVec Ideal S8000x128 .f32) : FVec Ideal S8000x128 .f32 :=
  subf p (broadcastTo S8000x128 (rowMean p) broadcasts_S8000x1_S8000x128)

/-- The normalised rows: centred, times the reciprocal root of the mean square plus epsilon, gain, offset. -/
def normRows (p : FVec Ideal S8000x128 .f32) (g beta : FVec Ideal S1x128 .f32) : FVec Ideal S8000x128 .f32 :=
  addf
    (mulf
      (mulf (centred p)
        (broadcastTo S8000x128
          (rsqrt (addf (rowMean (mulf (centred p) (centred p))) (broadcast S8000x1 (Scalar.ofBits .f32 0x3727C5AC#32))))
          broadcasts_S8000x1_S8000x128))
      (broadcastTo S8000x128 (shapeCast S1x128 g shapeCasts_S1x128_S1x128) broadcasts_S1x128_S8000x128))
    (broadcastTo S8000x128 (shapeCast S1x128 beta shapeCasts_S1x128_S1x128) broadcasts_S1x128_S8000x128)

/-- The stored block is the normalised projected rows, cut into [2, 4000, 128]. -/
theorem pay1_eq (u : FVec Ideal S8000x256 .f32) (Wp : FVec Ideal S128x256 .f32) (bp g beta : FVec Ideal S1x128 .f32) :
    k1_pay1 (F := Ideal) u Wp bp g beta
      = shapeCast S2x4000x128 (normRows (projRows u Wp bp) g beta) shapeCasts_S8000x128_S2x4000x128 := rfl

/-- A projected row at entry e is the specification's projection of the hidden row. -/
theorem projRows_apply (u : FVec Ideal S8000x256 .f32) (Wp : FVec Ideal S128x256 .f32) (bp : FVec Ideal S1x128 .f32)
    (r : Fin 8000) (e : Fin 128) :
    projRows u Wp bp (ix2 r e)
      = Cert.NodeSpec.proj (fun h => u (ix2 r h)) (fun d h => Wp (ix2 d h)) (fun d => bp (ix2 (0 : Fin 1) d)) e := by
  unfold projRows Cert.NodeSpec.proj
  rw [addf_apply, shapeCast_self]
  refine congrArg₂ (· + ·) ?_ (broadcastTo_1b_ab_apply bp _ r e)
  refine (matmul_apply2 dot_S8000x256_S256x128_S8000x128_1_0_0_1_n_n rfl rfl rfl rfl (fun _ _ => rfl) (fun _ _ => rfl)
    (some .fp32) u _ r e).trans ?_
  exact Finset.sum_congr rfl fun h _ => congrArg (u (ix2 r h) * ·) (transpose_ix2_apply Wp _ h e)

/-- The mean column at row r is the specification's mean of the row. -/
theorem rowMean_apply (p : FVec Ideal S8000x128 .f32) (r : Fin 8000) :
    rowMean p (ix2 r (0 : Fin 1)) = Cert.NodeSpec.mean (fun e => p (ix2 r e)) := by
  unfold rowMean Cert.NodeSpec.mean
  rw [divf_apply, broadcast_apply]
  refine congrArg₂ Ideal.div ?_ rfl
  exact (column_apply _ _ r (0 : Fin 1)).trans (rowSum_apply p _ _ _ r)

/-- A centred row's entry: the entry less the row's mean. -/
theorem centred_apply (p : FVec Ideal S8000x128 .f32) (r : Fin 8000) (e : Fin 128) :
    centred p (ix2 r e) = p (ix2 r e) - Cert.NodeSpec.mean (fun e => p (ix2 r e)) := by
  unfold centred
  rw [subf_apply]
  exact congrArg (p (ix2 r e) - ·) ((spread_a1_apply _ _ r e).trans (rowMean_apply p r))

/-- A normalised row at entry d is the specification's layer norm of the row. -/
theorem normRows_apply (p : FVec Ideal S8000x128 .f32) (g beta : FVec Ideal S1x128 .f32) (r : Fin 8000) (d : Fin 128) :
    normRows p g beta (ix2 r d)
      = Cert.NodeSpec.lnorm (fun e => p (ix2 r e)) (fun d => g (ix2 (0 : Fin 1) d)) (fun d => beta (ix2 (0 : Fin 1) d)) d := by
  unfold normRows Cert.NodeSpec.lnorm
  rw [addf_apply, mulf_apply, mulf_apply, shapeCast_self, shapeCast_self, centred_apply]
  refine congrArg₂ (· + ·) (congrArg₂ (· * ·) (congrArg₂ (· * ·) rfl ?_) (broadcastTo_1b_ab_apply g _ r d))
    (broadcastTo_1b_ab_apply beta _ r d)
  refine (spread_a1_apply _ _ r d).trans ?_
  show Ideal.rsqrt (rowMean (mulf (centred p) (centred p)) (ix2 r (0 : Fin 1)) + Ideal.ofBits .f32 0x3727C5AC#32) = _
  rw [rowMean_apply]
  refine congrArg (fun m => Ideal.rsqrt (Cert.NodeSpec.mean m + Cert.NodeSpec.eps)) (funext fun e => ?_)
  rw [mulf_apply, centred_apply]

/-- The stored block at (b, n, d): the specification's output row of hidden row 4000·b + n, at d. -/
theorem pay1_apply (u : FVec Ideal S8000x256 .f32) (Wp : FVec Ideal S128x256 .f32) (bp g beta : FVec Ideal S1x128 .f32)
    (b : Fin 2) (n : Fin 4000) (d : Fin 128) (r : Fin 8000) (hr : r.val = b.val * 4000 + n.val) :
    k1_pay1 (F := Ideal) u Wp bp g beta (ix3 b n d)
      = Cert.NodeSpec.out (fun h => u (ix2 r h)) (fun d h => Wp (ix2 d h)) (fun d => bp (ix2 (0 : Fin 1) d))
          (fun d => g (ix2 (0 : Fin 1) d)) (fun d => beta (ix2 (0 : Fin 1) d)) d := by
  rw [pay1_eq]
  refine (unflatten_apply _ _ b n d r hr).trans ?_
  refine (normRows_apply _ g beta r d).trans ?_
  unfold Cert.NodeSpec.out
  exact congrArg (fun p => Cert.NodeSpec.lnorm p _ _ d) (funext fun e => projRows_apply u Wp bp r e)

end Cert.KernelIdeal.Row1

end
-- ==== Proof.KernelRow1.lean ====
/-
  The second node type's block after the body, as one function of the blocks the body reads.

  The body stores once, over the whole block, and reads every operand whole except the packed scales, whose two columns
  it reads apart. So the stored block at (b, n, d) is the layer-normed projection of the hidden row 4000·b + n, which is
  the specification's hidden row of node (b, n) with the node's two scales read from the two columns.
-/
import proofs.«125976_j40492951666849_2_alg».proof.Proof.Gen.KernelIdeal.Frame
import proofs.«125976_j40492951666849_2_alg».proof.Proof.NodeSpec
import proofs.«125976_j40492951666849_2_alg».proof.Proof.KernelRowLayout
import proofs.«125976_j40492951666849_2_alg».proof.Proof.KernelRow1Hidden
import proofs.«125976_j40492951666849_2_alg».proof.Proof.KernelRow1Norm

noncomputable section

namespace Cert.KernelIdeal.Row1

open Idealize.ShloMosaic Idealize.ShloMosaic.ValueIdx Cert.KernelIdeal Cert.KernelIdeal.Gen Cert.KernelIdeal.RowLayout

/-- The zero offsets of a whole rank-3 window. -/
theorem zero3 : (![0, 0, 0] : Fin 3 → Nat) = fun _ => 0 := funext fun a => by fin_cases a <;> rfl
/-- The zero offsets of a whole rank-2 window. -/
theorem zero2 : (![0, 0] : Fin 2 → Nat) = fun _ => 0 := funext fun a => by fin_cases a <;> rfl

/-- The block the body leaves is the specification's array on the block's operands. -/
theorem out1_12_eq (x0 x1 : Vec Ideal S2x4000x128 .f32) (x2 : Vec Ideal S4000x2 .f32) (x3 : Vec Ideal S2x4000x128 .f32)
    (x4 x5 : Vec Ideal S256x128 .f32) (x6 : Vec Ideal S1x256 .f32) (x7 : Vec Ideal S256x128 .f32)
    (x8 : Vec Ideal S128x256 .f32) (x9 x10 x11 : Vec Ideal S1x128 .f32) :
    Cert.KernelIdeal.Gen.out1_12 (F := Ideal) x0 x1 x2 x3 x4 x5 x6 x7 x8 x9 x10 x11
      = Cert.NodeSpec.arrK 4000 x0 x1 x2 x3 x4 x5 x6 x7 x8 x9 x10 x11 := by
  unfold out1_12
  rw [View.canon_unit_zero zero3]
  simp only [View.ld_unit_zero (S := S2x4000x128) zero3, View.ld_unit_zero (S := S256x128) zero2,
    View.ld_unit_zero (S := S1x256) zero2, View.ld_unit_zero (S := S128x256) zero2,
    View.ld_unit_zero (S := S1x128) zero2]
  funext i
  obtain ⟨b, n, d, rfl⟩ : ∃ (b : Fin 2) (n : Fin 4000) (d : Fin 128), i = ix3 b n d := ⟨i 0, i 1, i 2, eq_ix3 i⟩
  have hb := b.isLt
  have hn := n.isLt
  refine (pay1_apply _ x8 x9 x10 x11 b n d ⟨b.val * 4000 + n.val, by omega⟩ rfl).trans ?_
  show Cert.NodeSpec.out _ _ _ _ _ d = Cert.NodeSpec.out _ _ _ _ _ d
  refine congrArg (fun u => Cert.NodeSpec.out u _ _ _ _ d) (funext fun h => ?_)
  refine (pay2_apply _ _ x0 x1 x3 x4 x5 x7 x6 b n _ rfl h).trans ?_
  exact congrArg₂ (fun s1 s2 => Cert.NodeSpec.hiddenK _ _ _ s1 s2 _ _ _ _ h)
    (column_window_apply x2 (0 : Fin 2) _ n (0 : Fin 1)) (column_window_apply x2 (1 : Fin 2) _ n (0 : Fin 1))

end Cert.KernelIdeal.Row1

end
-- ==== Proof.KernelOut2.lean ====
/-
  The idealized kernel program's second result, the update of the node type with 100000 nodes, as the specification's whole-array
  function of the program's arguments: the fused call's output array is the block-by-block node update of the twelve
  arrays the call is handed (the call's grid tiles the node axis; each block is computed from its own rows only), and
  those arrays are the host's aggregates, packed reciprocal degrees, merged weights and reshaped rows.  In the second
  statement the same array is put in the reference's arrangement by the law of the two arrangements.
-/
import proofs.«125976_j40492951666849_2_alg».proof.Proof.KernelRun
import proofs.«125976_j40492951666849_2_alg».proof.Proof.KernelHost1
import proofs.«125976_j40492951666849_2_alg».proof.Proof.KernelHostRead
import proofs.«125976_j40492951666849_2_alg».proof.Proof.KernelArray1
import proofs.«125976_j40492951666849_2_alg».proof.Proof.KernelRow1
import proofs.«125976_j40492951666849_2_alg».proof.Proof.NodeLaw

set_option maxRecDepth 16384

noncomputable section

namespace Cert.KernelIdeal.Out2

open Cert.KernelIdeal Cert.KernelIdeal.Gen Cert.KernelIdeal.HostVal Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg)

/-- The result buffer after the run holds the node update, in the fused call's arrangement, of the host-built operands. -/
theorem value_K (c : Dev nD) : W4 m ρ c (Proc.devRef .tc main_v147)
    = Cert.NodeSpec.arrK 100000 (aggSurf (m ((c : Thread nD τ).loc main_arg1)) (m ((c : Thread nD τ).loc main_arg3))) (aggC2 (m ((c : Thread nD τ).loc main_arg0)) (m ((c : Thread nD τ).loc main_arg4)))
        (invPack100000 (cntSurf (m ((c : Thread nD τ).loc main_arg3))) (cntC2 (m ((c : Thread nD τ).loc main_arg4)))) (m ((c : Thread nD τ).loc main_arg1)) (m ((c : Thread nD τ).loc main_arg9)) (m ((c : Thread nD τ).loc main_arg12))
        (shapeCast S1x256 (addf (m ((c : Thread nD τ).loc main_arg10)) (m ((c : Thread nD τ).loc main_arg13)) : FVec Ideal S256 .f32) shapeCasts_S256_S1x256) (addf (m ((c : Thread nD τ).loc main_arg11)) (m ((c : Thread nD τ).loc main_arg14)) : FVec Ideal S256x128 .f32) (m ((c : Thread nD τ).loc main_arg20))
        (shapeCast S1x128 (m ((c : Thread nD τ).loc main_arg21)) shapeCasts_S128_S1x128) (shapeCast S1x128 (m ((c : Thread nD τ).loc main_arg24)) shapeCasts_S128_S1x128) (shapeCast S1x128 (m ((c : Thread nD τ).loc main_arg25)) shapeCasts_S128_S1x128) := by
  have e4 : W4 m ρ c (Proc.devRef .tc main_v147) = (dat1 (V3 m ρ) c).arrAt 12 cfg1.N := W4_arr m ρ c 12
  refine e4.trans ((Cert.KernelIdeal.Array1.final (V3 m ρ) c Cert.KernelIdeal.Row1.out1_12_eq).trans ?_)
  show Cert.NodeSpec.arrK 100000 (W3 m ρ c (Proc.devRef .tc main_v74)) (W3 m ρ c (Proc.devRef .tc main_v102)) (W3 m ρ c (Proc.devRef .tc main_v137)) (W3 m ρ c (Proc.devRef .tc main_arg1)) (W3 m ρ c (Proc.devRef .tc main_arg9)) (W3 m ρ c (Proc.devRef .tc main_arg12)) (W3 m ρ c (Proc.devRef .tc main_v143)) (W3 m ρ c (Proc.devRef .tc main_v114)) (W3 m ρ c (Proc.devRef .tc main_arg20)) (W3 m ρ c (Proc.devRef .tc main_v144)) (W3 m ρ c (Proc.devRef .tc main_v145)) (W3 m ρ c (Proc.devRef .tc main_v146)) = _
  rw [W3_v74 m ρ c, W3_v102 m ρ c, W3_v137 m ρ c, W3_arg1 m ρ c, W3_arg9 m ρ c, W3_arg12 m ρ c, W3_v143 m ρ c, W3_v114 m ρ c, W3_arg20 m ρ c, W3_v144 m ρ c, W3_v145 m ρ c, W3_v146 m ρ c]

/-- The same array in the reference's arrangement: division by the clamped degrees, the two SAGE terms added.  The
    features and the two self-weights are real. -/
theorem value_R (c : Dev nD) (hz : ∀ i, ∃ r : ℝ, m ((c : Thread nD τ).loc main_arg1) i = (r : EReal))
    (hw1 : ∀ i, ∃ r : ℝ, m ((c : Thread nD τ).loc main_arg11) i = (r : EReal)) (hw2 : ∀ i, ∃ r : ℝ, m ((c : Thread nD τ).loc main_arg14) i = (r : EReal)) :
    W4 m ρ c (Proc.devRef .tc main_v147)
    = Cert.NodeSpec.arrR 100000 (aggSurf (m ((c : Thread nD τ).loc main_arg1)) (m ((c : Thread nD τ).loc main_arg3))) (aggC2 (m ((c : Thread nD τ).loc main_arg0)) (m ((c : Thread nD τ).loc main_arg4)))
        (maximumf (cntSurf (m ((c : Thread nD τ).loc main_arg3))) (broadcastInDim S100000 ![] bcast_S_S100000 (constant (F := Ideal) S_ .f32 0x3F800000#32))) (maximumf (cntC2 (m ((c : Thread nD τ).loc main_arg4))) (broadcastInDim S100000 ![] bcast_S_S100000 (constant (F := Ideal) S_ .f32 0x3F800000#32)))
        (m ((c : Thread nD τ).loc main_arg1)) (m ((c : Thread nD τ).loc main_arg9)) (m ((c : Thread nD τ).loc main_arg12)) (m ((c : Thread nD τ).loc main_arg11)) (m ((c : Thread nD τ).loc main_arg14)) (m ((c : Thread nD τ).loc main_arg10)) (m ((c : Thread nD τ).loc main_arg13)) (m ((c : Thread nD τ).loc main_arg20)) (m ((c : Thread nD τ).loc main_arg21)) (m ((c : Thread nD τ).loc main_arg24)) (m ((c : Thread nD τ).loc main_arg25)) := by
  rw [value_K m ρ c]
  apply Cert.NodeSpec.arrK_eq_arrR
  · exact fun n => invPack100000_col0 _ _ n
  · exact fun n => invPack100000_col1 _ _ n
  · exact fun n => clamp100000_ne_zero _ n
  · exact fun n => clamp100000_ne_zero _ n
  · exact fun h d => rfl
  · exact fun h => row256_apply _ _ h
  · exact fun d => row128_apply _ _ d
  · exact fun d => row128_apply _ _ d
  · exact fun d => row128_apply _ _ d
  · exact hz
  · exact hw1
  · exact hw2

end Cert.KernelIdeal.Out2

end
-- ==== Proof.RefNode1Def.lean ====
import proofs.«125976_j40492951666849_2_alg».proof.Proof.Gen.ReferenceIdeal.Run
import proofs.«125976_j40492951666849_2_alg».proof.Proof.NodeSpec

noncomputable section

namespace Cert.ReferenceIdeal.RefNode

open Cert.ReferenceIdeal Cert.ReferenceIdeal.Gen Cert.ReferenceIdeal.Value Idealize.ShloMosaic Idealize.ShloMosaic.TcCoe Idealize.SL.Sem Idealize.ShloMosaic.StableHlo

variable {F : FTy → Type} [FloatOps F]

/-! The reference's update of the node type with 20000 nodes, as one function of its arrays.

The two neighbour aggregates (sums of gathered source rows scattered onto their destination rows) and the two in-degree
counts (ones scattered onto the destinations) are named and never opened: everything after them is the float part —
mean by the clamped degree, the two SAGE terms, the projection, the layer norm. -/

/-- The first relation's aggregate: the gathered source rows scatter-added into zeros [2, 20000, 128]. -/
def aggPipe (V0 : Valuation τ sig (Elt F)) : FVec F S2x20000x128 .f32 :=
  Host.scatterAdd scatter_S2x20000x128_S160000x1_S2x160000x128_02_1_1_1 (broadcastInDim S2x20000x128 ![] bcast_S_S2x20000x128 (constant S_ .f32 0x00000000#32)) (broadcastInDim S160000x1 ![0] bcast_S160000_S160000x1_0 (select (cmpi .slt (res_main_v3 V0) (broadcastInDim S160000 ![] bcast_S_S160000 (constantI S_ 32 0#32))) (addi (res_main_v3 V0) (broadcastInDim S160000 ![] bcast_S_S160000 (constantI S_ 32 20000#32))) (res_main_v3 V0))) (Host.gather gather_S2x20000x128_S160000x1_S2x160000x128_02_1_n_n_1_1_21128 (V0 (Proc.devRef .tc main_arg0)) (broadcastInDim S160000x1 ![0] bcast_S160000_S160000x1_0 (select (cmpi .slt (res_main_v1 V0) (broadcastInDim S160000 ![] bcast_S_S160000 (constantI S_ 32 0#32))) (addi (res_main_v1 V0) (broadcastInDim S160000 ![] bcast_S_S160000 (constantI S_ 32 20000#32))) (res_main_v1 V0))))

/-- The first relation's in-degrees: ones scatter-added into zeros [20000]. -/
def cntPipe (V0 : Valuation τ sig (Elt F)) : FVec F S20000 .f32 :=
  Host.scatterAdd scatter_S20000_S160000x1_S160000_n_0_0_1 (broadcastInDim S20000 ![] bcast_S_S20000 (constant S_ .f32 0x00000000#32)) (broadcastInDim S160000x1 ![0] bcast_S160000_S160000x1_0 (select (cmpi .slt (res_main_v3 V0) (broadcastInDim S160000 ![] bcast_S_S160000 (constantI S_ 32 0#32))) (addi (res_main_v3 V0) (broadcastInDim S160000 ![] bcast_S_S160000 (constantI S_ 32 20000#32))) (res_main_v3 V0))) (broadcastInDim S160000 ![] bcast_S_S160000 (constant S_ .f32 0x3F800000#32))

/-- The second relation's aggregate. -/
def aggCf (V0 : Valuation τ sig (Elt F)) : FVec F S2x20000x128 .f32 :=
  Host.scatterAdd scatter_S2x20000x128_S40000x1_S2x40000x128_02_1_1_1 (broadcastInDim S2x20000x128 ![] bcast_S_S2x20000x128 (constant S_ .f32 0x00000000#32)) (broadcastInDim S40000x1 ![0] bcast_S40000_S40000x1_0 (select (cmpi .slt (res_main_v42 V0) (broadcastInDim S40000 ![] bcast_S_S40000 (constantI S_ 32 0#32))) (addi (res_main_v42 V0) (broadcastInDim S40000 ![] bcast_S_S40000 (constantI S_ 32 20000#32))) (res_main_v42 V0))) (Host.gather gather_S2x100000x128_S40000x1_S2x40000x128_02_1_n_n_1_1_21128 (V0 (Proc.devRef .tc main_arg1)) (broadcastInDim S40000x1 ![0] bcast_S40000_S40000x1_0 (select (cmpi .slt (res_main_v40 V0) (broadcastInDim S40000 ![] bcast_S_S40000 (constantI S_ 32 0#32))) (addi (res_main_v40 V0) (broadcastInDim S40000 ![] bcast_S_S40000 (constantI S_ 32 100000#32))) (res_main_v40 V0))))

/-- The second relation's in-degrees. -/
def cntCf (V0 : Valuation τ sig (Elt F)) : FVec F S20000 .f32 :=
  Host.scatterAdd scatter_S20000_S40000x1_S40000_n_0_0_1 (broadcastInDim S20000 ![] bcast_S_S20000 (constant S_ .f32 0x00000000#32)) (broadcastInDim S40000x1 ![0] bcast_S40000_S40000x1_0 (select (cmpi .slt (res_main_v42 V0) (broadcastInDim S40000 ![] bcast_S_S40000 (constantI S_ 32 0#32))) (addi (res_main_v42 V0) (broadcastInDim S40000 ![] bcast_S_S40000 (constantI S_ 32 20000#32))) (res_main_v42 V0))) (broadcastInDim S40000 ![] bcast_S_S40000 (constant S_ .f32 0x3F800000#32))

/-- The hidden array [2, 20000, 256]: for each relation, (aggregate / max(degree, 1)) · Wlᵀ + bl + z · Wrᵀ; the two added. -/
def hiddenArr1 (agg1 agg2 : FVec F S2x20000x128 .f32) (cnt1 cnt2 : FVec F S20000 .f32) (z : FVec F S2x20000x128 .f32)
    (Wl1 Wl2 Wr1 Wr2 : FVec F S256x128 .f32) (bl1 bl2 : FVec F S256 .f32) : FVec F S2x20000x256 .f32 :=
  addf (addf (addf (Host.dotGeneral dot_S2x20000x128_S256x128_S2x20000x256_2_1_01_0_n_n none (Host.divf agg1 (broadcastInDim S2x20000x128 ![0, 1, 2] bcast_S1x20000x1_S2x20000x128_0_1_2 (broadcastInDim S1x20000x1 ![1] bcast_S20000_S1x20000x1_1 (maximumf cnt1 (broadcastInDim S20000 ![] bcast_S_S20000 (constant S_ .f32 0x3F800000#32)))))) Wl1) (broadcastInDim S2x20000x256 ![0, 1, 2] bcast_S1x1x256_S2x20000x256_0_1_2 (broadcastInDim S1x1x256 ![2] bcast_S256_S1x1x256_2 bl1))) (Host.dotGeneral dot_S2x20000x128_S256x128_S2x20000x256_2_1_01_0_n_n none z Wr1)) (addf (addf (Host.dotGeneral dot_S2x20000x128_S256x128_S2x20000x256_2_1_01_0_n_n none (Host.divf agg2 (broadcastInDim S2x20000x128 ![0, 1, 2] bcast_S1x20000x1_S2x20000x128_0_1_2 (broadcastInDim S1x20000x1 ![1] bcast_S20000_S1x20000x1_1 (maximumf cnt2 (broadcastInDim S20000 ![] bcast_S_S20000 (constant S_ .f32 0x3F800000#32)))))) Wl2) (broadcastInDim S2x20000x256 ![0, 1, 2] bcast_S1x1x256_S2x20000x256_0_1_2 (broadcastInDim S1x1x256 ![2] bcast_S256_S1x1x256_2 bl2))) (Host.dotGeneral dot_S2x20000x128_S256x128_S2x20000x256_2_1_01_0_n_n none z Wr2))

/-- The projection back to 128 entries: u · Wpᵀ + bp. -/
def projArr1 (u : FVec F S2x20000x256 .f32) (Wp : FVec F S128x256 .f32) (bp : FVec F S128 .f32) : FVec F S2x20000x128 .f32 :=
  addf (Host.dotGeneral dot_S2x20000x256_S128x256_S2x20000x128_2_1_01_0_n_n none u Wp) (broadcastInDim S2x20000x128 ![0, 1, 2] bcast_S1x1x128_S2x20000x128_0_1_2 (broadcastInDim S1x1x128 ![2] bcast_S128_S1x1x128_2 bp))

/-- The row means [2, 20000, 1]: the sum over the last axis divided by 128. -/
def meanArr1 (p : FVec F S2x20000x128 .f32) : FVec F S2x20000x1 .f32 :=
  Host.divf (broadcastInDim S2x20000x1 ![0, 1] bcast_S2x20000_S2x20000x1_0_1 (Host.reduceAdd p (constant S_ .f32 0x00000000#32) reducesTo_S2x20000x128_S2x20000_d2 h_S_)) (broadcastInDim S2x20000x1 ![] bcast_S_S2x20000x1 (constant S_ .f32 0x43000000#32))

/-- A row less its mean, entry by entry. -/
def centreArr1 (p : FVec F S2x20000x128 .f32) : FVec F S2x20000x128 .f32 :=
  subf p (broadcastInDim S2x20000x128 ![0, 1, 2] bcast_S2x20000x1_S2x20000x128_0_1_2 (meanArr1 p))

/-- The layer norm over the last axis: centred, times the reciprocal root of (variance + epsilon), gain, offset. -/
def normArr1 (p : FVec F S2x20000x128 .f32) (g beta : FVec F S128 .f32) : FVec F S2x20000x128 .f32 :=
  addf (mulf (mulf (centreArr1 p) (broadcastInDim S2x20000x128 ![0, 1, 2] bcast_S2x20000x1_S2x20000x128_0_1_2 (Host.rsqrt (addf (meanArr1 (mulf (centreArr1 p) (centreArr1 p))) (broadcastInDim S2x20000x1 ![] bcast_S_S2x20000x1 (constant S_ .f32 0x3727C5AC#32)))))) (broadcastInDim S2x20000x128 ![0, 1, 2] bcast_S1x1x128_S2x20000x128_0_1_2 (broadcastInDim S1x1x128 ![2] bcast_S128_S1x1x128_2 g))) (broadcastInDim S2x20000x128 ![0, 1, 2] bcast_S1x1x128_S2x20000x128_0_1_2 (broadcastInDim S1x1x128 ![2] bcast_S128_S1x1x128_2 beta))

/-- The whole update of this node type from the aggregates, the degree counts, the features and the weights. -/
def node1 (agg1 agg2 : FVec F S2x20000x128 .f32) (cnt1 cnt2 : FVec F S20000 .f32) (z : FVec F S2x20000x128 .f32)
    (Wl1 Wl2 Wr1 Wr2 : FVec F S256x128 .f32) (bl1 bl2 : FVec F S256 .f32) (Wp : FVec F S128x256 .f32)
    (bp g beta : FVec F S128 .f32) : FVec F S2x20000x128 .f32 :=
  normArr1 (projArr1 (hiddenArr1 agg1 agg2 cnt1 cnt2 z Wl1 Wl2 Wr1 Wr2 bl1 bl2) Wp bp) g beta

/-- The term the reference's run leaves in its result is this function of the launch contents. -/
theorem v185_eq (V0 : Valuation τ sig (Elt F)) :
    addf (mulf (mulf (subf (res_main_v161 V0) (broadcastInDim S2x20000x128 ![0, 1, 2] bcast_S2x20000x1_S2x20000x128_0_1_2 (res_main_v165 V0))) (broadcastInDim S2x20000x128 ![0, 1, 2] bcast_S2x20000x1_S2x20000x128_0_1_2 (Host.rsqrt (addf (Host.divf (broadcastInDim S2x20000x1 ![0, 1] bcast_S2x20000_S2x20000x1_0_1 (Host.reduceAdd (mulf (res_main_v167 V0) (res_main_v167 V0)) (constant S_ .f32 0x00000000#32) reducesTo_S2x20000x128_S2x20000_d2 h_S_)) (broadcastInDim S2x20000x1 ![] bcast_S_S2x20000x1 (constant S_ .f32 0x43000000#32))) (broadcastInDim S2x20000x1 ![] bcast_S_S2x20000x1 (constant S_ .f32 0x3727C5AC#32)))))) (broadcastInDim S2x20000x128 ![0, 1, 2] bcast_S1x1x128_S2x20000x128_0_1_2 (broadcastInDim S1x1x128 ![2] bcast_S128_S1x1x128_2 (V0 (Proc.devRef .tc main_arg22))))) (broadcastInDim S2x20000x128 ![0, 1, 2] bcast_S1x1x128_S2x20000x128_0_1_2 (broadcastInDim S1x1x128 ![2] bcast_S128_S1x1x128_2 (V0 (Proc.devRef .tc main_arg23))))
      = node1 (aggPipe V0) (aggCf V0) (cntPipe V0) (cntCf V0) (V0 (Proc.devRef .tc main_arg0)) (V0 (Proc.devRef .tc main_arg6)) (V0 (Proc.devRef .tc main_arg15)) (V0 (Proc.devRef .tc main_arg8)) (V0 (Proc.devRef .tc main_arg17)) (V0 (Proc.devRef .tc main_arg7)) (V0 (Proc.devRef .tc main_arg16)) (V0 (Proc.devRef .tc main_arg18)) (V0 (Proc.devRef .tc main_arg19)) (V0 (Proc.devRef .tc main_arg22)) (V0 (Proc.devRef .tc main_arg23)) := by
  unfold res_main_v167 res_main_v165 res_main_v161 res_main_v158
  rfl

end Cert.ReferenceIdeal.RefNode

end
-- ==== Proof.RefNodeOps.lean ====
import Idealize.ShloMosaic.PureOps.Ideal.Laws
import Idealize.ShloMosaic.Lib.ValueIdx
import Idealize.ShloMosaic.Lib.IdealHost
import Idealize.ShloMosaic.Lib.Pipeline.Value

noncomputable section

/-! The array operations of a node update read at one index, for any extents G (batch), N (nodes), K (the contracted or
    reduced width) and H (the produced width): a product of every row [G, N, K] with a weight matrix [H, K] along K, the
    sum of a row, and the five ways a smaller array is laid over a larger one (a scalar everywhere, a per-node value along
    the batch and the row, a per-row value along the row, a vector along every row, a row's value kept as a unit axis). -/

namespace Cert.RefNodeOps

open Idealize.ShloMosaic Idealize.ShloMosaic.ValueIdx

/-- Every row times a weight matrix: at (b, n, h) the sum over k of A[b, n, k] · B[h, k]. -/
theorem dot_rows_apply {G N K H : Nat}
    (w : DotDims.WF ⟨3, ![G, N, K]⟩ ⟨2, ![H, K]⟩ ⟨3, ![G, N, H]⟩ [2] [1] [0, 1] [0] [] [])
    (prec : Option ContractPrecision) (A : FVec Ideal ⟨3, ![G, N, K]⟩ .f32) (B : FVec Ideal ⟨2, ![H, K]⟩ .f32)
    (b : Fin G) (n : Fin N) (h : Fin H) :
    Host.dotGeneral (⟨[2], [1], [0, 1], [0], [], [], w⟩ : DotDims _ _ _) prec A B (ix3 b n h)
      = ∑ k : Fin K, A (ix3 b n k) * B (ix2 h k) := by
  show FloatOps.dotGeneral _ prec _ A B (ix3 b n h) = _
  rw [Ideal.dotGeneral_apply,
    ← Equiv.sum_comp (contrEquiv1 (⟨[2], [1], [0, 1], [0], [], [], w⟩ : DotDims _ _ _) K rfl rfl).symm]
  refine Finset.sum_congr rfl fun c _ => ?_
  have c3 := contrEquiv1_symm_val
    (⟨[2], [1], [0, 1], [0], [], [], w⟩ : DotDims ⟨3, ![G, N, K]⟩ ⟨2, ![H, K]⟩ ⟨3, ![G, N, H]⟩) K rfl rfl c
  have l3 : (⟨[2], [1], [0, 1], [0], [], [], w⟩ : DotDims ⟨3, ![G, N, K]⟩ ⟨2, ![H, K]⟩ ⟨3, ![G, N, H]⟩).lhsIdx (ix3 b n h)
      ((contrEquiv1 _ K rfl rfl).symm c) = ix3 b n c := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c3
  have r3 : (⟨[2], [1], [0, 1], [0], [], [], w⟩ : DotDims ⟨3, ![G, N, K]⟩ ⟨2, ![H, K]⟩ ⟨3, ![G, N, H]⟩).rhsIdx (ix3 b n h)
      ((contrEquiv1 _ K rfl rfl).symm c) = ix2 h c := by
    funext ax; apply Fin.ext
    match ax with
    | ⟨0, _⟩ => simp [DotDims.rhsIdx]; rfl
    | ⟨1, _⟩ => simp [DotDims.rhsIdx]; exact c3
  rw [l3, r3]

/-- The sum of a row from the zero word: at (b, n) the sum over k of x[b, n, k]. -/
theorem rowSum_apply {G N K : Nat} (h' : (⟨3, ![G, N, K]⟩ : Shape).ReducesTo [2] ⟨2, ![G, N]⟩)
    (hu : 0 < (⟨0, ![]⟩ : Shape).numel) (x : FVec Ideal ⟨3, ![G, N, K]⟩ .f32) (b : Fin G) (n : Fin N) :
    Host.reduceAdd x (constant (F := Ideal) ⟨0, ![]⟩ .f32 0x00000000#32) h' hu (ix2 b n) = ∑ k : Fin K, x (ix3 b n k) := by
  have h : (⟨3, ![G, N, K]⟩ : Shape).Reduces [2] ⟨2, ![G, N]⟩ := ⟨h'.1, Nat.zero_lt_two, h'.2⟩
  rw [hostReduceAdd_apply, Ideal.hostReduceAdd_single h' h, constant_apply, Ideal.ofBits_zero_f32, zero_add]
  refine Finset.sum_congr rfl fun k _ => congrArg x (funext fun c => Fin.ext ?_)
  match c with
  | ⟨0, _⟩ => rfl
  | ⟨1, _⟩ => rfl
  | ⟨2, _⟩ => rfl

variable {α : Type}

/-- A per-node value [N] laid over [G, N, K] through [1, N, 1]: at (b, n, k) it is the value at n. -/
theorem bcast_node_apply {G N K : Nat} (h1 : (⟨1, ![N]⟩ : Shape).BroadcastsInDim ⟨3, ![1, N, 1]⟩ ![1])
    (h3 : (⟨3, ![1, N, 1]⟩ : Shape).BroadcastsInDim ⟨3, ![G, N, K]⟩ ![0, 1, 2]) (c : (⟨1, ![N]⟩ : Shape).Idx → α)
    (b : Fin G) (n : Fin N) (k : Fin K) :
    broadcastInDim ⟨3, ![G, N, K]⟩ ![0, 1, 2] h3 (broadcastInDim ⟨3, ![1, N, 1]⟩ ![1] h1 c) (ix3 b n k) = c (ix1 n) := by
  refine (broadcastInDim_apply _ h3 _ (ix3 b n k) (ix3 (0 : Fin 1) n (0 : Fin 1)) ?_).trans
    (broadcastInDim_apply _ h1 c (ix3 (0 : Fin 1) n (0 : Fin 1)) (ix1 n) ?_)
  · intro a
    match a with
    | ⟨0, _⟩ => exact (if_pos rfl).symm
    | ⟨1, _⟩ =>
      show n.val = if N = 1 then 0 else n.val
      by_cases hN : N = 1
      · rw [if_pos hN]; have := n.isLt; omega
      · rw [if_neg hN]
    | ⟨2, _⟩ => exact (if_pos rfl).symm
  · intro a
    match a with
    | ⟨0, _⟩ =>
      show n.val = if N = 1 then 0 else n.val
      by_cases hN : N = 1
      · rw [if_pos hN]; have := n.isLt; omega
      · rw [if_neg hN]

/-- A vector [K] laid along every row of [G, N, K] through [1, 1, K]: at (b, n, k) it is the entry k. -/
theorem bcast_vec_apply {G N K : Nat} (h1 : (⟨1, ![K]⟩ : Shape).BroadcastsInDim ⟨3, ![1, 1, K]⟩ ![2])
    (h3 : (⟨3, ![1, 1, K]⟩ : Shape).BroadcastsInDim ⟨3, ![G, N, K]⟩ ![0, 1, 2]) (v : (⟨1, ![K]⟩ : Shape).Idx → α)
    (b : Fin G) (n : Fin N) (k : Fin K) :
    broadcastInDim ⟨3, ![G, N, K]⟩ ![0, 1, 2] h3 (broadcastInDim ⟨3, ![1, 1, K]⟩ ![2] h1 v) (ix3 b n k) = v (ix1 k) := by
  refine (broadcastInDim_apply _ h3 _ (ix3 b n k) (ix3 (0 : Fin 1) (0 : Fin 1) k) ?_).trans
    (broadcastInDim_apply _ h1 v (ix3 (0 : Fin 1) (0 : Fin 1) k) (ix1 k) ?_)
  · intro a
    match a with
    | ⟨0, _⟩ => exact (if_pos rfl).symm
    | ⟨1, _⟩ => exact (if_pos rfl).symm
    | ⟨2, _⟩ =>
      show k.val = if K = 1 then 0 else k.val
      by_cases hK : K = 1
      · rw [if_pos hK]; have := k.isLt; omega
      · rw [if_neg hK]
  · intro a
    match a with
    | ⟨0, _⟩ =>
      show k.val = if K = 1 then 0 else k.val
      by_cases hK : K = 1
      · rw [if_pos hK]; have := k.isLt; omega
      · rw [if_neg hK]

/-- A per-row value [G, N, 1] laid along the row of [G, N, K]: at (b, n, k) it is the value at (b, n, 0). -/
theorem bcast_row_apply {G N K : Nat} (h3 : (⟨3, ![G, N, 1]⟩ : Shape).BroadcastsInDim ⟨3, ![G, N, K]⟩ ![0, 1, 2])
    (x : (⟨3, ![G, N, 1]⟩ : Shape).Idx → α) (b : Fin G) (n : Fin N) (k : Fin K) :
    broadcastInDim ⟨3, ![G, N, K]⟩ ![0, 1, 2] h3 x (ix3 b n k) = x (ix3 b n (0 : Fin 1)) := by
  refine broadcastInDim_apply _ h3 x (ix3 b n k) (ix3 b n (0 : Fin 1)) ?_
  intro a
  match a with
  | ⟨0, _⟩ =>
    show b.val = if G = 1 then 0 else b.val
    by_cases hG : G = 1
    · rw [if_pos hG]; have := b.isLt; omega
    · rw [if_neg hG]
  | ⟨1, _⟩ =>
    show n.val = if N = 1 then 0 else n.val
    by_cases hN : N = 1
    · rw [if_pos hN]; have := n.isLt; omega
    · rw [if_neg hN]
  | ⟨2, _⟩ => exact (if_pos rfl).symm

/-- A per-row value [G, N] given a unit last axis [G, N, 1]: at (b, n, 0) it is the value at (b, n). -/
theorem bcast_keep_apply {G N : Nat} (h : (⟨2, ![G, N]⟩ : Shape).BroadcastsInDim ⟨3, ![G, N, 1]⟩ ![0, 1])
    (x : (⟨2, ![G, N]⟩ : Shape).Idx → α) (b : Fin G) (n : Fin N) :
    broadcastInDim ⟨3, ![G, N, 1]⟩ ![0, 1] h x (ix3 b n (0 : Fin 1)) = x (ix2 b n) := by
  refine broadcastInDim_apply _ h x (ix3 b n (0 : Fin 1)) (ix2 b n) ?_
  intro a
  match a with
  | ⟨0, _⟩ =>
    show b.val = if G = 1 then 0 else b.val
    by_cases hG : G = 1
    · rw [if_pos hG]; have := b.isLt; omega
    · rw [if_neg hG]
  | ⟨1, _⟩ =>
    show n.val = if N = 1 then 0 else n.val
    by_cases hN : N = 1
    · rw [if_pos hN]; have := n.isLt; omega
    · rw [if_neg hN]

/-- A float word laid over any shape reads as that word's value everywhere. -/
theorem bcast_word_apply {T : Shape} (h : (⟨0, ![]⟩ : Shape).BroadcastsInDim T ![]) (w : BitVec 32) (j : T.Idx) :
    broadcastInDim T ![] h (constant (F := Ideal) ⟨0, ![]⟩ .f32 w) j = Ideal.ofBits .f32 w :=
  broadcastInDim_scalar_apply h _ j

/-- The host's reciprocal square root at an index is the ideal one of the entry. -/
theorem hostRsqrt_apply {s : Shape} (x : FVec Ideal s .f32) (i : s.Idx) : Host.rsqrt x i = Ideal.rsqrt (x i) := rfl

end Cert.RefNodeOps

end
-- ==== Proof.RefNode1Hidden.lean ====
import proofs.«125976_j40492951666849_2_alg».proof.Proof.RefNode1Def
import proofs.«125976_j40492951666849_2_alg».proof.Proof.RefNodeOps
import Idealize.ShloMosaic.Lib.ValueIdx
import Idealize.ShloMosaic.Lib.IdealHost
import Idealize.ShloMosaic.PureOps.Ideal.Laws

noncomputable section

namespace Cert.ReferenceIdeal.RefNode

open Cert.ReferenceIdeal Cert.ReferenceIdeal.Gen Cert.ReferenceIdeal.Value Idealize.ShloMosaic Idealize.ShloMosaic.TcCoe Idealize.SL.Sem Idealize.ShloMosaic.StableHlo Idealize.ShloMosaic.ValueIdx Cert.RefNodeOps

/-! The hidden array of the node type with 20000 nodes, read at one entry (b, n, h): the hidden row of the specification's
    second arrangement, the clamped degree being the entry n of max(count, 1). -/

/-- One relation's neighbour term at (b, n, h): the sum over d of (aggregate[b, n, d] / max(count, 1)[n]) · Wl[h, d]. -/
theorem nbr1_apply (agg : FVec Ideal S2x20000x128 .f32) (cnt : FVec Ideal S20000 .f32) (Wl : FVec Ideal S256x128 .f32)
    (b : Fin 2) (n : Fin 20000) (h : Fin 256) :
    Host.dotGeneral dot_S2x20000x128_S256x128_S2x20000x256_2_1_01_0_n_n none (Host.divf (F := Ideal) agg (broadcastInDim S2x20000x128 ![0, 1, 2] bcast_S1x20000x1_S2x20000x128_0_1_2 (broadcastInDim S1x20000x1 ![1] bcast_S20000_S1x20000x1_1 (maximumf cnt (broadcastInDim S20000 ![] bcast_S_S20000 (constant (F := Ideal) S_ .f32 0x3F800000#32)))))) Wl (ix3 b n h)
      = ∑ d : Fin 128, Ideal.div (agg (ix3 b n d)) (maximumf cnt (broadcastInDim S20000 ![] bcast_S_S20000 (constant (F := Ideal) S_ .f32 0x3F800000#32)) (ix1 n)) * Wl (ix2 h d) := by
  refine (dot_rows_apply dot_S2x20000x128_S256x128_S2x20000x256_2_1_01_0_n_n_wf none _ Wl b n h).trans ?_
  refine Finset.sum_congr rfl fun d _ => ?_
  exact congrArg (fun c => Ideal.div (agg (ix3 b n d)) c * Wl (ix2 h d)) (bcast_node_apply _ _ _ b n d)

/-- The node's own term at (b, n, h): the sum over d of z[b, n, d] · Wr[h, d]. -/
theorem self1_apply (z : FVec Ideal S2x20000x128 .f32) (Wr : FVec Ideal S256x128 .f32) (b : Fin 2) (n : Fin 20000) (h : Fin 256) :
    Host.dotGeneral dot_S2x20000x128_S256x128_S2x20000x256_2_1_01_0_n_n none z Wr (ix3 b n h) = ∑ d : Fin 128, z (ix3 b n d) * Wr (ix2 h d) :=
  dot_rows_apply dot_S2x20000x128_S256x128_S2x20000x256_2_1_01_0_n_n_wf none z Wr b n h

theorem hiddenArr1_apply (agg1 agg2 : FVec Ideal S2x20000x128 .f32) (cnt1 cnt2 : FVec Ideal S20000 .f32)
    (z : FVec Ideal S2x20000x128 .f32) (Wl1 Wl2 Wr1 Wr2 : FVec Ideal S256x128 .f32) (bl1 bl2 : FVec Ideal S256 .f32)
    (b : Fin 2) (n : Fin 20000) (h : Fin 256) :
    hiddenArr1 (F := Ideal) agg1 agg2 cnt1 cnt2 z Wl1 Wl2 Wr1 Wr2 bl1 bl2 (ix3 b n h)
      = Cert.NodeSpec.hiddenR (fun d => agg1 (ix3 b n d)) (fun d => agg2 (ix3 b n d)) (fun d => z (ix3 b n d))
          (maximumf cnt1 (broadcastInDim S20000 ![] bcast_S_S20000 (constant (F := Ideal) S_ .f32 0x3F800000#32)) (ix1 n)) (maximumf cnt2 (broadcastInDim S20000 ![] bcast_S_S20000 (constant (F := Ideal) S_ .f32 0x3F800000#32)) (ix1 n))
          (fun h d => Wl1 (ix2 h d)) (fun h d => Wl2 (ix2 h d)) (fun h d => Wr1 (ix2 h d)) (fun h d => Wr2 (ix2 h d))
          (fun h => bl1 (ix1 h)) (fun h => bl2 (ix1 h)) h := by
  unfold hiddenArr1 Cert.NodeSpec.hiddenR
  simp only [addf_apply]
  exact congrArg₂ (· + ·)
    (congrArg₂ (· + ·) (congrArg₂ (· + ·) (nbr1_apply agg1 cnt1 Wl1 b n h) (bcast_vec_apply _ _ bl1 b n h)) (self1_apply z Wr1 b n h))
    (congrArg₂ (· + ·) (congrArg₂ (· + ·) (nbr1_apply agg2 cnt2 Wl2 b n h) (bcast_vec_apply _ _ bl2 b n h)) (self1_apply z Wr2 b n h))

end Cert.ReferenceIdeal.RefNode

end
-- ==== Proof.RefNode1Proj.lean ====
import proofs.«125976_j40492951666849_2_alg».proof.Proof.RefNode1Def
import proofs.«125976_j40492951666849_2_alg».proof.Proof.RefNodeOps
import Idealize.ShloMosaic.Lib.ValueIdx
import Idealize.ShloMosaic.Lib.IdealHost
import Idealize.ShloMosaic.PureOps.Ideal.Laws

noncomputable section

namespace Cert.ReferenceIdeal.RefNode

open Cert.ReferenceIdeal Cert.ReferenceIdeal.Gen Cert.ReferenceIdeal.Value Idealize.ShloMosaic Idealize.ShloMosaic.TcCoe Idealize.SL.Sem Idealize.ShloMosaic.StableHlo Idealize.ShloMosaic.ValueIdx Cert.RefNodeOps

/-! The projection of the node type with 20000 nodes, read at one entry (b, n, d). -/

theorem projArr1_apply (u : FVec Ideal S2x20000x256 .f32) (Wp : FVec Ideal S128x256 .f32) (bp : FVec Ideal S128 .f32)
    (b : Fin 2) (n : Fin 20000) (d : Fin 128) :
    projArr1 (F := Ideal) u Wp bp (ix3 b n d)
      = Cert.NodeSpec.proj (fun h => u (ix3 b n h)) (fun d h => Wp (ix2 d h)) (fun d => bp (ix1 d)) d := by
  unfold projArr1 Cert.NodeSpec.proj
  rw [addf_apply]
  exact congrArg₂ (· + ·) (dot_rows_apply dot_S2x20000x256_S128x256_S2x20000x128_2_1_01_0_n_n_wf none u Wp b n d) (bcast_vec_apply _ _ bp b n d)

end Cert.ReferenceIdeal.RefNode

end
-- ==== Proof.RefNode1Norm.lean ====
import proofs.«125976_j40492951666849_2_alg».proof.Proof.RefNode1Def
import proofs.«125976_j40492951666849_2_alg».proof.Proof.RefNodeOps
import Idealize.ShloMosaic.Lib.ValueIdx
import Idealize.ShloMosaic.Lib.IdealHost
import Idealize.ShloMosaic.PureOps.Ideal.Laws

noncomputable section

namespace Cert.ReferenceIdeal.RefNode

open Cert.ReferenceIdeal Cert.ReferenceIdeal.Gen Cert.ReferenceIdeal.Value Idealize.ShloMosaic Idealize.ShloMosaic.TcCoe Idealize.SL.Sem Idealize.ShloMosaic.StableHlo Idealize.ShloMosaic.ValueIdx Cert.RefNodeOps

/-! The layer norm of the node type with 20000 nodes, read at one entry (b, n, d): the row's mean, the centred row, the mean
    of its squares, and the normalised entry. -/

/-- The mean array at (b, n, 0) is the mean of row (b, n). -/
theorem meanArr1_apply (p : FVec Ideal S2x20000x128 .f32) (b : Fin 2) (n : Fin 20000) :
    meanArr1 (F := Ideal) p (ix3 b n (0 : Fin 1)) = Cert.NodeSpec.mean (fun e => p (ix3 b n e)) := by
  unfold meanArr1 Cert.NodeSpec.mean
  rw [hostDivf_apply]
  exact congrArg₂ Ideal.div ((bcast_keep_apply _ _ b n).trans (rowSum_apply _ _ p b n)) (bcast_word_apply _ _ _)

/-- The centred array at (b, n, e) is the entry less the row's mean. -/
theorem centreArr1_apply (p : FVec Ideal S2x20000x128 .f32) (b : Fin 2) (n : Fin 20000) (e : Fin 128) :
    centreArr1 (F := Ideal) p (ix3 b n e) = p (ix3 b n e) - Cert.NodeSpec.mean (fun e => p (ix3 b n e)) := by
  unfold centreArr1
  rw [subf_apply]
  exact congrArg (p (ix3 b n e) - ·) ((bcast_row_apply _ _ b n e).trans (meanArr1_apply p b n))

theorem normArr1_apply (p : FVec Ideal S2x20000x128 .f32) (g beta : FVec Ideal S128 .f32)
    (b : Fin 2) (n : Fin 20000) (d : Fin 128) :
    normArr1 (F := Ideal) p g beta (ix3 b n d)
      = Cert.NodeSpec.lnorm (fun e => p (ix3 b n e)) (fun d => g (ix1 d)) (fun d => beta (ix1 d)) d := by
  unfold normArr1 Cert.NodeSpec.lnorm
  have hv : meanArr1 (F := Ideal) (mulf (centreArr1 p) (centreArr1 p)) (ix3 b n (0 : Fin 1))
      = Cert.NodeSpec.mean (fun e => (p (ix3 b n e) - Cert.NodeSpec.mean (fun e => p (ix3 b n e)))
          * (p (ix3 b n e) - Cert.NodeSpec.mean (fun e => p (ix3 b n e)))) :=
    (meanArr1_apply _ b n).trans (congrArg Cert.NodeSpec.mean (funext fun e => by
      rw [mulf_apply, centreArr1_apply]))
  rw [addf_apply, mulf_apply, mulf_apply]
  refine congrArg₂ (· + ·) (congrArg₂ (· * ·) (congrArg₂ (· * ·) (centreArr1_apply p b n d) ?_)
    (bcast_vec_apply _ _ g b n d)) (bcast_vec_apply _ _ beta b n d)
  refine (bcast_row_apply _ _ b n d).trans ?_
  rw [hostRsqrt_apply, addf_apply, hv]
  exact congrArg (fun x => Ideal.rsqrt (_ + x)) (bcast_word_apply _ _ _)

end Cert.ReferenceIdeal.RefNode

end
-- ==== Proof.RefNode1.lean ====
import proofs.«125976_j40492951666849_2_alg».proof.Proof.RefNode1Hidden
import proofs.«125976_j40492951666849_2_alg».proof.Proof.RefNode1Proj
import proofs.«125976_j40492951666849_2_alg».proof.Proof.RefNode1Norm

noncomputable section

namespace Cert.ReferenceIdeal.RefNode

open Cert.ReferenceIdeal Cert.ReferenceIdeal.Gen Cert.ReferenceIdeal.Value Idealize.ShloMosaic Idealize.ShloMosaic.TcCoe Idealize.SL.Sem Idealize.ShloMosaic.StableHlo Idealize.ShloMosaic.ValueIdx

/-! The reference's update of the node type with 20000 nodes is the specification's second arrangement of the whole
    array, the clamped degrees being the arrays max(count, 1). -/

theorem node1_eq (agg1 agg2 : FVec Ideal S2x20000x128 .f32) (cnt1 cnt2 : FVec Ideal S20000 .f32)
    (z : FVec Ideal S2x20000x128 .f32) (Wl1 Wl2 Wr1 Wr2 : FVec Ideal S256x128 .f32) (bl1 bl2 : FVec Ideal S256 .f32)
    (Wp : FVec Ideal S128x256 .f32) (bp g beta : FVec Ideal S128 .f32) :
    node1 (F := Ideal) agg1 agg2 cnt1 cnt2 z Wl1 Wl2 Wr1 Wr2 bl1 bl2 Wp bp g beta
      = Cert.NodeSpec.arrR 20000 agg1 agg2 (maximumf cnt1 (broadcastInDim S20000 ![] bcast_S_S20000 (constant (F := Ideal) S_ .f32 0x3F800000#32))) (maximumf cnt2 (broadcastInDim S20000 ![] bcast_S_S20000 (constant (F := Ideal) S_ .f32 0x3F800000#32)))
          z Wl1 Wl2 Wr1 Wr2 bl1 bl2 Wp bp g beta := by
  funext i
  obtain ⟨b, n, d, rfl⟩ : ∃ (b : Fin 2) (n : Fin 20000) (d : Fin 128), i = ix3 b n d := ⟨i 0, i 1, i 2, eq_ix3 i⟩
  unfold node1
  refine (normArr1_apply _ g beta b n d).trans ?_
  show _ = Cert.NodeSpec.lnorm (Cert.NodeSpec.proj (Cert.NodeSpec.hiddenR (fun d => agg1 (ix3 b n d)) (fun d => agg2 (ix3 b n d))
      (fun d => z (ix3 b n d)) (maximumf cnt1 (broadcastInDim S20000 ![] bcast_S_S20000 (constant (F := Ideal) S_ .f32 0x3F800000#32)) (ix1 n)) (maximumf cnt2 (broadcastInDim S20000 ![] bcast_S_S20000 (constant (F := Ideal) S_ .f32 0x3F800000#32)) (ix1 n))
      (fun h d => Wl1 (ix2 h d)) (fun h d => Wl2 (ix2 h d)) (fun h d => Wr1 (ix2 h d)) (fun h d => Wr2 (ix2 h d))
      (fun h => bl1 (ix1 h)) (fun h => bl2 (ix1 h))) (fun d h => Wp (ix2 d h)) (fun d => bp (ix1 d)))
    (fun d => g (ix1 d)) (fun d => beta (ix1 d)) d
  refine congrArg (fun p => Cert.NodeSpec.lnorm p (fun d => g (ix1 d)) (fun d => beta (ix1 d)) d) (funext fun e => ?_)
  refine (projArr1_apply _ Wp bp b n e).trans ?_
  refine congrArg (fun u => Cert.NodeSpec.proj u (fun d h => Wp (ix2 d h)) (fun d => bp (ix1 d)) e) (funext fun h => ?_)
  exact hiddenArr1_apply agg1 agg2 cnt1 cnt2 z Wl1 Wl2 Wr1 Wr2 bl1 bl2 b n h

end Cert.ReferenceIdeal.RefNode

end
-- ==== Proof.RefNode2Def.lean ====
import proofs.«125976_j40492951666849_2_alg».proof.Proof.Gen.ReferenceIdeal.Run
import proofs.«125976_j40492951666849_2_alg».proof.Proof.NodeSpec

noncomputable section

namespace Cert.ReferenceIdeal.RefNode

open Cert.ReferenceIdeal Cert.ReferenceIdeal.Gen Cert.ReferenceIdeal.Value Idealize.ShloMosaic Idealize.ShloMosaic.TcCoe Idealize.SL.Sem Idealize.ShloMosaic.StableHlo

variable {F : FTy → Type} [FloatOps F]

/-! The reference's update of the node type with 100000 nodes, as one function of its arrays.

The two neighbour aggregates (sums of gathered source rows scattered onto their destination rows) and the two in-degree
counts (ones scattered onto the destinations) are named and never opened: everything after them is the float part —
mean by the clamped degree, the two SAGE terms, the projection, the layer norm. -/

/-- The first relation's aggregate: the gathered source rows scatter-added into zeros [2, 100000, 128]. -/
def aggSurf (V0 : Valuation τ sig (Elt F)) : FVec F S2x100000x128 .f32 :=
  Host.scatterAdd scatter_S2x100000x128_S800000x1_S2x800000x128_02_1_1_1 (broadcastInDim S2x100000x128 ![] bcast_S_S2x100000x128 (constant S_ .f32 0x00000000#32)) (broadcastInDim S800000x1 ![0] bcast_S800000_S800000x1_0 (select (cmpi .slt (res_main_v82 V0) (broadcastInDim S800000 ![] bcast_S_S800000 (constantI S_ 32 0#32))) (addi (res_main_v82 V0) (broadcastInDim S800000 ![] bcast_S_S800000 (constantI S_ 32 100000#32))) (res_main_v82 V0))) (Host.gather gather_S2x100000x128_S800000x1_S2x800000x128_02_1_n_n_1_1_21128 (V0 (Proc.devRef .tc main_arg1)) (broadcastInDim S800000x1 ![0] bcast_S800000_S800000x1_0 (select (cmpi .slt (res_main_v80 V0) (broadcastInDim S800000 ![] bcast_S_S800000 (constantI S_ 32 0#32))) (addi (res_main_v80 V0) (broadcastInDim S800000 ![] bcast_S_S800000 (constantI S_ 32 100000#32))) (res_main_v80 V0))))

/-- The first relation's in-degrees: ones scatter-added into zeros [100000]. -/
def cntSurf (V0 : Valuation τ sig (Elt F)) : FVec F S100000 .f32 :=
  Host.scatterAdd scatter_S100000_S800000x1_S800000_n_0_0_1 (broadcastInDim S100000 ![] bcast_S_S100000 (constant S_ .f32 0x00000000#32)) (broadcastInDim S800000x1 ![0] bcast_S800000_S800000x1_0 (select (cmpi .slt (res_main_v82 V0) (broadcastInDim S800000 ![] bcast_S_S800000 (constantI S_ 32 0#32))) (addi (res_main_v82 V0) (broadcastInDim S800000 ![] bcast_S_S800000 (constantI S_ 32 100000#32))) (res_main_v82 V0))) (broadcastInDim S800000 ![] bcast_S_S800000 (constant S_ .f32 0x3F800000#32))

/-- The second relation's aggregate. -/
def aggC2 (V0 : Valuation τ sig (Elt F)) : FVec F S2x100000x128 .f32 :=
  Host.scatterAdd scatter_S2x100000x128_S40000x1_S2x40000x128_02_1_1_1 (broadcastInDim S2x100000x128 ![] bcast_S_S2x100000x128 (constant S_ .f32 0x00000000#32)) (broadcastInDim S40000x1 ![0] bcast_S40000_S40000x1_0 (select (cmpi .slt (res_main_v121 V0) (broadcastInDim S40000 ![] bcast_S_S40000 (constantI S_ 32 0#32))) (addi (res_main_v121 V0) (broadcastInDim S40000 ![] bcast_S_S40000 (constantI S_ 32 100000#32))) (res_main_v121 V0))) (Host.gather gather_S2x20000x128_S40000x1_S2x40000x128_02_1_n_n_1_1_21128 (V0 (Proc.devRef .tc main_arg0)) (broadcastInDim S40000x1 ![0] bcast_S40000_S40000x1_0 (select (cmpi .slt (res_main_v119 V0) (broadcastInDim S40000 ![] bcast_S_S40000 (constantI S_ 32 0#32))) (addi (res_main_v119 V0) (broadcastInDim S40000 ![] bcast_S_S40000 (constantI S_ 32 20000#32))) (res_main_v119 V0))))

/-- The second relation's in-degrees. -/
def cntC2 (V0 : Valuation τ sig (Elt F)) : FVec F S100000 .f32 :=
  Host.scatterAdd scatter_S100000_S40000x1_S40000_n_0_0_1 (broadcastInDim S100000 ![] bcast_S_S100000 (constant S_ .f32 0x00000000#32)) (broadcastInDim S40000x1 ![0] bcast_S40000_S40000x1_0 (select (cmpi .slt (res_main_v121 V0) (broadcastInDim S40000 ![] bcast_S_S40000 (constantI S_ 32 0#32))) (addi (res_main_v121 V0) (broadcastInDim S40000 ![] bcast_S_S40000 (constantI S_ 32 100000#32))) (res_main_v121 V0))) (broadcastInDim S40000 ![] bcast_S_S40000 (constant S_ .f32 0x3F800000#32))

/-- The hidden array [2, 100000, 256]: for each relation, (aggregate / max(degree, 1)) · Wlᵀ + bl + z · Wrᵀ; the two added. -/
def hiddenArr2 (agg1 agg2 : FVec F S2x100000x128 .f32) (cnt1 cnt2 : FVec F S100000 .f32) (z : FVec F S2x100000x128 .f32)
    (Wl1 Wl2 Wr1 Wr2 : FVec F S256x128 .f32) (bl1 bl2 : FVec F S256 .f32) : FVec F S2x100000x256 .f32 :=
  addf (addf (addf (Host.dotGeneral dot_S2x100000x128_S256x128_S2x100000x256_2_1_01_0_n_n none (Host.divf agg1 (broadcastInDim S2x100000x128 ![0, 1, 2] bcast_S1x100000x1_S2x100000x128_0_1_2 (broadcastInDim S1x100000x1 ![1] bcast_S100000_S1x100000x1_1 (maximumf cnt1 (broadcastInDim S100000 ![] bcast_S_S100000 (constant S_ .f32 0x3F800000#32)))))) Wl1) (broadcastInDim S2x100000x256 ![0, 1, 2] bcast_S1x1x256_S2x100000x256_0_1_2 (broadcastInDim S1x1x256 ![2] bcast_S256_S1x1x256_2 bl1))) (Host.dotGeneral dot_S2x100000x128_S256x128_S2x100000x256_2_1_01_0_n_n none z Wr1)) (addf (addf (Host.dotGeneral dot_S2x100000x128_S256x128_S2x100000x256_2_1_01_0_n_n none (Host.divf agg2 (broadcastInDim S2x100000x128 ![0, 1, 2] bcast_S1x100000x1_S2x100000x128_0_1_2 (broadcastInDim S1x100000x1 ![1] bcast_S100000_S1x100000x1_1 (maximumf cnt2 (broadcastInDim S100000 ![] bcast_S_S100000 (constant S_ .f32 0x3F800000#32)))))) Wl2) (broadcastInDim S2x100000x256 ![0, 1, 2] bcast_S1x1x256_S2x100000x256_0_1_2 (broadcastInDim S1x1x256 ![2] bcast_S256_S1x1x256_2 bl2))) (Host.dotGeneral dot_S2x100000x128_S256x128_S2x100000x256_2_1_01_0_n_n none z Wr2))

/-- The projection back to 128 entries: u · Wpᵀ + bp. -/
def projArr2 (u : FVec F S2x100000x256 .f32) (Wp : FVec F S128x256 .f32) (bp : FVec F S128 .f32) : FVec F S2x100000x128 .f32 :=
  addf (Host.dotGeneral dot_S2x100000x256_S128x256_S2x100000x128_2_1_01_0_n_n none u Wp) (broadcastInDim S2x100000x128 ![0, 1, 2] bcast_S1x1x128_S2x100000x128_0_1_2 (broadcastInDim S1x1x128 ![2] bcast_S128_S1x1x128_2 bp))

/-- The row means [2, 100000, 1]: the sum over the last axis divided by 128. -/
def meanArr2 (p : FVec F S2x100000x128 .f32) : FVec F S2x100000x1 .f32 :=
  Host.divf (broadcastInDim S2x100000x1 ![0, 1] bcast_S2x100000_S2x100000x1_0_1 (Host.reduceAdd p (constant S_ .f32 0x00000000#32) reducesTo_S2x100000x128_S2x100000_d2 h_S_)) (broadcastInDim S2x100000x1 ![] bcast_S_S2x100000x1 (constant S_ .f32 0x43000000#32))

/-- A row less its mean, entry by entry. -/
def centreArr2 (p : FVec F S2x100000x128 .f32) : FVec F S2x100000x128 .f32 :=
  subf p (broadcastInDim S2x100000x128 ![0, 1, 2] bcast_S2x100000x1_S2x100000x128_0_1_2 (meanArr2 p))

/-- The layer norm over the last axis: centred, times the reciprocal root of (variance + epsilon), gain, offset. -/
def normArr2 (p : FVec F S2x100000x128 .f32) (g beta : FVec F S128 .f32) : FVec F S2x100000x128 .f32 :=
  addf (mulf (mulf (centreArr2 p) (broadcastInDim S2x100000x128 ![0, 1, 2] bcast_S2x100000x1_S2x100000x128_0_1_2 (Host.rsqrt (addf (meanArr2 (mulf (centreArr2 p) (centreArr2 p))) (broadcastInDim S2x100000x1 ![] bcast_S_S2x100000x1 (constant S_ .f32 0x3727C5AC#32)))))) (broadcastInDim S2x100000x128 ![0, 1, 2] bcast_S1x1x128_S2x100000x128_0_1_2 (broadcastInDim S1x1x128 ![2] bcast_S128_S1x1x128_2 g))) (broadcastInDim S2x100000x128 ![0, 1, 2] bcast_S1x1x128_S2x100000x128_0_1_2 (broadcastInDim S1x1x128 ![2] bcast_S128_S1x1x128_2 beta))

/-- The whole update of this node type from the aggregates, the degree counts, the features and the weights. -/
def node2 (agg1 agg2 : FVec F S2x100000x128 .f32) (cnt1 cnt2 : FVec F S100000 .f32) (z : FVec F S2x100000x128 .f32)
    (Wl1 Wl2 Wr1 Wr2 : FVec F S256x128 .f32) (bl1 bl2 : FVec F S256 .f32) (Wp : FVec F S128x256 .f32)
    (bp g beta : FVec F S128 .f32) : FVec F S2x100000x128 .f32 :=
  normArr2 (projArr2 (hiddenArr2 agg1 agg2 cnt1 cnt2 z Wl1 Wl2 Wr1 Wr2 bl1 bl2) Wp bp) g beta

/-- The term the reference's run leaves in its result is this function of the launch contents. -/
theorem v213_eq (V0 : Valuation τ sig (Elt F)) :
    addf (mulf (mulf (subf (res_main_v189 V0) (broadcastInDim S2x100000x128 ![0, 1, 2] bcast_S2x100000x1_S2x100000x128_0_1_2 (res_main_v193 V0))) (broadcastInDim S2x100000x128 ![0, 1, 2] bcast_S2x100000x1_S2x100000x128_0_1_2 (Host.rsqrt (addf (Host.divf (broadcastInDim S2x100000x1 ![0, 1] bcast_S2x100000_S2x100000x1_0_1 (Host.reduceAdd (mulf (res_main_v195 V0) (res_main_v195 V0)) (constant S_ .f32 0x00000000#32) reducesTo_S2x100000x128_S2x100000_d2 h_S_)) (broadcastInDim S2x100000x1 ![] bcast_S_S2x100000x1 (constant S_ .f32 0x43000000#32))) (broadcastInDim S2x100000x1 ![] bcast_S_S2x100000x1 (constant S_ .f32 0x3727C5AC#32)))))) (broadcastInDim S2x100000x128 ![0, 1, 2] bcast_S1x1x128_S2x100000x128_0_1_2 (broadcastInDim S1x1x128 ![2] bcast_S128_S1x1x128_2 (V0 (Proc.devRef .tc main_arg24))))) (broadcastInDim S2x100000x128 ![0, 1, 2] bcast_S1x1x128_S2x100000x128_0_1_2 (broadcastInDim S1x1x128 ![2] bcast_S128_S1x1x128_2 (V0 (Proc.devRef .tc main_arg25))))
      = node2 (aggSurf V0) (aggC2 V0) (cntSurf V0) (cntC2 V0) (V0 (Proc.devRef .tc main_arg1)) (V0 (Proc.devRef .tc main_arg9)) (V0 (Proc.devRef .tc main_arg12)) (V0 (Proc.devRef .tc main_arg11)) (V0 (Proc.devRef .tc main_arg14)) (V0 (Proc.devRef .tc main_arg10)) (V0 (Proc.devRef .tc main_arg13)) (V0 (Proc.devRef .tc main_arg20)) (V0 (Proc.devRef .tc main_arg21)) (V0 (Proc.devRef .tc main_arg24)) (V0 (Proc.devRef .tc main_arg25)) := by
  unfold res_main_v195 res_main_v193 res_main_v189 res_main_v186
  rfl

end Cert.ReferenceIdeal.RefNode

end
-- ==== Proof.RefNode2Hidden.lean ====
import proofs.«125976_j40492951666849_2_alg».proof.Proof.RefNode2Def
import proofs.«125976_j40492951666849_2_alg».proof.Proof.RefNodeOps
import Idealize.ShloMosaic.Lib.ValueIdx
import Idealize.ShloMosaic.Lib.IdealHost
import Idealize.ShloMosaic.PureOps.Ideal.Laws

noncomputable section

namespace Cert.ReferenceIdeal.RefNode

open Cert.ReferenceIdeal Cert.ReferenceIdeal.Gen Cert.ReferenceIdeal.Value Idealize.ShloMosaic Idealize.ShloMosaic.TcCoe Idealize.SL.Sem Idealize.ShloMosaic.StableHlo Idealize.ShloMosaic.ValueIdx Cert.RefNodeOps

/-! The hidden array of the node type with 100000 nodes, read at one entry (b, n, h): the hidden row of the specification's
    second arrangement, the clamped degree being the entry n of max(count, 1). -/

/-- One relation's neighbour term at (b, n, h): the sum over d of (aggregate[b, n, d] / max(count, 1)[n]) · Wl[h, d]. -/
theorem nbr2_apply (agg : FVec Ideal S2x100000x128 .f32) (cnt : FVec Ideal S100000 .f32) (Wl : FVec Ideal S256x128 .f32)
    (b : Fin 2) (n : Fin 100000) (h : Fin 256) :
    Host.dotGeneral dot_S2x100000x128_S256x128_S2x100000x256_2_1_01_0_n_n none (Host.divf (F := Ideal) agg (broadcastInDim S2x100000x128 ![0, 1, 2] bcast_S1x100000x1_S2x100000x128_0_1_2 (broadcastInDim S1x100000x1 ![1] bcast_S100000_S1x100000x1_1 (maximumf cnt (broadcastInDim S100000 ![] bcast_S_S100000 (constant (F := Ideal) S_ .f32 0x3F800000#32)))))) Wl (ix3 b n h)
      = ∑ d : Fin 128, Ideal.div (agg (ix3 b n d)) (maximumf cnt (broadcastInDim S100000 ![] bcast_S_S100000 (constant (F := Ideal) S_ .f32 0x3F800000#32)) (ix1 n)) * Wl (ix2 h d) := by
  refine (dot_rows_apply dot_S2x100000x128_S256x128_S2x100000x256_2_1_01_0_n_n_wf none _ Wl b n h).trans ?_
  refine Finset.sum_congr rfl fun d _ => ?_
  exact congrArg (fun c => Ideal.div (agg (ix3 b n d)) c * Wl (ix2 h d)) (bcast_node_apply _ _ _ b n d)

/-- The node's own term at (b, n, h): the sum over d of z[b, n, d] · Wr[h, d]. -/
theorem self2_apply (z : FVec Ideal S2x100000x128 .f32) (Wr : FVec Ideal S256x128 .f32) (b : Fin 2) (n : Fin 100000) (h : Fin 256) :
    Host.dotGeneral dot_S2x100000x128_S256x128_S2x100000x256_2_1_01_0_n_n none z Wr (ix3 b n h) = ∑ d : Fin 128, z (ix3 b n d) * Wr (ix2 h d) :=
  dot_rows_apply dot_S2x100000x128_S256x128_S2x100000x256_2_1_01_0_n_n_wf none z Wr b n h

theorem hiddenArr2_apply (agg1 agg2 : FVec Ideal S2x100000x128 .f32) (cnt1 cnt2 : FVec Ideal S100000 .f32)
    (z : FVec Ideal S2x100000x128 .f32) (Wl1 Wl2 Wr1 Wr2 : FVec Ideal S256x128 .f32) (bl1 bl2 : FVec Ideal S256 .f32)
    (b : Fin 2) (n : Fin 100000) (h : Fin 256) :
    hiddenArr2 (F := Ideal) agg1 agg2 cnt1 cnt2 z Wl1 Wl2 Wr1 Wr2 bl1 bl2 (ix3 b n h)
      = Cert.NodeSpec.hiddenR (fun d => agg1 (ix3 b n d)) (fun d => agg2 (ix3 b n d)) (fun d => z (ix3 b n d))
          (maximumf cnt1 (broadcastInDim S100000 ![] bcast_S_S100000 (constant (F := Ideal) S_ .f32 0x3F800000#32)) (ix1 n)) (maximumf cnt2 (broadcastInDim S100000 ![] bcast_S_S100000 (constant (F := Ideal) S_ .f32 0x3F800000#32)) (ix1 n))
          (fun h d => Wl1 (ix2 h d)) (fun h d => Wl2 (ix2 h d)) (fun h d => Wr1 (ix2 h d)) (fun h d => Wr2 (ix2 h d))
          (fun h => bl1 (ix1 h)) (fun h => bl2 (ix1 h)) h := by
  unfold hiddenArr2 Cert.NodeSpec.hiddenR
  simp only [addf_apply]
  exact congrArg₂ (· + ·)
    (congrArg₂ (· + ·) (congrArg₂ (· + ·) (nbr2_apply agg1 cnt1 Wl1 b n h) (bcast_vec_apply _ _ bl1 b n h)) (self2_apply z Wr1 b n h))
    (congrArg₂ (· + ·) (congrArg₂ (· + ·) (nbr2_apply agg2 cnt2 Wl2 b n h) (bcast_vec_apply _ _ bl2 b n h)) (self2_apply z Wr2 b n h))

end Cert.ReferenceIdeal.RefNode

end
-- ==== Proof.RefNode2Proj.lean ====
import proofs.«125976_j40492951666849_2_alg».proof.Proof.RefNode2Def
import proofs.«125976_j40492951666849_2_alg».proof.Proof.RefNodeOps
import Idealize.ShloMosaic.Lib.ValueIdx
import Idealize.ShloMosaic.Lib.IdealHost
import Idealize.ShloMosaic.PureOps.Ideal.Laws

noncomputable section

namespace Cert.ReferenceIdeal.RefNode

open Cert.ReferenceIdeal Cert.ReferenceIdeal.Gen Cert.ReferenceIdeal.Value Idealize.ShloMosaic Idealize.ShloMosaic.TcCoe Idealize.SL.Sem Idealize.ShloMosaic.StableHlo Idealize.ShloMosaic.ValueIdx Cert.RefNodeOps

/-! The projection of the node type with 100000 nodes, read at one entry (b, n, d). -/

theorem projArr2_apply (u : FVec Ideal S2x100000x256 .f32) (Wp : FVec Ideal S128x256 .f32) (bp : FVec Ideal S128 .f32)
    (b : Fin 2) (n : Fin 100000) (d : Fin 128) :
    projArr2 (F := Ideal) u Wp bp (ix3 b n d)
      = Cert.NodeSpec.proj (fun h => u (ix3 b n h)) (fun d h => Wp (ix2 d h)) (fun d => bp (ix1 d)) d := by
  unfold projArr2 Cert.NodeSpec.proj
  rw [addf_apply]
  exact congrArg₂ (· + ·) (dot_rows_apply dot_S2x100000x256_S128x256_S2x100000x128_2_1_01_0_n_n_wf none u Wp b n d) (bcast_vec_apply _ _ bp b n d)

end Cert.ReferenceIdeal.RefNode

end
-- ==== Proof.RefNode2Norm.lean ====
import proofs.«125976_j40492951666849_2_alg».proof.Proof.RefNode2Def
import proofs.«125976_j40492951666849_2_alg».proof.Proof.RefNodeOps
import Idealize.ShloMosaic.Lib.ValueIdx
import Idealize.ShloMosaic.Lib.IdealHost
import Idealize.ShloMosaic.PureOps.Ideal.Laws

noncomputable section

namespace Cert.ReferenceIdeal.RefNode

open Cert.ReferenceIdeal Cert.ReferenceIdeal.Gen Cert.ReferenceIdeal.Value Idealize.ShloMosaic Idealize.ShloMosaic.TcCoe Idealize.SL.Sem Idealize.ShloMosaic.StableHlo Idealize.ShloMosaic.ValueIdx Cert.RefNodeOps

/-! The layer norm of the node type with 100000 nodes, read at one entry (b, n, d): the row's mean, the centred row, the mean
    of its squares, and the normalised entry. -/

/-- The mean array at (b, n, 0) is the mean of row (b, n). -/
theorem meanArr2_apply (p : FVec Ideal S2x100000x128 .f32) (b : Fin 2) (n : Fin 100000) :
    meanArr2 (F := Ideal) p (ix3 b n (0 : Fin 1)) = Cert.NodeSpec.mean (fun e => p (ix3 b n e)) := by
  unfold meanArr2 Cert.NodeSpec.mean
  rw [hostDivf_apply]
  exact congrArg₂ Ideal.div ((bcast_keep_apply _ _ b n).trans (rowSum_apply _ _ p b n)) (bcast_word_apply _ _ _)

/-- The centred array at (b, n, e) is the entry less the row's mean. -/
theorem centreArr2_apply (p : FVec Ideal S2x100000x128 .f32) (b : Fin 2) (n : Fin 100000) (e : Fin 128) :
    centreArr2 (F := Ideal) p (ix3 b n e) = p (ix3 b n e) - Cert.NodeSpec.mean (fun e => p (ix3 b n e)) := by
  unfold centreArr2
  rw [subf_apply]
  exact congrArg (p (ix3 b n e) - ·) ((bcast_row_apply _ _ b n e).trans (meanArr2_apply p b n))

theorem normArr2_apply (p : FVec Ideal S2x100000x128 .f32) (g beta : FVec Ideal S128 .f32)
    (b : Fin 2) (n : Fin 100000) (d : Fin 128) :
    normArr2 (F := Ideal) p g beta (ix3 b n d)
      = Cert.NodeSpec.lnorm (fun e => p (ix3 b n e)) (fun d => g (ix1 d)) (fun d => beta (ix1 d)) d := by
  unfold normArr2 Cert.NodeSpec.lnorm
  have hv : meanArr2 (F := Ideal) (mulf (centreArr2 p) (centreArr2 p)) (ix3 b n (0 : Fin 1))
      = Cert.NodeSpec.mean (fun e => (p (ix3 b n e) - Cert.NodeSpec.mean (fun e => p (ix3 b n e)))
          * (p (ix3 b n e) - Cert.NodeSpec.mean (fun e => p (ix3 b n e)))) :=
    (meanArr2_apply _ b n).trans (congrArg Cert.NodeSpec.mean (funext fun e => by
      rw [mulf_apply, centreArr2_apply]))
  rw [addf_apply, mulf_apply, mulf_apply]
  refine congrArg₂ (· + ·) (congrArg₂ (· * ·) (congrArg₂ (· * ·) (centreArr2_apply p b n d) ?_)
    (bcast_vec_apply _ _ g b n d)) (bcast_vec_apply _ _ beta b n d)
  refine (bcast_row_apply _ _ b n d).trans ?_
  rw [hostRsqrt_apply, addf_apply, hv]
  exact congrArg (fun x => Ideal.rsqrt (_ + x)) (bcast_word_apply _ _ _)

end Cert.ReferenceIdeal.RefNode

end
-- ==== Proof.RefNode2.lean ====
import proofs.«125976_j40492951666849_2_alg».proof.Proof.RefNode2Hidden
import proofs.«125976_j40492951666849_2_alg».proof.Proof.RefNode2Proj
import proofs.«125976_j40492951666849_2_alg».proof.Proof.RefNode2Norm

noncomputable section

namespace Cert.ReferenceIdeal.RefNode

open Cert.ReferenceIdeal Cert.ReferenceIdeal.Gen Cert.ReferenceIdeal.Value Idealize.ShloMosaic Idealize.ShloMosaic.TcCoe Idealize.SL.Sem Idealize.ShloMosaic.StableHlo Idealize.ShloMosaic.ValueIdx

/-! The reference's update of the node type with 100000 nodes is the specification's second arrangement of the whole
    array, the clamped degrees being the arrays max(count, 1). -/

theorem node2_eq (agg1 agg2 : FVec Ideal S2x100000x128 .f32) (cnt1 cnt2 : FVec Ideal S100000 .f32)
    (z : FVec Ideal S2x100000x128 .f32) (Wl1 Wl2 Wr1 Wr2 : FVec Ideal S256x128 .f32) (bl1 bl2 : FVec Ideal S256 .f32)
    (Wp : FVec Ideal S128x256 .f32) (bp g beta : FVec Ideal S128 .f32) :
    node2 (F := Ideal) agg1 agg2 cnt1 cnt2 z Wl1 Wl2 Wr1 Wr2 bl1 bl2 Wp bp g beta
      = Cert.NodeSpec.arrR 100000 agg1 agg2 (maximumf cnt1 (broadcastInDim S100000 ![] bcast_S_S100000 (constant (F := Ideal) S_ .f32 0x3F800000#32))) (maximumf cnt2 (broadcastInDim S100000 ![] bcast_S_S100000 (constant (F := Ideal) S_ .f32 0x3F800000#32)))
          z Wl1 Wl2 Wr1 Wr2 bl1 bl2 Wp bp g beta := by
  funext i
  obtain ⟨b, n, d, rfl⟩ : ∃ (b : Fin 2) (n : Fin 100000) (d : Fin 128), i = ix3 b n d := ⟨i 0, i 1, i 2, eq_ix3 i⟩
  unfold node2
  refine (normArr2_apply _ g beta b n d).trans ?_
  show _ = Cert.NodeSpec.lnorm (Cert.NodeSpec.proj (Cert.NodeSpec.hiddenR (fun d => agg1 (ix3 b n d)) (fun d => agg2 (ix3 b n d))
      (fun d => z (ix3 b n d)) (maximumf cnt1 (broadcastInDim S100000 ![] bcast_S_S100000 (constant (F := Ideal) S_ .f32 0x3F800000#32)) (ix1 n)) (maximumf cnt2 (broadcastInDim S100000 ![] bcast_S_S100000 (constant (F := Ideal) S_ .f32 0x3F800000#32)) (ix1 n))
      (fun h d => Wl1 (ix2 h d)) (fun h d => Wl2 (ix2 h d)) (fun h d => Wr1 (ix2 h d)) (fun h d => Wr2 (ix2 h d))
      (fun h => bl1 (ix1 h)) (fun h => bl2 (ix1 h))) (fun d h => Wp (ix2 d h)) (fun d => bp (ix1 d)))
    (fun d => g (ix1 d)) (fun d => beta (ix1 d)) d
  refine congrArg (fun p => Cert.NodeSpec.lnorm p (fun d => g (ix1 d)) (fun d => beta (ix1 d)) d) (funext fun e => ?_)
  refine (projArr2_apply _ Wp bp b n e).trans ?_
  refine congrArg (fun u => Cert.NodeSpec.proj u (fun d h => Wp (ix2 d h)) (fun d => bp (ix1 d)) e) (funext fun h => ?_)
  exact hiddenArr2_apply agg1 agg2 cnt1 cnt2 z Wl1 Wl2 Wr1 Wr2 bl1 bl2 b n h

end Cert.ReferenceIdeal.RefNode

end
-- ==== Proof.RefHostDefs.lean ====
/-
  The reference program's neighbour aggregates and in-degree counts as functions of the argument arrays (the feature
  array and the relation's edge list), and the run's named terms restated over them.  They are carried opaque: the
  kernel's program computes the very same terms before its fused calls.
-/
import proofs.«125976_j40492951666849_2_alg».proof.Proof.RefNode1Def
import proofs.«125976_j40492951666849_2_alg».proof.Proof.RefNode2Def

set_option maxRecDepth 16384

noncomputable section

namespace Cert.ReferenceIdeal.RefHost

open Cert.ReferenceIdeal Cert.ReferenceIdeal.Gen Cert.ReferenceIdeal.Value Idealize.ShloMosaic Idealize.ShloMosaic.TcCoe Idealize.SL.Sem Idealize.ShloMosaic.StableHlo

variable {F : FTy → Type} [FloatOps F]

/-- Neighbour aggregate of the 20000-node type over the first relation: the source rows of the feature array `z` named by the edge list's first row, scatter-added into zeros at the destinations named by its second row (negative indices wrapped by the node count). -/
def aggPipe (z : FVec F S2x20000x128 .f32) (e : (⟨S2x160000, .i32⟩ : BufTy).Contents (Elt F)) : FVec F S2x20000x128 .f32 :=
  Host.scatterAdd scatter_S2x20000x128_S160000x1_S2x160000x128_02_1_1_1 (broadcastInDim S2x20000x128 ![] bcast_S_S2x20000x128 (constant S_ .f32 0x00000000#32)) (broadcastInDim S160000x1 ![0] bcast_S160000_S160000x1_0 (select (cmpi .slt (shapeCast _ (extractStridedSlice S1x160000 ![1, 0] e slices_S2x160000_S1x160000_1_0) shapeCasts_S1x160000_S160000) (broadcastInDim S160000 ![] bcast_S_S160000 (constantI S_ 32 0#32))) (addi (shapeCast _ (extractStridedSlice S1x160000 ![1, 0] e slices_S2x160000_S1x160000_1_0) shapeCasts_S1x160000_S160000) (broadcastInDim S160000 ![] bcast_S_S160000 (constantI S_ 32 20000#32))) (shapeCast _ (extractStridedSlice S1x160000 ![1, 0] e slices_S2x160000_S1x160000_1_0) shapeCasts_S1x160000_S160000))) (Host.gather gather_S2x20000x128_S160000x1_S2x160000x128_02_1_n_n_1_1_21128 z (broadcastInDim S160000x1 ![0] bcast_S160000_S160000x1_0 (select (cmpi .slt (shapeCast _ (extractStridedSlice S1x160000 ![0, 0] e slices_S2x160000_S1x160000_0_0) shapeCasts_S1x160000_S160000) (broadcastInDim S160000 ![] bcast_S_S160000 (constantI S_ 32 0#32))) (addi (shapeCast _ (extractStridedSlice S1x160000 ![0, 0] e slices_S2x160000_S1x160000_0_0) shapeCasts_S1x160000_S160000) (broadcastInDim S160000 ![] bcast_S_S160000 (constantI S_ 32 20000#32))) (shapeCast _ (extractStridedSlice S1x160000 ![0, 0] e slices_S2x160000_S1x160000_0_0) shapeCasts_S1x160000_S160000))))

/-- In-degrees of the 20000-node type over the first relation: ones scatter-added into zeros at the edge list's destinations. -/
def cntPipe (e : (⟨S2x160000, .i32⟩ : BufTy).Contents (Elt F)) : FVec F S20000 .f32 :=
  Host.scatterAdd scatter_S20000_S160000x1_S160000_n_0_0_1 (broadcastInDim S20000 ![] bcast_S_S20000 (constant S_ .f32 0x00000000#32)) (broadcastInDim S160000x1 ![0] bcast_S160000_S160000x1_0 (select (cmpi .slt (shapeCast _ (extractStridedSlice S1x160000 ![1, 0] e slices_S2x160000_S1x160000_1_0) shapeCasts_S1x160000_S160000) (broadcastInDim S160000 ![] bcast_S_S160000 (constantI S_ 32 0#32))) (addi (shapeCast _ (extractStridedSlice S1x160000 ![1, 0] e slices_S2x160000_S1x160000_1_0) shapeCasts_S1x160000_S160000) (broadcastInDim S160000 ![] bcast_S_S160000 (constantI S_ 32 20000#32))) (shapeCast _ (extractStridedSlice S1x160000 ![1, 0] e slices_S2x160000_S1x160000_1_0) shapeCasts_S1x160000_S160000))) (broadcastInDim S160000 ![] bcast_S_S160000 (constant S_ .f32 0x3F800000#32))

/-- Neighbour aggregate of the 20000-node type over the cross relation (sources among the 100000 nodes). -/
def aggCf (z : FVec F S2x100000x128 .f32) (e : (⟨S2x40000, .i32⟩ : BufTy).Contents (Elt F)) : FVec F S2x20000x128 .f32 :=
  Host.scatterAdd scatter_S2x20000x128_S40000x1_S2x40000x128_02_1_1_1 (broadcastInDim S2x20000x128 ![] bcast_S_S2x20000x128 (constant S_ .f32 0x00000000#32)) (broadcastInDim S40000x1 ![0] bcast_S40000_S40000x1_0 (select (cmpi .slt (shapeCast _ (extractStridedSlice S1x40000 ![1, 0] e slices_S2x40000_S1x40000_1_0) shapeCasts_S1x40000_S40000) (broadcastInDim S40000 ![] bcast_S_S40000 (constantI S_ 32 0#32))) (addi (shapeCast _ (extractStridedSlice S1x40000 ![1, 0] e slices_S2x40000_S1x40000_1_0) shapeCasts_S1x40000_S40000) (broadcastInDim S40000 ![] bcast_S_S40000 (constantI S_ 32 20000#32))) (shapeCast _ (extractStridedSlice S1x40000 ![1, 0] e slices_S2x40000_S1x40000_1_0) shapeCasts_S1x40000_S40000))) (Host.gather gather_S2x100000x128_S40000x1_S2x40000x128_02_1_n_n_1_1_21128 z (broadcastInDim S40000x1 ![0] bcast_S40000_S40000x1_0 (select (cmpi .slt (shapeCast _ (extractStridedSlice S1x40000 ![0, 0] e slices_S2x40000_S1x40000_0_0) shapeCasts_S1x40000_S40000) (broadcastInDim S40000 ![] bcast_S_S40000 (constantI S_ 32 0#32))) (addi (shapeCast _ (extractStridedSlice S1x40000 ![0, 0] e slices_S2x40000_S1x40000_0_0) shapeCasts_S1x40000_S40000) (broadcastInDim S40000 ![] bcast_S_S40000 (constantI S_ 32 100000#32))) (shapeCast _ (extractStridedSlice S1x40000 ![0, 0] e slices_S2x40000_S1x40000_0_0) shapeCasts_S1x40000_S40000))))

/-- In-degrees of the 20000-node type over the cross relation. -/
def cntCf (e : (⟨S2x40000, .i32⟩ : BufTy).Contents (Elt F)) : FVec F S20000 .f32 :=
  Host.scatterAdd scatter_S20000_S40000x1_S40000_n_0_0_1 (broadcastInDim S20000 ![] bcast_S_S20000 (constant S_ .f32 0x00000000#32)) (broadcastInDim S40000x1 ![0] bcast_S40000_S40000x1_0 (select (cmpi .slt (shapeCast _ (extractStridedSlice S1x40000 ![1, 0] e slices_S2x40000_S1x40000_1_0) shapeCasts_S1x40000_S40000) (broadcastInDim S40000 ![] bcast_S_S40000 (constantI S_ 32 0#32))) (addi (shapeCast _ (extractStridedSlice S1x40000 ![1, 0] e slices_S2x40000_S1x40000_1_0) shapeCasts_S1x40000_S40000) (broadcastInDim S40000 ![] bcast_S_S40000 (constantI S_ 32 20000#32))) (shapeCast _ (extractStridedSlice S1x40000 ![1, 0] e slices_S2x40000_S1x40000_1_0) shapeCasts_S1x40000_S40000))) (broadcastInDim S40000 ![] bcast_S_S40000 (constant S_ .f32 0x3F800000#32))

/-- Neighbour aggregate of the 100000-node type over its own relation. -/
def aggSurf (z : FVec F S2x100000x128 .f32) (e : (⟨S2x800000, .i32⟩ : BufTy).Contents (Elt F)) : FVec F S2x100000x128 .f32 :=
  Host.scatterAdd scatter_S2x100000x128_S800000x1_S2x800000x128_02_1_1_1 (broadcastInDim S2x100000x128 ![] bcast_S_S2x100000x128 (constant S_ .f32 0x00000000#32)) (broadcastInDim S800000x1 ![0] bcast_S800000_S800000x1_0 (select (cmpi .slt (shapeCast _ (extractStridedSlice S1x800000 ![1, 0] e slices_S2x800000_S1x800000_1_0) shapeCasts_S1x800000_S800000) (broadcastInDim S800000 ![] bcast_S_S800000 (constantI S_ 32 0#32))) (addi (shapeCast _ (extractStridedSlice S1x800000 ![1, 0] e slices_S2x800000_S1x800000_1_0) shapeCasts_S1x800000_S800000) (broadcastInDim S800000 ![] bcast_S_S800000 (constantI S_ 32 100000#32))) (shapeCast _ (extractStridedSlice S1x800000 ![1, 0] e slices_S2x800000_S1x800000_1_0) shapeCasts_S1x800000_S800000))) (Host.gather gather_S2x100000x128_S800000x1_S2x800000x128_02_1_n_n_1_1_21128 z (broadcastInDim S800000x1 ![0] bcast_S800000_S800000x1_0 (select (cmpi .slt (shapeCast _ (extractStridedSlice S1x800000 ![0, 0] e slices_S2x800000_S1x800000_0_0) shapeCasts_S1x800000_S800000) (broadcastInDim S800000 ![] bcast_S_S800000 (constantI S_ 32 0#32))) (addi (shapeCast _ (extractStridedSlice S1x800000 ![0, 0] e slices_S2x800000_S1x800000_0_0) shapeCasts_S1x800000_S800000) (broadcastInDim S800000 ![] bcast_S_S800000 (constantI S_ 32 100000#32))) (shapeCast _ (extractStridedSlice S1x800000 ![0, 0] e slices_S2x800000_S1x800000_0_0) shapeCasts_S1x800000_S800000))))

/-- In-degrees of the 100000-node type over its own relation. -/
def cntSurf (e : (⟨S2x800000, .i32⟩ : BufTy).Contents (Elt F)) : FVec F S100000 .f32 :=
  Host.scatterAdd scatter_S100000_S800000x1_S800000_n_0_0_1 (broadcastInDim S100000 ![] bcast_S_S100000 (constant S_ .f32 0x00000000#32)) (broadcastInDim S800000x1 ![0] bcast_S800000_S800000x1_0 (select (cmpi .slt (shapeCast _ (extractStridedSlice S1x800000 ![1, 0] e slices_S2x800000_S1x800000_1_0) shapeCasts_S1x800000_S800000) (broadcastInDim S800000 ![] bcast_S_S800000 (constantI S_ 32 0#32))) (addi (shapeCast _ (extractStridedSlice S1x800000 ![1, 0] e slices_S2x800000_S1x800000_1_0) shapeCasts_S1x800000_S800000) (broadcastInDim S800000 ![] bcast_S_S800000 (constantI S_ 32 100000#32))) (shapeCast _ (extractStridedSlice S1x800000 ![1, 0] e slices_S2x800000_S1x800000_1_0) shapeCasts_S1x800000_S800000))) (broadcastInDim S800000 ![] bcast_S_S800000 (constant S_ .f32 0x3F800000#32))

/-- Neighbour aggregate of the 100000-node type over the cross relation (sources among the 20000 nodes). -/
def aggC2 (z : FVec F S2x20000x128 .f32) (e : (⟨S2x40000, .i32⟩ : BufTy).Contents (Elt F)) : FVec F S2x100000x128 .f32 :=
  Host.scatterAdd scatter_S2x100000x128_S40000x1_S2x40000x128_02_1_1_1 (broadcastInDim S2x100000x128 ![] bcast_S_S2x100000x128 (constant S_ .f32 0x00000000#32)) (broadcastInDim S40000x1 ![0] bcast_S40000_S40000x1_0 (select (cmpi .slt (shapeCast _ (extractStridedSlice S1x40000 ![1, 0] e slices_S2x40000_S1x40000_1_0) shapeCasts_S1x40000_S40000) (broadcastInDim S40000 ![] bcast_S_S40000 (constantI S_ 32 0#32))) (addi (shapeCast _ (extractStridedSlice S1x40000 ![1, 0] e slices_S2x40000_S1x40000_1_0) shapeCasts_S1x40000_S40000) (broadcastInDim S40000 ![] bcast_S_S40000 (constantI S_ 32 100000#32))) (shapeCast _ (extractStridedSlice S1x40000 ![1, 0] e slices_S2x40000_S1x40000_1_0) shapeCasts_S1x40000_S40000))) (Host.gather gather_S2x20000x128_S40000x1_S2x40000x128_02_1_n_n_1_1_21128 z (broadcastInDim S40000x1 ![0] bcast_S40000_S40000x1_0 (select (cmpi .slt (shapeCast _ (extractStridedSlice S1x40000 ![0, 0] e slices_S2x40000_S1x40000_0_0) shapeCasts_S1x40000_S40000) (broadcastInDim S40000 ![] bcast_S_S40000 (constantI S_ 32 0#32))) (addi (shapeCast _ (extractStridedSlice S1x40000 ![0, 0] e slices_S2x40000_S1x40000_0_0) shapeCasts_S1x40000_S40000) (broadcastInDim S40000 ![] bcast_S_S40000 (constantI S_ 32 20000#32))) (shapeCast _ (extractStridedSlice S1x40000 ![0, 0] e slices_S2x40000_S1x40000_0_0) shapeCasts_S1x40000_S40000))))

/-- In-degrees of the 100000-node type over the cross relation. -/
def cntC2 (e : (⟨S2x40000, .i32⟩ : BufTy).Contents (Elt F)) : FVec F S100000 .f32 :=
  Host.scatterAdd scatter_S100000_S40000x1_S40000_n_0_0_1 (broadcastInDim S100000 ![] bcast_S_S100000 (constant S_ .f32 0x00000000#32)) (broadcastInDim S40000x1 ![0] bcast_S40000_S40000x1_0 (select (cmpi .slt (shapeCast _ (extractStridedSlice S1x40000 ![1, 0] e slices_S2x40000_S1x40000_1_0) shapeCasts_S1x40000_S40000) (broadcastInDim S40000 ![] bcast_S_S40000 (constantI S_ 32 0#32))) (addi (shapeCast _ (extractStridedSlice S1x40000 ![1, 0] e slices_S2x40000_S1x40000_1_0) shapeCasts_S1x40000_S40000) (broadcastInDim S40000 ![] bcast_S_S40000 (constantI S_ 32 100000#32))) (shapeCast _ (extractStridedSlice S1x40000 ![1, 0] e slices_S2x40000_S1x40000_1_0) shapeCasts_S1x40000_S40000))) (broadcastInDim S40000 ![] bcast_S_S40000 (constant S_ .f32 0x3F800000#32))

/-- The run's term for this array is the function above of the launch contents of its two arguments. -/
theorem aggPipe_eq (V0 : Valuation τ sig (Elt F)) :
    Cert.ReferenceIdeal.RefNode.aggPipe V0 = aggPipe (V0 (Proc.devRef .tc main_arg0)) (V0 (Proc.devRef .tc main_arg2)) := by
  unfold Cert.ReferenceIdeal.RefNode.aggPipe aggPipe res_main_v3 res_main_v1
  rfl

/-- The run's term for this array is the function above of the launch contents of its two arguments. -/
theorem cntPipe_eq (V0 : Valuation τ sig (Elt F)) :
    Cert.ReferenceIdeal.RefNode.cntPipe V0 = cntPipe (V0 (Proc.devRef .tc main_arg2)) := by
  unfold Cert.ReferenceIdeal.RefNode.cntPipe cntPipe res_main_v3
  rfl

/-- The run's term for this array is the function above of the launch contents of its two arguments. -/
theorem aggCf_eq (V0 : Valuation τ sig (Elt F)) :
    Cert.ReferenceIdeal.RefNode.aggCf V0 = aggCf (V0 (Proc.devRef .tc main_arg1)) (V0 (Proc.devRef .tc main_arg5)) := by
  unfold Cert.ReferenceIdeal.RefNode.aggCf aggCf res_main_v42 res_main_v40
  rfl

/-- The run's term for this array is the function above of the launch contents of its two arguments. -/
theorem cntCf_eq (V0 : Valuation τ sig (Elt F)) :
    Cert.ReferenceIdeal.RefNode.cntCf V0 = cntCf (V0 (Proc.devRef .tc main_arg5)) := by
  unfold Cert.ReferenceIdeal.RefNode.cntCf cntCf res_main_v42
  rfl

/-- The run's term for this array is the function above of the launch contents of its two arguments. -/
theorem aggSurf_eq (V0 : Valuation τ sig (Elt F)) :
    Cert.ReferenceIdeal.RefNode.aggSurf V0 = aggSurf (V0 (Proc.devRef .tc main_arg1)) (V0 (Proc.devRef .tc main_arg3)) := by
  unfold Cert.ReferenceIdeal.RefNode.aggSurf aggSurf res_main_v82 res_main_v80
  rfl

/-- The run's term for this array is the function above of the launch contents of its two arguments. -/
theorem cntSurf_eq (V0 : Valuation τ sig (Elt F)) :
    Cert.ReferenceIdeal.RefNode.cntSurf V0 = cntSurf (V0 (Proc.devRef .tc main_arg3)) := by
  unfold Cert.ReferenceIdeal.RefNode.cntSurf cntSurf res_main_v82
  rfl

/-- The run's term for this array is the function above of the launch contents of its two arguments. -/
theorem aggC2_eq (V0 : Valuation τ sig (Elt F)) :
    Cert.ReferenceIdeal.RefNode.aggC2 V0 = aggC2 (V0 (Proc.devRef .tc main_arg0)) (V0 (Proc.devRef .tc main_arg4)) := by
  unfold Cert.ReferenceIdeal.RefNode.aggC2 aggC2 res_main_v121 res_main_v119
  rfl

/-- The run's term for this array is the function above of the launch contents of its two arguments. -/
theorem cntC2_eq (V0 : Valuation τ sig (Elt F)) :
    Cert.ReferenceIdeal.RefNode.cntC2 V0 = cntC2 (V0 (Proc.devRef .tc main_arg4)) := by
  unfold Cert.ReferenceIdeal.RefNode.cntC2 cntC2 res_main_v121
  rfl

end Cert.ReferenceIdeal.RefHost

end
-- ==== Proof.RefOut.lean ====
/-
  The idealized reference program's run with its two results as the specification's whole-array functions of the
  arguments: the generated run states each result as the composed term of the program's operations; that term is the
  node update in the reference's arrangement (division by the clamped in-degrees, the two SAGE terms added, the
  projection, the layer norm) of the neighbour aggregates and in-degree counts, which stay named functions of the feature
  arrays and edge lists.
-/
import proofs.«125976_j40492951666849_2_alg».proof.Proof.RefNode1
import proofs.«125976_j40492951666849_2_alg».proof.Proof.RefNode2
import proofs.«125976_j40492951666849_2_alg».proof.Proof.RefHostDefs

set_option maxRecDepth 16384

noncomputable section

namespace Cert.ReferenceIdeal.Out

open Cert.ReferenceIdeal Cert.ReferenceIdeal.Gen Cert.ReferenceIdeal.Value Cert.ReferenceIdeal.RefHost Idealize.ShloMosaic Idealize.ShloMosaic.TcCoe Idealize.SL.Sem Idealize.ShloMosaic.StableHlo

variable (m : (ℓ : Loc nD τ sig) → Buf (Elt Ideal) ℓ) (ρ : Dev nD → PrngReg)

/-- Every weakly fair execution of the reference terminates with its two results at the node updates of the two node
    types, in the reference's arrangement, and its arguments unchanged. -/
theorem run_R : θ_run defs (onTc (τ := τ) (main (F := Ideal))) ⟨m, fun _ => 0, ρ⟩ (fun r => ∀ c : Dev nD,
      r.2.mem ((c.tc : Thread nD τ).loc main_v185)
        = Cert.NodeSpec.arrR 20000 (aggPipe (m ((c.tc : Thread nD τ).loc main_arg0)) (m ((c.tc : Thread nD τ).loc main_arg2))) (aggCf (m ((c.tc : Thread nD τ).loc main_arg1)) (m ((c.tc : Thread nD τ).loc main_arg5)))
        (maximumf (cntPipe (m ((c.tc : Thread nD τ).loc main_arg2))) (broadcastInDim S20000 ![] bcast_S_S20000 (constant (F := Ideal) S_ .f32 0x3F800000#32))) (maximumf (cntCf (m ((c.tc : Thread nD τ).loc main_arg5))) (broadcastInDim S20000 ![] bcast_S_S20000 (constant (F := Ideal) S_ .f32 0x3F800000#32)))
        (m ((c.tc : Thread nD τ).loc main_arg0)) (m ((c.tc : Thread nD τ).loc main_arg6)) (m ((c.tc : Thread nD τ).loc main_arg15)) (m ((c.tc : Thread nD τ).loc main_arg8)) (m ((c.tc : Thread nD τ).loc main_arg17)) (m ((c.tc : Thread nD τ).loc main_arg7)) (m ((c.tc : Thread nD τ).loc main_arg16)) (m ((c.tc : Thread nD τ).loc main_arg18)) (m ((c.tc : Thread nD τ).loc main_arg19)) (m ((c.tc : Thread nD τ).loc main_arg22)) (m ((c.tc : Thread nD τ).loc main_arg23))
      ∧ r.2.mem ((c.tc : Thread nD τ).loc main_v213)
        = Cert.NodeSpec.arrR 100000 (aggSurf (m ((c.tc : Thread nD τ).loc main_arg1)) (m ((c.tc : Thread nD τ).loc main_arg3))) (aggC2 (m ((c.tc : Thread nD τ).loc main_arg0)) (m ((c.tc : Thread nD τ).loc main_arg4)))
        (maximumf (cntSurf (m ((c.tc : Thread nD τ).loc main_arg3))) (broadcastInDim S100000 ![] bcast_S_S100000 (constant (F := Ideal) S_ .f32 0x3F800000#32))) (maximumf (cntC2 (m ((c.tc : Thread nD τ).loc main_arg4))) (broadcastInDim S100000 ![] bcast_S_S100000 (constant (F := Ideal) S_ .f32 0x3F800000#32)))
        (m ((c.tc : Thread nD τ).loc main_arg1)) (m ((c.tc : Thread nD τ).loc main_arg9)) (m ((c.tc : Thread nD τ).loc main_arg12)) (m ((c.tc : Thread nD τ).loc main_arg11)) (m ((c.tc : Thread nD τ).loc main_arg14)) (m ((c.tc : Thread nD τ).loc main_arg10)) (m ((c.tc : Thread nD τ).loc main_arg13)) (m ((c.tc : Thread nD τ).loc main_arg20)) (m ((c.tc : Thread nD τ).loc main_arg21)) (m ((c.tc : Thread nD τ).loc main_arg24)) (m ((c.tc : Thread nD τ).loc main_arg25))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) := by
  refine (θ_run defs _ _).mono (fun _ h c => ⟨?_, ?_, (h c).2.2⟩) (Cert.ReferenceIdeal.Value.run (F := Ideal) m ρ)
  · refine (h c).1.trans ((Cert.ReferenceIdeal.RefNode.v185_eq (launchContents m c)).trans
      ((Cert.ReferenceIdeal.RefNode.node1_eq _ _ _ _ _ _ _ _ _ _ _ _ _ _ _).trans ?_))
    rw [aggPipe_eq, aggCf_eq, cntPipe_eq, cntCf_eq]
  · refine (h c).2.1.trans ((Cert.ReferenceIdeal.RefNode.v213_eq (launchContents m c)).trans
      ((Cert.ReferenceIdeal.RefNode.node2_eq _ _ _ _ _ _ _ _ _ _ _ _ _ _ _).trans ?_))
    rw [aggSurf_eq, aggC2_eq, cntSurf_eq, cntC2_eq]

end Cert.ReferenceIdeal.Out

end
-- ==== Proof.FiniteInputs.lean ====
/-
  Finiteness of the inputs, read off the precondition.

  The precondition computes, for each of the 22 floating-point argument arrays x, the conjunction over all entries of
  the comparison |x| < +inf, and the conjunction of these 22 bits; it is assumed to come out 1.  A conjunction of bits
  that is 1 has every conjunct 1; an all-reduction by 'and' that is 1 had a 1 at every entry; and on the extended reals
  |x| = max x (-x) < ⊤ leaves neither x = ⊤ nor x = ⊥ (whose negation is ⊤): x is a real number.
-/
import proofs.«125976_j40492951666849_2_alg».proof.Proof.Gen.Pre_finite_inputs
import Idealize.ShloMosaic.Lib.ReduceAll
import Idealize.ShloMosaic.Lib.ValueIdx
import Idealize.ShloMosaic.PureOps.Ideal.Laws

noncomputable section

namespace Cert.FiniteInputs

open Idealize.ShloMosaic Idealize.ShloMosaic.ValueIdx Cert.Pre_finite_inputs

/-- The rank-0 shape has one index. -/
instance : Subsingleton S_.Idx := ⟨fun a b => funext fun d => d.elim0⟩

/-- The word 0x7F800000 (sign 0, exponent all ones, fraction 0) denotes +inf. -/
theorem ofBits_inf : Ideal.ofBits .f32 0x7F800000#32 = ⊤ := by simp [Ideal.ofBits, Ideal.ieee]

/-- An extended real whose absolute value max x (-x) is below ⊤ is a real number. -/
theorem real_of_abs_lt (x : EReal) (h : Ideal.cmp .olt (max x (-x)) ⊤ = 1#1) : ∃ r : ℝ, x = (r : EReal) := by
  have hlt : max x (-x) < ⊤ := by
    by_contra hn
    have h0 : Ideal.cmp .olt (max x (-x)) ⊤ = 0#1 := by simp [Ideal.cmp, hn]
    rw [h0] at h
    exact absurd h (by decide)
  have hx : x ≠ ⊤ := fun e => by rw [e] at hlt; simp at hlt
  have hx' : x ≠ ⊥ := fun e => by rw [e] at hlt; simp at hlt
  exact ⟨x.toReal, (EReal.coe_toReal hx hx').symm⟩

/-- If the all-reduction by 'and' of (|x| < +inf) over an array x of any shape is 1, every entry of x is a real. -/
theorem real_of_all {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi (cmpf .olt (Host.absf x) (broadcastInDim s ![] hb (constant S_ .f32 0x7F800000#32)))
          (constantI S_ 1 1#1) hr hu ix0 = 1#1)
    (i : s.Idx) : ∃ r : ℝ, x i = (r : EReal) := by
  have hi := Host.reduce_andi_all _ _ hr hu ix0 e i
  have hi' : Ideal.cmp .olt (max (x i) (-(x i))) (Ideal.ofBits .f32 0x7F800000#32) = 1#1 := hi
  rw [ofBits_inf] at hi'
  exact real_of_abs_lt (x i) hi'

/-- The precondition at 1 makes every entry of the two feature arrays and of the four self-weights a real number. -/
theorem real_of_fn [Cert.Pre_finite_inputs.Facts] (a0 : FVec Ideal S2x20000x128 .f32) (a1 : FVec Ideal S2x100000x128 .f32) (a2 : IVec S2x160000 32) (a3 : IVec S2x800000 32) (a4 : IVec S2x40000 32) (a5 : IVec S2x40000 32) (a6 : FVec Ideal S256x128 .f32) (a7 : FVec Ideal S256 .f32) (a8 : FVec Ideal S256x128 .f32) (a9 : FVec Ideal S256x128 .f32) (a10 : FVec Ideal S256 .f32) (a11 : FVec Ideal S256x128 .f32) (a12 : FVec Ideal S256x128 .f32) (a13 : FVec Ideal S256 .f32) (a14 : FVec Ideal S256x128 .f32) (a15 : FVec Ideal S256x128 .f32) (a16 : FVec Ideal S256 .f32) (a17 : FVec Ideal S256x128 .f32) (a18 : FVec Ideal S128x256 .f32) (a19 : FVec Ideal S128 .f32) (a20 : FVec Ideal S128x256 .f32) (a21 : FVec Ideal S128 .f32) (a22 : FVec Ideal S128 .f32) (a23 : FVec Ideal S128 .f32) (a24 : FVec Ideal S128 .f32) (a25 : FVec Ideal S128 .f32)
    (h : Cert.Pre_finite_inputs.fn (F := Ideal) a0 a1 a2 a3 a4 a5 a6 a7 a8 a9 a10 a11 a12 a13 a14 a15 a16 a17 a18 a19 a20 a21 a22 a23 a24 a25 = fun _ => 1#1) :
    (∀ i, ∃ r : ℝ, a0 i = (r : EReal)) ∧ (∀ i, ∃ r : ℝ, a1 i = (r : EReal)) ∧ (∀ i, ∃ r : ℝ, a8 i = (r : EReal)) ∧ (∀ i, ∃ r : ℝ, a11 i = (r : EReal)) ∧ (∀ i, ∃ r : ℝ, a14 i = (r : EReal)) ∧ (∀ i, ∃ r : ℝ, a17 i = (r : EReal)) := by
  have h0 := congrFun h ix0
  dsimp only [fn, fn_part1, fn_part2, fn_part3, fn_part4, fn_part5, fn_part6, Idealize.ShloMosaic.andi] at h0
  simp only [IntOp.andi_eq_one, and_assoc] at h0
  obtain ⟨p0, p1, p6, p7, p8, p9, p10, p11, p12, p13, p14, p15, p16, p17, p18, p19, p20, p21, p22, p23, p24, p25⟩ := h0
  exact ⟨real_of_all a0 _ _ _ p0, real_of_all a1 _ _ _ p1, real_of_all a8 _ _ _ p8, real_of_all a11 _ _ _ p11, real_of_all a14 _ _ _ p14, real_of_all a17 _ _ _ p17⟩

end Cert.FiniteInputs

end
-- ==== Proof.lean ====
/-
  One block of heterogeneous message passing: for each of two node types (20000 and 100000 nodes, batch 2, 128 features),
  mean-aggregate the neighbours' features over two relations, apply a SAGE layer per relation
  ((aggregate / max(in-degree, 1)) · Wlᵀ + bl + z · Wrᵀ), add the two, project back to 128 features and layer-normalise.

  The kernel program computes the gather / scatter-add aggregates and the in-degree counts on the host exactly as the
  reference does, then one fused call per node type, tiled over the node axis, that takes the aggregates, the packed
  reciprocals 1 / max(count, 1), the features, the two aggregate weights, the SUM of the two self-weights and the SUM of
  the two biases, and does the three matrix products, the projection and the layer norm on each block of rows.

  At the ideal instance (floats are extended reals, every operation exact) the two programs agree because
    * a · (1 / c) = a / c on the extended reals for every c ≠ 0, and a clamped count max(count, 1) is at least 1;
    * z · (u + v) = z · u + z · v for real z, u, v — the features and the self-weights are finite by the precondition;
    * the rest is a regrouping of a sum, and the same projection and layer norm applied to equal hidden rows.
  The aggregates and counts are never opened: both programs carry the same terms.

  Frames: the two kernel programs' frame certificates and the reference's run are the generated ones.  The idealization
  rewrote no operation, so 'preserves' asks nothing.
-/
import proofs.«125976_j40492951666849_2_alg».proof.Defs
import proofs.«125976_j40492951666849_2_alg».proof.Proof.Gen.Kernel
import proofs.«125976_j40492951666849_2_alg».proof.Proof.Gen.Kernel.Skeleton
import proofs.«125976_j40492951666849_2_alg».proof.Proof.Gen.Kernel.Launch
import proofs.«125976_j40492951666849_2_alg».proof.Proof.Gen.Kernel.Points
import proofs.«125976_j40492951666849_2_alg».proof.Proof.Gen.Kernel.Frame
import proofs.«125976_j40492951666849_2_alg».proof.Proof.Gen.KernelIdeal
import proofs.«125976_j40492951666849_2_alg».proof.Proof.Gen.KernelIdeal.Skeleton
import proofs.«125976_j40492951666849_2_alg».proof.Proof.Gen.KernelIdeal.Launch
import proofs.«125976_j40492951666849_2_alg».proof.Proof.Gen.KernelIdeal.Points
import proofs.«125976_j40492951666849_2_alg».proof.Proof.Gen.KernelIdeal.Frame
import proofs.«125976_j40492951666849_2_alg».proof.Proof.Gen.ReferenceIdeal
import proofs.«125976_j40492951666849_2_alg».proof.Proof.Gen.ReferenceIdeal.Run
import proofs.«125976_j40492951666849_2_alg».proof.Proof.Gen.Pre_finite_inputs
import proofs.«125976_j40492951666849_2_alg».proof.Proof.KernelOut1
import proofs.«125976_j40492951666849_2_alg».proof.Proof.KernelOut2
import proofs.«125976_j40492951666849_2_alg».proof.Proof.RefOut
import proofs.«125976_j40492951666849_2_alg».proof.Proof.FiniteInputs
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- From memories agreeing on the arguments both programs end with, per node type, the same array: the kernel's result is
    the node update in the reference's arrangement of the kernel's own aggregates and counts, the reference's result the
    same function of the reference's; the arguments agree and the aggregates and counts are the same functions of them. -/
theorem algebraic : Cert.algebraic_KernelIdeal_ReferenceIdeal := by
  intro m ρ m' ρ' hpre hagree
  refine ⟨fun c => Cert.KernelIdeal.Gen.W4 m ρ c (Proc.devRef .tc Cert.KernelIdeal.main_v142),
    fun c => Cert.KernelIdeal.Gen.W4 m ρ c (Proc.devRef .tc Cert.KernelIdeal.main_v147),
    Cert.KernelIdeal.WholeRun.run_full m ρ, ?_⟩
  refine (θ_run Cert.ReferenceIdeal.defs _ _).mono (fun r h c => ?_) (Cert.ReferenceIdeal.Out.run_R m' ρ')
  obtain ⟨a0, a1, a2, a3, a4, a5, a6, a7, a8, a9, a10, a11, a12, a13, a14, a15, a16, a17, a18, a19, a20, a21, a22, a23, a24, a25⟩ := hagree c
  obtain ⟨f0, f1, f8, f11, f14, f17⟩ :=
    Cert.FiniteInputs.real_of_fn _ _ _ _ _ _ _ _ _ _ _ _ _ _ _ _ _ _ _ _ _ _ _ _ _ _ (hpre c)
  refine ⟨(h c).1.trans ?_, (h c).2.1.trans ?_, (h c).2.2⟩
  · refine Eq.trans ?_ (Cert.KernelIdeal.Out1.value_R m ρ c f0 f8 f17).symm
    rw [a0, a1, a2, a5, a6, a7, a8, a15, a16, a17, a18, a19, a22, a23]
    rfl
  · refine Eq.trans ?_ (Cert.KernelIdeal.Out2.value_R m ρ c f1 f11 f14).symm
    rw [a0, a1, a3, a4, a9, a10, a11, a12, a13, a14, a20, a21, a24, a25]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
